-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x165 : Shape := ⟨2, ![500000, 165]⟩
abbrev S2x2000000 : Shape := ⟨2, ![2, 2000000]⟩
abbrev S2000000 : Shape := ⟨1, ![2000000]⟩
abbrev S500000x32 : Shape := ⟨2, ![500000, 32]⟩
abbrev S165x32 : Shape := ⟨2, ![165, 32]⟩
abbrev S1x32 : Shape := ⟨2, ![1, 32]⟩
abbrev S32x32 : Shape := ⟨2, ![32, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S500000x165 : S_.BroadcastsInDim S500000x165 (![] : Fin 0 → Fin S500000x165.rank)
  reducesTo_S500000x165_S_d0_1 : S500000x165.ReducesTo [0, 1] S_
  h_S_ : 0 < S_.numel
  bcast_S_S2000000 : S_.BroadcastsInDim S2000000 (![] : Fin 0 → Fin S2000000.rank)
  reducesTo_S2000000_S_d0 : S2000000.ReducesTo [0] S_
  bcast_S_S500000x32 : S_.BroadcastsInDim S500000x32 (![] : Fin 0 → Fin S500000x32.rank)
  reducesTo_S500000x32_S_d0_1 : S500000x32.ReducesTo [0, 1] S_
  bcast_S_S165x32 : S_.BroadcastsInDim S165x32 (![] : Fin 0 → Fin S165x32.rank)
  reducesTo_S165x32_S_d0_1 : S165x32.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg22 : FVec F S2 .f32) (main_v98 : IVec S_ 1) (main_v101 : IVec S32x2 1) (main_c_39 : IVec S_ 1) : IVec S_ 1 :=
  let main_v102 : IVec S_ 1 := (fun x v => Host.reduce IntOp.andi x v reducesTo_S32x2_S_d0_1 h_S_) main_v101 main_c_39
  let main_v103 : IVec S_ 1 := andi main_v98 main_v102
  let main_v104 : FVec F S2 .f32 := Host.absf main_arg22
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg19 : FVec F S32 .f32) (main_arg20 : FVec F S32 .f32) (main_arg21 : FVec F S32x2 .f32) (main_arg22 : FVec F S2 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x2 .f32 := Host.absf main_arg21
  let main_cst_38 : FVec F S_ .f32 := constant S_ .f32 0x7F800000#32
  let main_v100 : FVec F S32x2 .f32 := broadcastInDim S32x2 ![] bcast_S_S32x2 main_cst_38
  let main_v101 : IVec S32x2 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v63 : IVec S_ 1) (main_v67 : IVec S_ 1) : IVec S_ 1 :=
  let main_v68 : IVec S_ 1 := andi main_v63 main_v67
  let main_v69 : FVec F S32x32 .f32 := Host.absf main_arg15
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32x32 .f32 := Host.absf main_arg16
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v48 : IVec S_ 1) (main_v49 : FVec F S1x32 .f32) (main_v50 : FVec F S1x32 .f32) : IVec S_ 1 :=
  let main_v51 : IVec S1x32 1 := cmpf .olt main_v49 main_v50
  let main_c_19 : IVec S_ 1 := constantI S_ 1 1#1
  let main_v52 : IVec S_ 1 := (fun x v => Host.reduce IntOp.andi x v reducesTo_S1x32_S_d0_1 h_S_) main_v51 main_c_19
  let main_v53 : IVec S_ 1 := andi main_v48 main_v52
  let main_v54 : FVec F S1x32 .f32 := Host.absf main_arg12
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32x32 .f32 := Host.absf main_arg14
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S165x32 .f32) (main_arg9 : FVec F S1x32 .f32) (main_arg10 : FVec F S1x32 .f32) (main_arg11 : FVec F S1x32 .f32) (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v33 : IVec S_ 1) : IVec S_ 1 :=
  let main_v34 : FVec F S165x32 .f32 := Host.absf main_arg8
  let main_cst_12 : FVec F S_ .f32 := constant S_ .f32 0x7F800000#32
  let main_v35 : FVec F S165x32 .f32 := broadcastInDim S165x32 ![] bcast_S_S165x32 main_cst_12
  let main_v36 : IVec S165x32 1 := cmpf .olt main_v34 main_v35
  let main_c_13 : IVec S_ 1 := constantI S_ 1 1#1
  let main_v37 : IVec S_ 1 := (fun x v => Host.reduce IntOp.andi x v reducesTo_S165x32_S_d0_1 h_S_) main_v36 main_c_13
  let main_v38 : IVec S_ 1 := andi main_v33 main_v37
  let main_v39 : FVec F S1x32 .f32 := Host.absf main_arg9
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1x32 .f32 := Host.absf main_arg10
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S1x32 .f32 := Host.absf main_arg11
  let main_cst_18 : FVec F S_ .f32 := constant S_ .f32 0x7F800000#32
  let main_v50 : FVec F S1x32 .f32 := broadcastInDim S1x32 ![] bcast_S_S1x32 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S165x32 .f32) (main_arg6 : FVec F S165x32 .f32) (main_arg7 : FVec F S165x32 .f32) (main_arg8 : FVec F S165x32 .f32) (main_arg9 : FVec F S1x32 .f32) (main_arg10 : FVec F S1x32 .f32) (main_arg11 : FVec F S1x32 .f32) (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  let main_v19 : FVec F S165x32 .f32 := Host.absf main_arg5
  let main_cst_6 : FVec F S_ .f32 := constant S_ .f32 0x7F800000#32
  let main_v20 : FVec F S165x32 .f32 := broadcastInDim S165x32 ![] bcast_S_S165x32 main_cst_6
  let main_v21 : IVec S165x32 1 := cmpf .olt main_v19 main_v20
  let main_c_7 : IVec S_ 1 := constantI S_ 1 1#1
  let main_v22 : IVec S_ 1 := (fun x v => Host.reduce IntOp.andi x v reducesTo_S165x32_S_d0_1 h_S_) main_v21 main_c_7
  let main_v23 : IVec S_ 1 := andi main_v18 main_v22
  let main_v24 : FVec F S165x32 .f32 := Host.absf main_arg6
  let main_cst_8 : FVec F S_ .f32 := constant S_ .f32 0x7F800000#32
  let main_v25 : FVec F S165x32 .f32 := broadcastInDim S165x32 ![] bcast_S_S165x32 main_cst_8
  let main_v26 : IVec S165x32 1 := cmpf .olt main_v24 main_v25
  let main_c_9 : IVec S_ 1 := constantI S_ 1 1#1
  let main_v27 : IVec S_ 1 := (fun x v => Host.reduce IntOp.andi x v reducesTo_S165x32_S_d0_1 h_S_) main_v26 main_c_9
  let main_v28 : IVec S_ 1 := andi main_v23 main_v27
  let main_v29 : FVec F S165x32 .f32 := Host.absf main_arg7
  let main_cst_10 : FVec F S_ .f32 := constant S_ .f32 0x7F800000#32
  let main_v30 : FVec F S165x32 .f32 := broadcastInDim S165x32 ![] bcast_S_S165x32 main_cst_10
  let main_v31 : IVec S165x32 1 := cmpf .olt main_v29 main_v30
  let main_c_11 : IVec S_ 1 := constantI S_ 1 1#1
  let main_v32 : IVec S_ 1 := (fun x v => Host.reduce IntOp.andi x v reducesTo_S165x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S500000x165 .f32) (main_arg1 : IVec S2x2000000 32) (main_arg2 : FVec F S2000000 .f32) (main_arg3 : FVec F S500000x32 .f32) (main_arg4 : FVec F S500000x32 .f32) (main_arg5 : FVec F S165x32 .f32) (main_arg6 : FVec F S165x32 .f32) (main_arg7 : FVec F S165x32 .f32) (main_arg8 : FVec F S165x32 .f32) (main_arg9 : FVec F S1x32 .f32) (main_arg10 : FVec F S1x32 .f32) (main_arg11 : FVec F S1x32 .f32) (main_arg12 : FVec F S1x32 .f32) (main_arg13 : FVec F S32x32 .f32) (main_arg14 : FVec F S32x32 .f32) (main_arg15 : FVec F S32x32 .f32) (main_arg16 : FVec F S32x32 .f32) (main_arg17 : FVec F S32 .f32) (main_arg18 : FVec F S32 .f32) (main_arg19 : FVec F S32 .f32) (main_arg20 : FVec F S32 .f32) (main_arg21 : FVec F S32x2 .f32) (main_arg22 : FVec F S2 .f32) : IVec S_ 1 :=
  let main_v0 : FVec F S500000x165 .f32 := Host.absf main_arg0
  let main_cst : FVec F S_ .f32 := constant S_ .f32 0x7F800000#32
  let main_v1 : FVec F S500000x165 .f32 := broadcastInDim S500000x165 ![] bcast_S_S500000x165 main_cst
  let main_v2 : IVec S500000x165 1 := cmpf .olt main_v0 main_v1
  let main_c : IVec S_ 1 := constantI S_ 1 1#1
  let main_v3 : IVec S_ 1 := (fun x v => Host.reduce IntOp.andi x v reducesTo_S500000x165_S_d0_1 h_S_) main_v2 main_c
  let main_v4 : FVec F S2000000 .f32 := Host.absf main_arg2
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S500000x32 .f32 := Host.absf main_arg3
  let main_cst_2 : FVec F S_ .f32 := constant S_ .f32 0x7F800000#32
  let main_v10 : FVec F S500000x32 .f32 := broadcastInDim S500000x32 ![] bcast_S_S500000x32 main_cst_2
  let main_v11 : IVec S500000x32 1 := cmpf .olt main_v9 main_v10
  let main_c_3 : IVec S_ 1 := constantI S_ 1 1#1
  let main_v12 : IVec S_ 1 := (fun x v => Host.reduce IntOp.andi x v reducesTo_S500000x32_S_d0_1 h_S_) main_v11 main_c_3
  let main_v13 : IVec S_ 1 := andi main_v8 main_v12
  let main_v14 : FVec F S500000x32 .f32 := Host.absf main_arg4
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S500000x165 : Shape := ⟨2, ![500000, 165]⟩
abbrev S2x2000000 : Shape := ⟨2, ![2, 2000000]⟩
abbrev S2000000 : Shape := ⟨1, ![2000000]⟩
abbrev S500000x32 : Shape := ⟨2, ![500000, 32]⟩
abbrev S165x32 : Shape := ⟨2, ![165, 32]⟩
abbrev S1x32 : Shape := ⟨2, ![1, 32]⟩
abbrev S32x32 : Shape := ⟨2, ![32, 32]⟩
abbrev S32 : Shape := ⟨1, ![32]⟩
abbrev S32x2 : Shape := ⟨2, ![32, 2]⟩
abbrev S2 : Shape := ⟨1, ![2]⟩
abbrev S165x128 : Shape := ⟨2, ![165, 128]⟩
abbrev S32x128 : Shape := ⟨2, ![32, 128]⟩
abbrev S1x128 : Shape := ⟨2, ![1, 128]⟩
abbrev S1x2 : Shape := ⟨2, ![1, 2]⟩
abbrev S500000x2 : Shape := ⟨2, ![500000, 2]⟩
abbrev S6144x165 : Shape := ⟨2, ![6144, 165]⟩
abbrev S6144x32 : Shape := ⟨2, ![6144, 32]⟩
abbrev S6144x2 : Shape := ⟨2, ![6144, 2]⟩
abbrev S6144x128 : Shape := ⟨2, ![6144, 128]⟩

abbrev nBuf : Space → Nat
  | .hbm => 38
  | .vmem => 17
  | .smem => 0
  | _ => 0

abbrev bufTy : (tb : Table) → Fin (tcTables nBuf tb) → BufTy
  | .hbm, ⟨0, _⟩ => ⟨S500000x165, .f32⟩
  | .hbm, ⟨1, _⟩ => ⟨S2x2000000, .i32⟩
  | .hbm, ⟨2, _⟩ => ⟨S2000000, .f32⟩
  | .hbm, ⟨3, _⟩ => ⟨S500000x32, .f32⟩
  | .hbm, ⟨4, _⟩ => ⟨S500000x32, .f32⟩
  | .hbm, ⟨5, _⟩ => ⟨S165x32, .f32⟩
  | .hbm, ⟨6, _⟩ => ⟨S165x32, .f32⟩
  | .hbm, ⟨7, _⟩ => ⟨S165x32, .f32⟩
  | .hbm, ⟨8, _⟩ => ⟨S165x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32x2, .f32⟩
  | .hbm, ⟨22, _⟩ => ⟨S2, .f32⟩
  | .hbm, ⟨23, _⟩ => ⟨S165x128, .f32⟩
  | .hbm, ⟨24, _⟩ => ⟨S32x128, .f32⟩
  | .hbm, ⟨25, _⟩ => ⟨S1x32, .f32⟩
  | .hbm, ⟨26, _⟩ => ⟨S1x32, .f32⟩
  | .hbm, ⟨27, _⟩ => ⟨S1x32, .f32⟩
  | .hbm, ⟨28, _⟩ => ⟨S1x32, .f32⟩
  | .hbm, ⟨29, _⟩ => ⟨S1x32, .f32⟩
  | .hbm, ⟨30, _⟩ => ⟨S1x32, .f32⟩
  | .hbm, ⟨31, _⟩ => ⟨S1x32, .f32⟩
  | .hbm, ⟨32, _⟩ => ⟨S1x32, .f32⟩
  | .hbm, ⟨33, _⟩ => ⟨S1x128, .f32⟩
  | .hbm, ⟨34, _⟩ => ⟨S1x2, .f32⟩
  | .hbm, ⟨35, _⟩ => ⟨S500000x2, .f32⟩
  | .hbm, ⟨36, _⟩ => ⟨S500000x32, .f32⟩
  | .hbm, ⟨37, _⟩ => ⟨S500000x32, .f32⟩
  | .local _ .vmem, ⟨0, _⟩ => ⟨S6144x165, .f32⟩
  | .local _ .vmem, ⟨1, _⟩ => ⟨S6144x165, .f32⟩
  | .local _ .vmem, ⟨2, _⟩ => ⟨S6144x32, .f32⟩
  | .local _ .vmem, ⟨3, _⟩ => ⟨S6144x32, .f32⟩
  | .local _ .vmem, ⟨4, _⟩ => ⟨S6144x32, .f32⟩
  | .local _ .vmem, ⟨5, _⟩ => ⟨S6144x32, .f32⟩
  | .local _ .vmem, ⟨6, _⟩ => ⟨S165x128, .f32⟩
  | .local _ .vmem, ⟨7, _⟩ => ⟨S32x128, .f32⟩
  | .local _ .vmem, ⟨8, _⟩ => ⟨S1x128, .f32⟩
  | .local _ .vmem, ⟨9, _⟩ => ⟨S32x2, .f32⟩
  | .local _ .vmem, ⟨10, _⟩ => ⟨S1x2, .f32⟩
  | .local _ .vmem, ⟨11, _⟩ => ⟨S6144x2, .f32⟩
  | .local _ .vmem, ⟨12, _⟩ => ⟨S6144x2, .f32⟩
  | .local _ .vmem, ⟨13, _⟩ => ⟨S6144x32, .f32⟩
  | .local _ .vmem, ⟨14, _⟩ => ⟨S6144x32, .f32⟩
  | .local _ .vmem, ⟨15, _⟩ => ⟨S6144x32, .f32⟩
  | .local _ .vmem, ⟨16, _⟩ => ⟨S6144x32, .f32⟩
  | _, _ => ⟨S500000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![82], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6144x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6144x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S165x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S6144x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S6144x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S6144x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S165x32_S165x32_S165x32_S165x32_S165x128_d1 : Shape.Concatenates [S165x32, S165x32, S165x32, S165x32] S165x128 1
  concatenates_S32x32_S32x32_S32x32_S32x32_S32x128_d1 : Shape.Concatenates [S32x32, S32x32, S32x32, S32x32] S32x128 1
  bcast_S32_S1x32_1 : S32.BroadcastsInDim S1x32 (![1] : Fin 1 → Fin S1x32.rank)
  concatenates_S1x32_S1x32_S1x32_S1x32_S1x128_d1 : Shape.Concatenates [S1x32, S1x32, S1x32, S1x32] S1x128 1
  bcast_S2_S1x2_1 : S2.BroadcastsInDim S1x2 (![1] : Fin 1 → Fin S1x2.rank)
  inb_S6144x165_S6144x165_0_0 : ∀ a, (![0, 0] : Fin 2 → Nat) a + S6144x165.size a ≤ S6144x165.size a
  h_S6144x165 : 0 < S6144x165.numel
  inb_S6144x32_S6144x32_0_0 : ∀ a, (![0, 0] : Fin 2 → Nat) a + S6144x32.size a ≤ S6144x32.size a
  h_S6144x32 : 0 < S6144x32.numel
  inb_S165x128_S165x128_0_0 : ∀ a, (![0, 0] : Fin 2 → Nat) a + S165x128.size a ≤ S165x128.size a
  h_S165x128 : 0 < S165x128.numel
  shapeCasts_S165x128_S165x128 : S165x128.ShapeCasts S165x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6144x128 : S1x128.Broadcasts S6144x128
  slices_S6144x128_o0_0_S6144x32 : S6144x128.Slices ![0, 0] S6144x32
  slices_S6144x128_o0_32_S6144x32 : S6144x128.Slices ![0, 32] S6144x32
  slices_S6144x128_o0_64_S6144x32 : S6144x128.Slices ![0, 64] S6144x32
  slices_S6144x128_o0_96_S6144x32 : S6144x128.Slices ![0, 96] S6144x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S6144x2 : S1x2.Broadcasts S6144x2
  inb_S6144x2_S6144x2_0_0 : ∀ a, (![0, 0] : Fin 2 → Nat) a + S6144x2.size a ≤ S6144x2.size a
  h_S6144x2 : 0 < S6144x2.numel
  dot_S6144x165_S165x128_S6144x128_1_0_0_1_n_n_wf : DotDims.WF S6144x165 S165x128 S6144x128 [1] [0] [0] [1] [] []
  dot_S6144x32_S32x128_S6144x128_1_0_0_1_n_n_wf : DotDims.WF S6144x32 S32x128 S6144x128 [1] [0] [0] [1] [] []
  dot_S6144x32_S32x2_S6144x2_1_0_0_1_n_n_wf : DotDims.WF S6144x32 S32x2 S6144x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6144x165.size a < S500000x165.size a
  hwx0_0 : ∀ i : grid0.Coords, EltTy.bits .f32 = 32 ∨ (Rect.unit (s := S500000x165) (fun a => cc0_transform_0 i a * S6144x165.size a) (fun a => (Pipeline.Clip.of (cc0_transform_0 i a) (S6144x165.size a) (S500000x165.size a)).extent (S6144x165.size a)) fun a => Pipeline.Clip.inb (Pipeline.Clip.ok_of (hstart0_0 i a))).WholeWords (EltTy.packing .f32)
  hwxs0_0 : ∀ i : grid0.Coords, EltTy.bits .f32 = 32 ∨ (Rect.unit (s := S6144x165) (fun _ => 0) (fun a => (Pipeline.Clip.of (cc0_transform_0 i a) (S6144x165.size a) (S500000x165.size a)).extent (S6144x165.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S6144x32.size a < S500000x32.size a
  hwx0_1 : ∀ i : grid0.Coords, EltTy.bits .f32 = 32 ∨ (Rect.unit (s := S500000x32) (fun a => cc0_transform_1 i a * S6144x32.size a) (fun a => (Pipeline.Clip.of (cc0_transform_1 i a) (S6144x32.size a) (S500000x32.size a)).extent (S6144x32.size a)) fun a => Pipeline.Clip.inb (Pipeline.Clip.ok_of (hstart0_1 i a))).WholeWords (EltTy.packing .f32)
  hwxs0_1 : ∀ i : grid0.Coords, EltTy.bits .f32 = 32 ∨ (Rect.unit (s := S6144x32) (fun _ => 0) (fun a => (Pipeline.Clip.of (cc0_transform_1 i a) (S6144x32.size a) (S500000x32.size a)).extent (S6144x32.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S6144x32.size a < S500000x32.size a
  hwx0_2 : ∀ i : grid0.Coords, EltTy.bits .f32 = 32 ∨ (Rect.unit (s := S500000x32) (fun a => cc0_transform_2 i a * S6144x32.size a) (fun a => (Pipeline.Clip.of (cc0_transform_2 i a) (S6144x32.size a) (S500000x32.size a)).extent (S6144x32.size a)) fun a => Pipeline.Clip.inb (Pipeline.Clip.ok_of (hstart0_2 i a))).WholeWords (EltTy.packing .f32)
  hwxs0_2 : ∀ i : grid0.Coords, EltTy.bits .f32 = 32 ∨ (Rect.unit (s := S6144x32) (fun _ => 0) (fun a => (Pipeline.Clip.of (cc0_transform_2 i a) (S6144x32.size a) (S500000x32.size a)).extent (S6144x32.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S165x128.size a ≤ S165x128.size a
  hwx0_3 : ∀ i : grid0.Coords, EltTy.bits .f32 = 32 ∨ (Rect.block (s := S165x128) S165x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x2.size a ≤ S32x2.size a
  hwx0_6 : ∀ i : grid0.Coords, EltTy.bits .f32 = 32 ∨ (Rect.block (s := S32x2) S32x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2.size a ≤ S1x2.size a
  hwx0_7 : ∀ i : grid0.Coords, EltTy.bits .f32 = 32 ∨ (Rect.block (s := S1x2) S1x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S6144x2.size a < S500000x2.size a
  hwx0_8 : ∀ i : grid0.Coords, EltTy.bits .f32 = 32 ∨ (Rect.unit (s := S500000x2) (fun a => cc0_transform_8 i a * S6144x2.size a) (fun a => (Pipeline.Clip.of (cc0_transform_8 i a) (S6144x2.size a) (S500000x2.size a)).extent (S6144x2.size a)) fun a => Pipeline.Clip.inb (Pipeline.Clip.ok_of (hstart0_8 i a))).WholeWords (EltTy.packing .f32)
  hwxs0_8 : ∀ i : grid0.Coords, EltTy.bits .f32 = 32 ∨ (Rect.unit (s := S6144x2) (fun _ => 0) (fun a => (Pipeline.Clip.of (cc0_transform_8 i a) (S6144x2.size a) (S500000x2.size a)).extent (S6144x2.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S6144x32.size a < S500000x32.size a
  hwx0_9 : ∀ i : grid0.Coords, EltTy.bits .f32 = 32 ∨ (Rect.unit (s := S500000x32) (fun a => cc0_transform_9 i a * S6144x32.size a) (fun a => (Pipeline.Clip.of (cc0_transform_9 i a) (S6144x32.size a) (S500000x32.size a)).extent (S6144x32.size a)) fun a => Pipeline.Clip.inb (Pipeline.Clip.ok_of (hstart0_9 i a))).WholeWords (EltTy.packing .f32)
  hwxs0_9 : ∀ i : grid0.Coords, EltTy.bits .f32 = 32 ∨ (Rect.unit (s := S6144x32) (fun _ => 0) (fun a => (Pipeline.Clip.of (cc0_transform_9 i a) (S6144x32.size a) (S500000x32.size a)).extent (S6144x32.size a)) fun a => (Nat.zero_add _).trans_le (Pipeline.Clip.extent_le (Pipeline.Clip.ok_of (hstart0_9 i a)))).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hstart0_10 : ∀ (i : grid0.Coords) a, cc0_transform_10 i a * S6144x32.size a < S500000x32.size a
  hwx0_10 : ∀ i : grid0.Coords, EltTy.bits .f32 = 32 ∨ (Rect.unit (s := S500000x32) (fun a => cc0_transform_10 i a * S6144x32.size a) (fun a => (Pipeline.Clip.of (cc0_transform_10 i a) (S6144x32.size a) (S500000x32.size a)).extent (S6144x32.size a)) fun a => Pipeline.Clip.inb (Pipeline.Clip.ok_of (hstart0_10 i a))).WholeWords (EltTy.packing .f32)
  hwxs0_10 : ∀ i : grid0.Coords, EltTy.bits .f32 = 32 ∨ (Rect.unit (s := S6144x32) (fun _ => 0) (fun a => (Pipeline.Clip.of (cc0_transform_10 i a) (S6144x32.size a) (S500000x32.size a)).extent (S6144x32.size a)) fun a => (Nat.zero_add _).trans_le (Pipeline.Clip.extent_le (Pipeline.Clip.ok_of (hstart0_10 i a)))).WholeWords (EltTy.packing .f32)

variable [Facts₀]

def dot_S6144x165_S165x128_S6144x128_1_0_0_1_n_n : DotDims S6144x165 S165x128 S6144x128 where
  lhsContracting := [1]
  rhsContracting := [0]
  lhsNonContracting := [0]
  rhsNonContracting := [1]
  lhsBatch := []
  rhsBatch := []
  wf := dot_S6144x165_S165x128_S6144x128_1_0_0_1_n_n_wf
def dot_S6144x32_S32x128_S6144x128_1_0_0_1_n_n : DotDims S6144x32 S32x128 S6144x128 where
  lhsContracting := [1]
  rhsContracting := [0]
  lhsNonContracting := [0]
  rhsNonContracting := [1]
  lhsBatch := []
  rhsBatch := []
  wf := dot_S6144x32_S32x128_S6144x128_1_0_0_1_n_n_wf
def dot_S6144x32_S32x2_S6144x2_1_0_0_1_n_n : DotDims S6144x32 S32x2 S6144x2 where
  lhsContracting := [1]
  rhsContracting := [0]
  lhsNonContracting := [0]
  rhsNonContracting := [1]
  lhsBatch := []
  rhsBatch := []
  wf := dot_S6144x32_S32x2_S6144x2_1_0_0_1_n_n_wf

abbrev win0_0 : Pipeline.Window sig grid0 :=
  Pipeline.Window.ofSpecClip (Memref.whole main_arg0) S6144x165.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S6144x32.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg4) S6144x32.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v0) S165x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg21) S32x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v12_0) S6144x2.size cc0_transform_8 reads0_8 true false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v12_1) S6144x32.size cc0_transform_9 reads0_9 true false 2 stage0_9 sem0_9
    hrank0 hreads0_9 hstart0_9 nbuf0_9 (Memref.isWhole_whole _) hwx0_9 hwxs0_9 hstage0_9

abbrev win0_10 : Pipeline.Window sig grid0 :=
  Pipeline.Window.ofSpecClip (Memref.whole main_v12_2) S6144x32.size cc0_transform_10 reads0_10 true false 2 stage0_10 sem0_10
    hrank0 hreads0_10 hstart0_10 nbuf0_10 (Memref.isWhole_whole _) hwx0_10 hwxs0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S500000x165 : Shape := ⟨2, ![500000, 165]⟩
abbrev S2x2000000 : Shape := ⟨2, ![2, 2000000]⟩
abbrev S2000000 : Shape := ⟨1, ![2000000]⟩
abbrev S500000x32 : Shape := ⟨2, ![500000, 32]⟩
abbrev S165x32 : Shape := ⟨2, ![165, 32]⟩
abbrev S1x32 : Shape := ⟨2, ![1, 32]⟩
abbrev S32x32 : Shape := ⟨2, ![32, 32]⟩
abbrev S32 : Shape := ⟨1, ![32]⟩
abbrev S32x2 : Shape := ⟨2, ![32, 2]⟩
abbrev S2 : Shape := ⟨1, ![2]⟩
abbrev S_ : Shape := ⟨0, ![]⟩
abbrev S500000x2 : Shape := ⟨2, ![500000, 2]⟩
abbrev S1x2 : Shape := ⟨2, ![1, 2]⟩

abbrev nBuf : Space → Nat
  | .hbm => 92
  | .vmem => 0
  | .smem => 0
  | _ => 0

abbrev bufTy : (tb : Table) → Fin (tcTables nBuf tb) → BufTy
  | .hbm, ⟨0, _⟩ => ⟨S500000x165, .f32⟩
  | .hbm, ⟨1, _⟩ => ⟨S2x2000000, .i32⟩
  | .hbm, ⟨2, _⟩ => ⟨S2000000, .f32⟩
  | .hbm, ⟨3, _⟩ => ⟨S500000x32, .f32⟩
  | .hbm, ⟨4, _⟩ => ⟨S500000x32, .f32⟩
  | .hbm, ⟨5, _⟩ => ⟨S165x32, .f32⟩
  | .hbm, ⟨6, _⟩ => ⟨S165x32, .f32⟩
  | .hbm, ⟨7, _⟩ => ⟨S165x32, .f32⟩
  | .hbm, ⟨8, _⟩ => ⟨S165x32, .f32⟩
  | .hbm, ⟨9, _⟩ => ⟨S1x32, .f32⟩
  | .hbm, ⟨10, _⟩ => ⟨S1x32, .f32⟩
  | .hbm, ⟨11, _⟩ => ⟨S1x32, .f32⟩
  | .hbm, ⟨12, _⟩ => ⟨S1x32, .f32⟩
  | .hbm, ⟨13, _⟩ => ⟨S32x32, .f32⟩
  | .hbm, ⟨14, _⟩ => ⟨S32x32, .f32⟩
  | .hbm, ⟨15, _⟩ => ⟨S32x32, .f32⟩
  | .hbm, ⟨16, _⟩ => ⟨S32x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S32x2, .f32⟩
  | .hbm, ⟨22, _⟩ => ⟨S2, .f32⟩
  | .hbm, ⟨23, _⟩ => ⟨S500000x32, .f32⟩
  | .hbm, ⟨24, _⟩ => ⟨S500000x32, .f32⟩
  | .hbm, ⟨25, _⟩ => ⟨S500000x32, .f32⟩
  | .hbm, ⟨26, _⟩ => ⟨S1x32, .f32⟩
  | .hbm, ⟨27, _⟩ => ⟨S500000x32, .f32⟩
  | .hbm, ⟨28, _⟩ => ⟨S500000x32, .f32⟩
  | .hbm, ⟨29, _⟩ => ⟨S500000x32, .f32⟩
  | .hbm, ⟨30, _⟩ => ⟨S500000x32, .f32⟩
  | .hbm, ⟨31, _⟩ => ⟨S500000x32, .f32⟩
  | .hbm, ⟨32, _⟩ => ⟨S500000x32, .f32⟩
  | .hbm, ⟨33, _⟩ => ⟨S_, .f32⟩
  | .hbm, ⟨34, _⟩ => ⟨S500000x32, .f32⟩
  | .hbm, ⟨35, _⟩ => ⟨S500000x32, .f32⟩
  | .hbm, ⟨36, _⟩ => ⟨S_, .f32⟩
  | .hbm, ⟨37, _⟩ => ⟨S500000x32, .f32⟩
  | .hbm, ⟨38, _⟩ => ⟨S500000x32, .f32⟩
  | .hbm, ⟨39, _⟩ => ⟨S500000x32, .f32⟩
  | .hbm, ⟨40, _⟩ => ⟨S500000x32, .f32⟩
  | .hbm, ⟨41, _⟩ => ⟨S500000x32, .f32⟩
  | .hbm, ⟨42, _⟩ => ⟨S1x32, .f32⟩
  | .hbm, ⟨43, _⟩ => ⟨S500000x32, .f32⟩
  | .hbm, ⟨44, _⟩ => ⟨S500000x32, .f32⟩
  | .hbm, ⟨45, _⟩ => ⟨S500000x32, .f32⟩
  | .hbm, ⟨46, _⟩ => ⟨S500000x32, .f32⟩
  | .hbm, ⟨47, _⟩ => ⟨S500000x32, .f32⟩
  | .hbm, ⟨48, _⟩ => ⟨S500000x32, .f32⟩
  | .hbm, ⟨49, _⟩ => ⟨S_, .f32⟩
  | .hbm, ⟨50, _⟩ => ⟨S500000x32, .f32⟩
  | .hbm, ⟨51, _⟩ => ⟨S500000x32, .f32⟩
  | .hbm, ⟨52, _⟩ => ⟨S_, .f32⟩
  | .hbm, ⟨53, _⟩ => ⟨S500000x32, .f32⟩
  | .hbm, ⟨54, _⟩ => ⟨S500000x32, .f32⟩
  | .hbm, ⟨55, _⟩ => ⟨S500000x32, .f32⟩
  | .hbm, ⟨56, _⟩ => ⟨S500000x32, .f32⟩
  | .hbm, ⟨57, _⟩ => ⟨S500000x32, .f32⟩
  | .hbm, ⟨58, _⟩ => ⟨S1x32, .f32⟩
  | .hbm, ⟨59, _⟩ => ⟨S500000x32, .f32⟩
  | .hbm, ⟨60, _⟩ => ⟨S500000x32, .f32⟩
  | .hbm, ⟨61, _⟩ => ⟨S500000x32, .f32⟩
  | .hbm, ⟨62, _⟩ => ⟨S500000x32, .f32⟩
  | .hbm, ⟨63, _⟩ => ⟨S500000x32, .f32⟩
  | .hbm, ⟨64, _⟩ => ⟨S500000x32, .f32⟩
  | .hbm, ⟨65, _⟩ => ⟨S500000x32, .f32⟩
  | .hbm, ⟨66, _⟩ => ⟨S500000x32, .f32⟩
  | .hbm, ⟨67, _⟩ => ⟨S500000x32, .f32⟩
  | .hbm, ⟨68, _⟩ => ⟨S500000x32, .f32⟩
  | .hbm, ⟨69, _⟩ => ⟨S500000x32, .f32⟩
  | .hbm, ⟨70, _⟩ => ⟨S1x32, .f32⟩
  | .hbm, ⟨71, _⟩ => ⟨S500000x32, .f32⟩
  | .hbm, ⟨72, _⟩ => ⟨S500000x32, .f32⟩
  | .hbm, ⟨73, _⟩ => ⟨S500000x32, .f32⟩
  | .hbm, ⟨74, _⟩ => ⟨S500000x32, .f32⟩
  | .hbm, ⟨75, _⟩ => ⟨S500000x32, .f32⟩
  | .hbm, ⟨76, _⟩ => ⟨S500000x32, .f32⟩
  | .hbm, ⟨77, _⟩ => ⟨S_, .f32⟩
  | .hbm, ⟨78, _⟩ => ⟨S500000x32, .f32⟩
  | .hbm, ⟨79, _⟩ => ⟨S500000x32, .f32⟩
  | .hbm, ⟨80, _⟩ => ⟨S_, .f32⟩
  | .hbm, ⟨81, _⟩ => ⟨S500000x32, .f32⟩
  | .hbm, ⟨82, _⟩ => ⟨S500000x32, .f32⟩
  | .hbm, ⟨83, _⟩ => ⟨S500000x32, .f32⟩
  | .hbm, ⟨84, _⟩ => ⟨S500000x32, .f32⟩
  | .hbm, ⟨85, _⟩ => ⟨S_, .f32⟩
  | .hbm, ⟨86, _⟩ => ⟨S500000x32, .f32⟩
  | .hbm, ⟨87, _⟩ => ⟨S500000x32, .f32⟩
  | .hbm, ⟨88, _⟩ => ⟨S500000x2, .f32⟩
  | .hbm, ⟨89, _⟩ => ⟨S1x2, .f32⟩
  | .hbm, ⟨90, _⟩ => ⟨S500000x2, .f32⟩
  | .hbm, ⟨91, _⟩ => ⟨S500000x2, .f32⟩
  | _, _ => ⟨S500000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_1 : Ref sig .tc := ⟨.hbm, 49, rfl⟩
abbrev main_v24 : Ref sig .tc := ⟨.hbm, 50, rfl⟩
abbrev main_v25 : Ref sig .tc := ⟨.hbm, 51, rfl⟩
abbrev main_cst_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call0_cst : Ref sig .tc := ⟨.hbm, 85, rfl⟩
abbrev main_call0_v0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  dot_S500000x165_S165x32_S500000x32_1_0_0_1_n_n_wf : DotDims.WF S500000x165 S165x32 S500000x32 [1] [0] [0] [1] [] []
  dot_S500000x32_S32x32_S500000x32_1_0_0_1_n_n_wf : DotDims.WF S500000x32 S32x32 S500000x32 [1] [0] [0] [1] [] []
  dot_S500000x32_S32x2_S500000x2_1_0_0_1_n_n_wf : DotDims.WF S500000x32 S32x2 S500000x2 [1] [0] [0] [1] [] []

variable [Facts₀]

def dot_S500000x165_S165x32_S500000x32_1_0_0_1_n_n : DotDims S500000x165 S165x32 S500000x32 where
  lhsContracting := [1]
  rhsContracting := [0]
  lhsNonContracting := [0]
  rhsNonContracting := [1]
  lhsBatch := []
  rhsBatch := []
  wf := dot_S500000x165_S165x32_S500000x32_1_0_0_1_n_n_wf
def dot_S500000x32_S32x32_S500000x32_1_0_0_1_n_n : DotDims S500000x32 S32x32 S500000x32 where
  lhsContracting := [1]
  rhsContracting := [0]
  lhsNonContracting := [0]
  rhsNonContracting := [1]
  lhsBatch := []
  rhsBatch := []
  wf := dot_S500000x32_S32x32_S500000x32_1_0_0_1_n_n_wf
def dot_S500000x32_S32x2_S500000x2_1_0_0_1_n_n : DotDims S500000x32 S32x2 S500000x2 where
  lhsContracting := [1]
  rhsContracting := [0]
  lhsNonContracting := [0]
  rhsNonContracting := [1]
  lhsBatch := []
  rhsBatch := []
  wf := dot_S500000x32_S32x2_S500000x2_1_0_0_1_n_n_wf

class Facts : Prop extends Facts₀ where

variable [Facts]
-- ==== Proof.KbBody.lean ====
/-
  One grid point of the cell kernel, as a statement about memory.

  The body reads eleven whole staging buffers and writes three of them: it loads the node-feature tile, the two
  state tiles, the two fused weight matrices, the fused bias row, the classifier's matrix and bias row; it stores
  the class scores, the new hidden state and the new cell state, each as ONE store covering its whole buffer. So
  after the body the eight inputs hold what they held and each output holds the body's arithmetic — a pure
  function of the eight loaded values — whatever it held before. Nothing here depends on what the arithmetic is.
-/
import proofs.«176817_j74887049773819_2_alg».proof.Proof.Gen.Kernel.Launch
import proofs.«176817_j74887049773819_2_alg».proof.Proof.Gen.Kernel.Skeleton
import proofs.«176817_j74887049773819_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one is its whole buffer -/

abbrev rX : Rect S6144x165 := Rect.unit (s := S6144x165) ![0, 0] S6144x165.size inb_S6144x165_S6144x165_0_0
abbrev rS : Rect S6144x32 := Rect.unit (s := S6144x32) ![0, 0] S6144x32.size inb_S6144x32_S6144x32_0_0
abbrev rW : Rect S165x128 := Rect.unit (s := S165x128) ![0, 0] S165x128.size inb_S165x128_S165x128_0_0
abbrev rR : Rect S32x128 := Rect.unit (s := S32x128) ![0, 0] S32x128.size inb_S32x128_S32x128_0_0
abbrev rB : Rect S1x128 := Rect.unit (s := S1x128) ![0, 0] S1x128.size inb_S1x128_S1x128_0_0
abbrev rL : Rect S32x2 := Rect.unit (s := S32x2) ![0, 0] S32x2.size inb_S32x2_S32x2_0_0
abbrev rC : Rect S1x2 := Rect.unit (s := S1x2) ![0, 0] S1x2.size inb_S1x2_S1x2_0_0
abbrev rY : Rect S6144x2 := Rect.unit (s := S6144x2) ![0, 0] S6144x2.size inb_S6144x2_S6144x2_0_0

/-! ## What the body leaves in the three output buffers -/

/-- The class scores' buffer after the body: its one store, over the eight loads. -/
def outY (x0 : Vec F S6144x165 .f32) (x1 x2 : Vec F S6144x32 .f32) (x3 : Vec F S165x128 .f32) (x4 : Vec F S32x128 .f32)
    (x5 : Vec F S1x128 .f32) (x6 : Vec F S32x2 .f32) (x7 : Vec F S1x2 .f32) : Vec F S6144x2 .f32 :=
  View.canon [⟨rY, k0_pay4 (View.ld x0 rX) (View.ld x1 rS) (View.ld x2 rS) (View.ld x3 rW) (View.ld x4 rR) (View.ld x5 rB) (View.ld x6 rL) (View.ld x7 rC)⟩]
/-- The new hidden state's. -/
def outH (x0 : Vec F S6144x165 .f32) (x1 x2 : Vec F S6144x32 .f32) (x3 : Vec F S165x128 .f32) (x4 : Vec F S32x128 .f32)
    (x5 : Vec F S1x128 .f32) : Vec F S6144x32 .f32 :=
  View.canon [⟨rS, k0_pay3 (View.ld x0 rX) (View.ld x1 rS) (View.ld x2 rS) (View.ld x3 rW) (View.ld x4 rR) (View.ld x5 rB)⟩]
/-- The new cell state's. -/
def outC (x0 : Vec F S6144x165 .f32) (x1 x2 : Vec F S6144x32 .f32) (x3 : Vec F S165x128 .f32) (x4 : Vec F S32x128 .f32)
    (x5 : Vec F S1x128 .f32) : Vec F S6144x32 .f32 :=
  View.canon [⟨rS, k0_pay2 (View.ld x0 rX) (View.ld x1 rS) (View.ld x2 rS) (View.ld x3 rW) (View.ld x4 rR) (View.ld x5 rB)⟩]

/-- One store through the whole-buffer rectangle covers the buffer. -/
theorem coverY (p0 : Vec F S6144x2 .f32) (y : S6144x2.Idx) :
    ∃ pc ∈ ([⟨rY, p0⟩] : List (View.Piece (Elt F) S6144x2 .f32)), y ∈ pc.1.set :=
  View.cover_of_tiled [⟨rY, p0⟩] S6144x2.size (by rfl) y
theorem coverS (p0 : Vec F S6144x32 .f32) (y : S6144x32.Idx) :
    ∃ pc ∈ ([⟨rS, p0⟩] : List (View.Piece (Elt F) S6144x32 .f32)), y ∈ pc.1.set :=
  View.cover_of_tiled [⟨rS, p0⟩] S6144x32.size (by rfl) y

/-! ## The body's triple -/

set_option maxHeartbeats 4000000 in
/-- The kernel body on whole staging memrefs — the eight inputs' at contents `x0 … x7`, the three outputs' at
    anything — runs to the continuation holding the inputs' as they were and each output's at its store's value. -/
theorem sound_kernel (c : Dev nD) (E : Set ℕ) (i : grid0.Coords)
    (arg1 : Memref sig .tc .vmem S6144x165 .f32) (harg1 : arg1.IsWhole) (arg2 : Memref sig .tc .vmem S6144x32 .f32) (harg2 : arg2.IsWhole)
    (arg3 : Memref sig .tc .vmem S6144x32 .f32) (harg3 : arg3.IsWhole) (arg4 : Memref sig .tc .vmem S165x128 .f32) (harg4 : arg4.IsWhole)
    (arg5 : Memref sig .tc .vmem S32x128 .f32) (harg5 : arg5.IsWhole) (arg6 : Memref sig .tc .vmem S1x128 .f32) (harg6 : arg6.IsWhole)
    (arg7 : Memref sig .tc .vmem S32x2 .f32) (harg7 : arg7.IsWhole) (arg8 : Memref sig .tc .vmem S1x2 .f32) (harg8 : arg8.IsWhole)
    (arg9 : Memref sig .tc .vmem S6144x2 .f32) (harg9 : arg9.IsWhole) (arg10 : Memref sig .tc .vmem S6144x32 .f32) (harg10 : arg10.IsWhole)
    (arg11 : Memref sig .tc .vmem S6144x32 .f32) (harg11 : arg11.IsWhole)
    (x0 : Vec F S6144x165 .f32) (x1 x2 : Vec F S6144x32 .f32) (x3 : Vec F S165x128 .f32) (x4 : Vec F S32x128 .f32)
    (x5 : Vec F S1x128 .f32) (x6 : Vec F S32x2 .f32) (x7 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ owns (c : Thread nD τ) arg7 fullShare x6 ∗ owns (c : Thread nD τ) arg8 fullShare x7
              ∗ owns (c : Thread nD τ) arg9 fullShare (outY x0 x1 x2 x3 x4 x5 x6 x7)
              ∗ owns (c : Thread nD τ) arg10 fullShare (outH x0 x1 x2 x3 x4 x5)
              ∗ owns (c : Thread nD τ) arg11 fullShare (outC x0 x1 x2 x3 x4 x5)) -∗ K ⟨⟩))
      ⊢ wp frame (wpE (defs₀ (F := F)) Variants.none c none) E
          (cc0__gclstm_kernel i arg1 harg1 arg2 harg2 arg3 harg3 arg4 harg4 arg5 harg5 arg6 harg6 arg7 harg7 arg8 harg8 arg9 harg9 arg10 harg10 arg11 harg11) K := by
  simp only [cc0__gclstm_kernel_eq_skeleton]; unfold cc0__gclstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverY _)
  isplitl [H9]
  · iexists _; isplitr
    swap; · iexact H9
    ipureintro
    exact View.read_writes_eq_canon _ _ _ (coverS _)
  · iexists _; isplitr
    swap; · iexact H10
    ipureintro
    exact View.read_writes_eq_canon _ _ _ (coverS _)

end Cert.Kernel.Hand

end
-- ==== Proof.KbKit.lean ====
/-
  The program up to its one kernel launch, and what the launch hands the body.

  @main first prepares four small operands on the host — the four gates' input weights joined along the lanes,
  the four recurrent weights likewise, the four pairs of biases summed and joined, the classifier's bias as a
  row — and then launches the kernel over 82 row tiles of 6144 nodes. 82 · 6144 = 503808 exceeds the 500000
  nodes, so the last tile overhangs the arrays: its transfers move only the 2336 rows inside, and the other
  rows of the staging buffers hold words nothing names. This module states what each input staging buffer holds
  when the body runs: the tile's rows inside the array, and anything past them.
-/
import proofs.«176817_j74887049773819_2_alg».proof.Proof.KbBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the kernel is launched: after the twelve host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`: its rows inside the array, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A staging buffer of window `w` holding the block on the rows a transfer moves and `d` elsewhere. -/
def stagedIn (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- An input window's current staging buffer holds, whenever the body runs, what a fetch at that point puts there
    — fetched there or not — for any proof data whose array is the launch contents and whose body leaves the
    block in place. -/
theorem before_in_of {c : Dev nD} (dat : Dat τ (Elt F) Unit ℕ (UR sig nD τ) ℕ cfg0 c) (w : Fin cfg0.W)
    (hw : (cfg0.win w).isOut = false) (hA : dat.A w = V m c (Pipeline.arrRef spec0 w))
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) (dat.after w t) = iblk m c w t) (t : Fin cfg0.N) (d) :
    dat.before w t d = stagedIn m c w t d := by
  have hb : ∀ t, dat.blockOf w t = iblk m c w t := fun t => by unfold Dat.blockOf iblk; rw [hA]
  rw [dat.before_in_eq_fetched w hw (fun _ => rfl) hclip (fun t => by rw [hkeep, hb]) t d]
  unfold Dat.fetched stagedIn; rw [hb]

/-- The cut of a tiled window is a function of its block index: where the tile starts decides how much of it lies
    inside the array. -/
theorem clip_in0 (t t' : Fin cfg0.N) (h : (cfg0.win 0).index t = (cfg0.win 0).index t') :
    (cfg0.win 0).clip (cfg0.grid.coords t) = (cfg0.win 0).clip (cfg0.grid.coords t') :=
  congrArg (fun (f : Fin 2 → Nat) => fun a => Pipeline.Clip.of (f a) (S6144x165.size a) (S500000x165.size a)) h
theorem clip_in1 (t t' : Fin cfg0.N) (h : (cfg0.win 1).index t = (cfg0.win 1).index t') :
    (cfg0.win 1).clip (cfg0.grid.coords t) = (cfg0.win 1).clip (cfg0.grid.coords t') :=
  congrArg (fun (f : Fin 2 → Nat) => fun a => Pipeline.Clip.of (f a) (S6144x32.size a) (S500000x32.size a)) h
theorem clip_in2 (t t' : Fin cfg0.N) (h : (cfg0.win 2).index t = (cfg0.win 2).index t') :
    (cfg0.win 2).clip (cfg0.grid.coords t) = (cfg0.win 2).clip (cfg0.grid.coords t') :=
  congrArg (fun (f : Fin 2 → Nat) => fun a => Pipeline.Clip.of (f a) (S6144x32.size a) (S500000x32.size a)) h

end Cert.Kernel.Hand

end
-- ==== Proof.KbHostPrep.lean ====
/-
  The host operations that run before the kernel's one launch, read at an index.

  Twelve host operations prepare the kernel's operands: the four input weight matrices [165,32] are laid side by
  side along the columns into one [165,128] matrix, the four recurrent weight matrices [32,32] into one [32,128]
  matrix, each gate's recurrent bias vector [32] is turned into a row [1,32] and added to that gate's input bias
  row, the four sums are laid side by side into one [1,128] row, and the classifier's bias vector [2] is turned
  into a row [1,2]. No operation writes an argument array. Column 32·g + j of a side-by-side array is column j
  of piece g, and a vector turned into a row reads, at (0, j), the vector at j.
-/
import proofs.«176817_j74887049773819_2_alg».proof.Proof.Gen.Kernel.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelHostB

open Idealize.ShloMosaic Idealize.ShloMosaic.TcCoe Idealize.ShloMosaic.ValueIdx
open Idealize.SL Idealize.SL.Sem
open Cert.Kernel Cert.Kernel.Gen

variable {F : FTy → Type} [FloatOps F]

variable (m : (ℓ : Loc nD τ sig) → Buf (Elt F) ℓ)

/-- Core `c`'s buffers when the launch is entered: after the twelve host operations. -/
abbrev VV (c : Dev nD) (b : Ref sig .tc) : Buf (Elt F) ((c : Thread nD τ).loc b) :=
  StableHlo.after Gen.hostOps0 (fun b => m (c, b)) b

/-- A buffer that is none of the twelve results keeps the contents it was launched with: every host operation writes
    its own result buffer only. -/
theorem VV_of_not_result (c : Dev nD) (b : Ref sig .tc)
    (h : ∀ y ∈ [main_v0, main_v1, main_v2, main_v3, main_v4, main_v5, main_v6, main_v7, main_v8, main_v9, main_v10, main_v11], b ≠ y) :
    VV m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes, Finset.mem_singleton]
    refine ⟨?_, ?_, ?_, ?_, ?_, ?_, ?_, ?_, ?_, ?_, ?_, ?_⟩
    all_goals exact StableHlo.devRef_ne_of_ne (h _ (by simp))))

/-! ## No host operation writes an argument -/

/-- No host operation writes argument 0: the launch finds it as it was. -/
theorem VV_main_arg0 (c : Dev nD) : VV m c main_arg0 = m ((c : Thread nD τ).loc main_arg0) :=
  VV_of_not_result m c main_arg0 (by decide)

/-- No host operation writes argument 1: the launch finds it as it was. -/
theorem VV_main_arg1 (c : Dev nD) : VV m c main_arg1 = m ((c : Thread nD τ).loc main_arg1) :=
  VV_of_not_result m c main_arg1 (by decide)

/-- No host operation writes argument 2: the launch finds it as it was. -/
theorem VV_main_arg2 (c : Dev nD) : VV m c main_arg2 = m ((c : Thread nD τ).loc main_arg2) :=
  VV_of_not_result m c main_arg2 (by decide)

/-- No host operation writes argument 3: the launch finds it as it was. -/
theorem VV_main_arg3 (c : Dev nD) : VV m c main_arg3 = m ((c : Thread nD τ).loc main_arg3) :=
  VV_of_not_result m c main_arg3 (by decide)

/-- No host operation writes argument 4: the launch finds it as it was. -/
theorem VV_main_arg4 (c : Dev nD) : VV m c main_arg4 = m ((c : Thread nD τ).loc main_arg4) :=
  VV_of_not_result m c main_arg4 (by decide)

/-- No host operation writes argument 5: the launch finds it as it was. -/
theorem VV_main_arg5 (c : Dev nD) : VV m c main_arg5 = m ((c : Thread nD τ).loc main_arg5) :=
  VV_of_not_result m c main_arg5 (by decide)

/-- No host operation writes argument 6: the launch finds it as it was. -/
theorem VV_main_arg6 (c : Dev nD) : VV m c main_arg6 = m ((c : Thread nD τ).loc main_arg6) :=
  VV_of_not_result m c main_arg6 (by decide)

/-- No host operation writes argument 7: the launch finds it as it was. -/
theorem VV_main_arg7 (c : Dev nD) : VV m c main_arg7 = m ((c : Thread nD τ).loc main_arg7) :=
  VV_of_not_result m c main_arg7 (by decide)

/-- No host operation writes argument 8: the launch finds it as it was. -/
theorem VV_main_arg8 (c : Dev nD) : VV m c main_arg8 = m ((c : Thread nD τ).loc main_arg8) :=
  VV_of_not_result m c main_arg8 (by decide)

/-- No host operation writes argument 9: the launch finds it as it was. -/
theorem VV_main_arg9 (c : Dev nD) : VV m c main_arg9 = m ((c : Thread nD τ).loc main_arg9) :=
  VV_of_not_result m c main_arg9 (by decide)

/-- No host operation writes argument 10: the launch finds it as it was. -/
theorem VV_main_arg10 (c : Dev nD) : VV m c main_arg10 = m ((c : Thread nD τ).loc main_arg10) :=
  VV_of_not_result m c main_arg10 (by decide)

/-- No host operation writes argument 11: the launch finds it as it was. -/
theorem VV_main_arg11 (c : Dev nD) : VV m c main_arg11 = m ((c : Thread nD τ).loc main_arg11) :=
  VV_of_not_result m c main_arg11 (by decide)

/-- No host operation writes argument 12: the launch finds it as it was. -/
theorem VV_main_arg12 (c : Dev nD) : VV m c main_arg12 = m ((c : Thread nD τ).loc main_arg12) :=
  VV_of_not_result m c main_arg12 (by decide)

/-- No host operation writes argument 13: the launch finds it as it was. -/
theorem VV_main_arg13 (c : Dev nD) : VV m c main_arg13 = m ((c : Thread nD τ).loc main_arg13) :=
  VV_of_not_result m c main_arg13 (by decide)

/-- No host operation writes argument 14: the launch finds it as it was. -/
theorem VV_main_arg14 (c : Dev nD) : VV m c main_arg14 = m ((c : Thread nD τ).loc main_arg14) :=
  VV_of_not_result m c main_arg14 (by decide)

/-- No host operation writes argument 15: the launch finds it as it was. -/
theorem VV_main_arg15 (c : Dev nD) : VV m c main_arg15 = m ((c : Thread nD τ).loc main_arg15) :=
  VV_of_not_result m c main_arg15 (by decide)

/-- No host operation writes argument 16: the launch finds it as it was. -/
theorem VV_main_arg16 (c : Dev nD) : VV m c main_arg16 = m ((c : Thread nD τ).loc main_arg16) :=
  VV_of_not_result m c main_arg16 (by decide)

/-- No host operation writes argument 17: the launch finds it as it was. -/
theorem VV_main_arg17 (c : Dev nD) : VV m c main_arg17 = m ((c : Thread nD τ).loc main_arg17) :=
  VV_of_not_result m c main_arg17 (by decide)

/-- No host operation writes argument 18: the launch finds it as it was. -/
theorem VV_main_arg18 (c : Dev nD) : VV m c main_arg18 = m ((c : Thread nD τ).loc main_arg18) :=
  VV_of_not_result m c main_arg18 (by decide)

/-- No host operation writes argument 19: the launch finds it as it was. -/
theorem VV_main_arg19 (c : Dev nD) : VV m c main_arg19 = m ((c : Thread nD τ).loc main_arg19) :=
  VV_of_not_result m c main_arg19 (by decide)

/-- No host operation writes argument 20: the launch finds it as it was. -/
theorem VV_main_arg20 (c : Dev nD) : VV m c main_arg20 = m ((c : Thread nD τ).loc main_arg20) :=
  VV_of_not_result m c main_arg20 (by decide)

/-- No host operation writes argument 21: the launch finds it as it was. -/
theorem VV_main_arg21 (c : Dev nD) : VV m c main_arg21 = m ((c : Thread nD τ).loc main_arg21) :=
  VV_of_not_result m c main_arg21 (by decide)

/-- No host operation writes argument 22: the launch finds it as it was. -/
theorem VV_main_arg22 (c : Dev nD) : VV m c main_arg22 = m ((c : Thread nD τ).loc main_arg22) :=
  VV_of_not_result m c main_arg22 (by decide)

end Cert.KernelHostB

end
-- ==== Proof.KbFrame.lean ====
/-
  The word-level program runs to the end and leaves its arguments alone.

  For this claim nothing need be said of what the kernel computes: the three result tiles are handed to the body
  holding anything and taken back holding anything. What matters is that the body only READS the eight input
  tiles — so each input staging buffer still holds its tile when the body returns, which is what lets a later
  grid point reuse a buffer it does not fetch again (the five weight operands are fetched once) — and that the
  pipeline writes only the three result arrays. The arguments are then unchanged: the three tiled ones because an
  input array is never written, the others because the launch passes them by.
-/
import proofs.«176817_j74887049773819_2_alg».proof.Proof.KbKit
import proofs.«176817_j74887049773819_2_alg».proof.Proof.KbHostPrep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word that stands where nothing is read. -/
abbrev zw : Elt F .f32 := Scalar.ofBits .f32 0#32

/-- The result windows are forgotten. -/
abbrev fgtOut : Fin 11 → Bool := fun | 0 => false | 1 => false | 2 => false | 3 => false | 4 => false | 5 => false | 6 => false | 7 => false | 8 => true | 9 => true | 10 => true | ⟨_ + 11, h⟩ => absurd h (Nat.not_lt.2 (Nat.le_add_left _ _))

/-- The proof data: the arrays as the launch finds them; after the body each input's buffer at its tile (anything
    past the array's end), each result's at contents the claim never reads. -/
def datsF (_ : Fin 1) (c : Dev nD) : Dat τ (Elt F) Unit ℕ (UR sig nD τ) ℕ cfg0 c where
  A w := V m c (Pipeline.arrRef spec0 w)
  after w t := match w with
    | ⟨0, _⟩ => stagedIn m c 0 t (fun _ => zw)
    | ⟨1, _⟩ => stagedIn m c 1 t (fun _ => zw)
    | ⟨2, _⟩ => stagedIn m c 2 t (fun _ => zw)
    | ⟨3, _⟩ => stagedIn m c 3 t (fun _ => zw)
    | ⟨4, _⟩ => stagedIn m c 4 t (fun _ => zw)
    | ⟨5, _⟩ => stagedIn m c 5 t (fun _ => zw)
    | ⟨6, _⟩ => stagedIn m c 6 t (fun _ => zw)
    | ⟨7, _⟩ => stagedIn m c 7 t (fun _ => zw)
    | ⟨8, _⟩ => fun _ => zw
    | ⟨9, _⟩ => fun _ => zw
    | ⟨10, _⟩ => fun _ => zw
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF0 (c : Dev nD) (t : Fin cfg0.N) : (datsF m 0 c).after 0 t = stagedIn m c 0 t (fun _ => zw) := by dsimp only [datsF]
theorem afterF1 (c : Dev nD) (t : Fin cfg0.N) : (datsF m 0 c).after 1 t = stagedIn m c 1 t (fun _ => zw) := by dsimp only [datsF]
theorem afterF2 (c : Dev nD) (t : Fin cfg0.N) : (datsF m 0 c).after 2 t = stagedIn m c 2 t (fun _ => zw) := by dsimp only [datsF]
theorem afterF3 (c : Dev nD) (t : Fin cfg0.N) : (datsF m 0 c).after 3 t = stagedIn m c 3 t (fun _ => zw) := by dsimp only [datsF]
theorem afterF4 (c : Dev nD) (t : Fin cfg0.N) : (datsF m 0 c).after 4 t = stagedIn m c 4 t (fun _ => zw) := by dsimp only [datsF]
theorem afterF5 (c : Dev nD) (t : Fin cfg0.N) : (datsF m 0 c).after 5 t = stagedIn m c 5 t (fun _ => zw) := by dsimp only [datsF]
theorem afterF6 (c : Dev nD) (t : Fin cfg0.N) : (datsF m 0 c).after 6 t = stagedIn m c 6 t (fun _ => zw) := by dsimp only [datsF]
theorem afterF7 (c : Dev nD) (t : Fin cfg0.N) : (datsF m 0 c).after 7 t = stagedIn m c 7 t (fun _ => zw) := by dsimp only [datsF]

/-- The body leaves each input's tile in place (on the rows a transfer moves). -/
theorem keepF0 (c : Dev nD) (t : Fin cfg0.N) : (cfg0.win 0).cut (cfg0.grid.coords t) ((datsF m 0 c).after 0 t) = iblk m c 0 t := by
  rw [afterF0]; exact (cfg0.win 0).cut_fill _ _ _
theorem keepF1 (c : Dev nD) (t : Fin cfg0.N) : (cfg0.win 1).cut (cfg0.grid.coords t) ((datsF m 0 c).after 1 t) = iblk m c 1 t := by
  rw [afterF1]; exact (cfg0.win 1).cut_fill _ _ _
theorem keepF2 (c : Dev nD) (t : Fin cfg0.N) : (cfg0.win 2).cut (cfg0.grid.coords t) ((datsF m 0 c).after 2 t) = iblk m c 2 t := by
  rw [afterF2]; exact (cfg0.win 2).cut_fill _ _ _
theorem keepF3 (c : Dev nD) (t : Fin cfg0.N) : (cfg0.win 3).cut (cfg0.grid.coords t) ((datsF m 0 c).after 3 t) = iblk m c 3 t := by
  rw [afterF3]; exact (cfg0.win 3).cut_fill _ _ _
theorem keepF4 (c : Dev nD) (t : Fin cfg0.N) : (cfg0.win 4).cut (cfg0.grid.coords t) ((datsF m 0 c).after 4 t) = iblk m c 4 t := by
  rw [afterF4]; exact (cfg0.win 4).cut_fill _ _ _
theorem keepF5 (c : Dev nD) (t : Fin cfg0.N) : (cfg0.win 5).cut (cfg0.grid.coords t) ((datsF m 0 c).after 5 t) = iblk m c 5 t := by
  rw [afterF5]; exact (cfg0.win 5).cut_fill _ _ _
theorem keepF6 (c : Dev nD) (t : Fin cfg0.N) : (cfg0.win 6).cut (cfg0.grid.coords t) ((datsF m 0 c).after 6 t) = iblk m c 6 t := by
  rw [afterF6]; exact (cfg0.win 6).cut_fill _ _ _
theorem keepF7 (c : Dev nD) (t : Fin cfg0.N) : (cfg0.win 7).cut (cfg0.grid.coords t) ((datsF m 0 c).after 7 t) = iblk m c 7 t := by
  rw [afterF7]; exact (cfg0.win 7).cut_fill _ _ _

/-- So whenever the body runs, each input's buffer holds its tile — fetched at this point or left from an earlier one. -/
theorem befF0 (c : Dev nD) (t : Fin cfg0.N) (d) : (datsF m 0 c).before 0 t d = stagedIn m c 0 t d :=
  before_in_of m (datsF m 0 c) 0 rfl (A_eqF m c 0) clip_in0 (keepF0 m c) t d
theorem befF1 (c : Dev nD) (t : Fin cfg0.N) (d) : (datsF m 0 c).before 1 t d = stagedIn m c 1 t d :=
  before_in_of m (datsF m 0 c) 1 rfl (A_eqF m c 1) clip_in1 (keepF1 m c) t d
theorem befF2 (c : Dev nD) (t : Fin cfg0.N) (d) : (datsF m 0 c).before 2 t d = stagedIn m c 2 t d :=
  before_in_of m (datsF m 0 c) 2 rfl (A_eqF m c 2) clip_in2 (keepF2 m c) t d
theorem befF3 (c : Dev nD) (t : Fin cfg0.N) (d) : (datsF m 0 c).before 3 t d = stagedIn m c 3 t d :=
  before_in_of m (datsF m 0 c) 3 rfl (A_eqF m c 3) (fun _ _ _ => rfl) (keepF3 m c) t d
theorem befF4 (c : Dev nD) (t : Fin cfg0.N) (d) : (datsF m 0 c).before 4 t d = stagedIn m c 4 t d :=
  before_in_of m (datsF m 0 c) 4 rfl (A_eqF m c 4) (fun _ _ _ => rfl) (keepF4 m c) t d
theorem befF5 (c : Dev nD) (t : Fin cfg0.N) (d) : (datsF m 0 c).before 5 t d = stagedIn m c 5 t d :=
  before_in_of m (datsF m 0 c) 5 rfl (A_eqF m c 5) (fun _ _ _ => rfl) (keepF5 m c) t d
theorem befF6 (c : Dev nD) (t : Fin cfg0.N) (d) : (datsF m 0 c).before 6 t d = stagedIn m c 6 t d :=
  before_in_of m (datsF m 0 c) 6 rfl (A_eqF m c 6) (fun _ _ _ => rfl) (keepF6 m c) t d
theorem befF7 (c : Dev nD) (t : Fin cfg0.N) (d) : (datsF m 0 c).before 7 t d = stagedIn m c 7 t d :=
  before_in_of m (datsF m 0 c) 7 rfl (A_eqF m c 7) (fun _ _ _ => rfl) (keepF7 m c) t d

/-- An operand whose one block is the whole array has no rows past the array's end: the filler is nowhere. -/
theorem whole3 (c : Dev nD) (t : Fin cfg0.N) (d d' : (cfg0.win 3).block.Idx → Elt F (cfg0.win 3).elt) :
    stagedIn m c 3 t d = stagedIn m c 3 t d' :=
  Pipeline.fill_of_clip_none (cfg := cfg0) 3 (cfg0.grid.coords t) (fun _ => rfl) d d' (iblk m c 3 t)
theorem whole4 (c : Dev nD) (t : Fin cfg0.N) (d d' : (cfg0.win 4).block.Idx → Elt F (cfg0.win 4).elt) :
    stagedIn m c 4 t d = stagedIn m c 4 t d' :=
  Pipeline.fill_of_clip_none (cfg := cfg0) 4 (cfg0.grid.coords t) (fun _ => rfl) d d' (iblk m c 4 t)
theorem whole5 (c : Dev nD) (t : Fin cfg0.N) (d d' : (cfg0.win 5).block.Idx → Elt F (cfg0.win 5).elt) :
    stagedIn m c 5 t d = stagedIn m c 5 t d' :=
  Pipeline.fill_of_clip_none (cfg := cfg0) 5 (cfg0.grid.coords t) (fun _ => rfl) d d' (iblk m c 5 t)
theorem whole6 (c : Dev nD) (t : Fin cfg0.N) (d d' : (cfg0.win 6).block.Idx → Elt F (cfg0.win 6).elt) :
    stagedIn m c 6 t d = stagedIn m c 6 t d' :=
  Pipeline.fill_of_clip_none (cfg := cfg0) 6 (cfg0.grid.coords t) (fun _ => rfl) d d' (iblk m c 6 t)
theorem whole7 (c : Dev nD) (t : Fin cfg0.N) (d d' : (cfg0.win 7).block.Idx → Elt F (cfg0.win 7).elt) :
    stagedIn m c 7 t d = stagedIn m c 7 t d' :=
  Pipeline.fill_of_clip_none (cfg := cfg0) 7 (cfg0.grid.coords t) (fun _ => rfl) d d' (iblk m c 7 t)

/-! ## The body obligation -/

def bodyPreF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ d, owns (c : Thread nD τ) (st0_6 t) fullShare ((datsF m 0 c).before 6 t d))
    ∗ (∃ d, owns (c : Thread nD τ) (st0_7 t) fullShare ((datsF m 0 c).before 7 t d))
    ∗ (∃ X, owns (c : Thread nD τ) (st0_8 t) fullShare X)
    ∗ (∃ X, owns (c : Thread nD τ) (st0_9 t) fullShare X)
    ∗ (∃ X, owns (c : Thread nD τ) (st0_10 t) fullShare X))

def bodyPostF (c : Dev nD) (t : Fin cfg0.N) : sProp 𝕄 :=
  iprop((datsF m 0 c).Φ t.succ ∗ (datsF m 0 c).owesAt () t.succ
    ∗ (∃ d, owns (c : Thread nD τ) (st0_0 t) fullShare ((cfg0.win 0).fill (cfg0.grid.coords t) d ((cfg0.win 0).cut (cfg0.grid.coords t) ((datsF m 0 c).after 0 t))))
    ∗ (∃ d, owns (c : Thread nD τ) (st0_1 t) fullShare ((cfg0.win 1).fill (cfg0.grid.coords t) d ((cfg0.win 1).cut (cfg0.grid.coords t) ((datsF m 0 c).after 1 t))))
    ∗ (∃ d, owns (c : Thread nD τ) (st0_2 t) fullShare ((cfg0.win 2).fill (cfg0.grid.coords t) d ((cfg0.win 2).cut (cfg0.grid.coords t) ((datsF m 0 c).after 2 t))))
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ owns (c : Thread nD τ) (st0_6 t) fullShare ((datsF m 0 c).after 6 t)
    ∗ owns (c : Thread nD τ) (st0_7 t) fullShare ((datsF m 0 c).after 7 t)
    ∗ (∃ X, owns (c : Thread nD τ) (st0_8 t) fullShare X)
    ∗ (∃ X, owns (c : Thread nD τ) (st0_9 t) fullShare X)
    ∗ (∃ X, owns (c : Thread nD τ) (st0_10 t) fullShare X))

/-- The body at any point: the inputs' buffers hold their tiles, so the body's triple applies; the inputs come back as
    they were, the results at whatever the body stored. -/
theorem sound_bodyF (c : Dev nD) (t : Fin cfg0.N) :
    bodyPreF m c t ⊢ wp frame (wpE (defs₀ (F := F)) Variants.none c none) Set.univ (bodyAt0 t) (fun _ => bodyPostF m c t) := by
  unfold bodyPreF bodyPostF bodyAt0
  simp only [befF0, befF1, befF2, befF3, befF4, befF5, befF6, befF7]
  rw [show (datsF m 0 c).Φ t.succ = (datsF m 0 c).Φ t.castSucc from rfl,
    show (datsF m 0 c).owesAt () t.succ = (datsF m 0 c).owesAt () t.castSucc from rfl,
    keepF0, keepF1, keepF2, afterF3, afterF4, afterF5, afterF6, afterF7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (sound_kernel c Set.univ (grid0.coords t) _ _ _ _ _ _ _ _ _ _ _ _ _ _ _ _ _ _ _ _ _ _
    (stagedIn m c 0 t d0) (stagedIn m c 1 t d1) (stagedIn m c 2 t d2) (stagedIn m c 3 t d3) (stagedIn m c 4 t d4)
    (stagedIn m c 5 t d5) (stagedIn m c 6 t d6) (stagedIn m c 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexists d0; iexact H0
  isplitl [H1]; · iexists d1; iexact H1
  isplitl [H2]; · iexists d2; iexact H2
  isplitl [H3]; · rw [whole3 m c t (fun _ => zw) d3]; iexact H3
  isplitl [H4]; · rw [whole4 m c t (fun _ => zw) d4]; iexact H4
  isplitl [H5]; · rw [whole5 m c t (fun _ => zw) d5]; iexact H5
  isplitl [H6]; · rw [whole6 m c t (fun _ => zw) d6]; iexact H6
  isplitl [H7]; · rw [whole7 m c t (fun _ => zw) d7]; iexact H7
  isplitl [H8]; · iexists _; iexact H8
  isplitl [H9]; · iexists _; iexact H9
  iexists _; iexact H10

/-- The library's body obligation, the result windows forgotten. -/
theorem body_obligationF (c : Dev nD) : BodyObligationLoose (datsF (F := F) m 0 c) (defs₀ (F := F)) Variants.none () Set.univ fgtOut := fun t => by
  rw [bigSep_W0, bigSep_W0]
  exact sound_bodyF m c t

/-! ## The run and the frame -/

set_option backward.isDefEq.respectTransparency.types false in
/-- From any memory with zero counters every weakly fair execution of @main terminates; the tiled input arrays end as
    the launch found them and every buffer the launch passes by likewise. -/
theorem run_mainF : θ_run defs (onTc (τ := τ) (main (F := F))) (s₀ m ρ)
    (RDat.FramePost cfg0 (fun c => (datsF m 0 c).toRForget fgtOut) (V m)) :=
  Pipeline.RDat.θ_run_frame cfgs (0 : Fin 1) launch0 defs₀ Variants.none (fun c => (datsF m 0 c).toRForget fgtOut) m ρ main
    (hbody := fun c => (body_obligationF m c).toRForget) (hshare := fun c => (datsF m 0 c).share_full fun _ => rfl)
    (howed := fun _ _ => rfl) (V := V m) (hmain := hmain m Variants.none) (hA := A_eqF m) (hΦ := fun _ _ => rfl)

/-- An input window's array ends as the launch found it. -/
theorem inArr (r : PUnit × MemSt nD τ sig (Elt F))
    (h : RDat.FramePost cfg0 (fun c => (datsF m 0 c).toRForget fgtOut) (V m) r) (c : Dev nD) (w : Fin cfg0.W)
    (hw : (cfg0.win w).isOut = false) :
    r.2.mem ((cfg0.spec w).arr.view.loc (c.tc : Thread nD τ)) = V m c (Pipeline.arrRef spec0 w) := by
  have h1 := (h c).1 w
  rw [RDat.ArrAt_in (rd := (datsF m 0 c).toRForget fgtOut) w hw] at h1
  exact h1.trans (A_eqF m c w)

/-- The frame: the program terminates without a fault and its twenty-three arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨(inArr m r h c 0 rfl).trans (Cert.KernelHostB.VV_main_arg0 m c),
      ((h c).2 main_arg1 (Pipeline.mem_restRefs_of main_arg1 (by decide) (by decide))).trans (Cert.KernelHostB.VV_main_arg1 m c),
      ((h c).2 main_arg2 (Pipeline.mem_restRefs_of main_arg2 (by decide) (by decide))).trans (Cert.KernelHostB.VV_main_arg2 m c),
      (inArr m r h c 1 rfl).trans (Cert.KernelHostB.VV_main_arg3 m c),
      (inArr m r h c 2 rfl).trans (Cert.KernelHostB.VV_main_arg4 m c),
      ((h c).2 main_arg5 (Pipeline.mem_restRefs_of main_arg5 (by decide) (by decide))).trans (Cert.KernelHostB.VV_main_arg5 m c),
      ((h c).2 main_arg6 (Pipeline.mem_restRefs_of main_arg6 (by decide) (by decide))).trans (Cert.KernelHostB.VV_main_arg6 m c),
      ((h c).2 main_arg7 (Pipeline.mem_restRefs_of main_arg7 (by decide) (by decide))).trans (Cert.KernelHostB.VV_main_arg7 m c),
      ((h c).2 main_arg8 (Pipeline.mem_restRefs_of main_arg8 (by decide) (by decide))).trans (Cert.KernelHostB.VV_main_arg8 m c),
      ((h c).2 main_arg9 (Pipeline.mem_restRefs_of main_arg9 (by decide) (by decide))).trans (Cert.KernelHostB.VV_main_arg9 m c),
      ((h c).2 main_arg10 (Pipeline.mem_restRefs_of main_arg10 (by decide) (by decide))).trans (Cert.KernelHostB.VV_main_arg10 m c),
      ((h c).2 main_arg11 (Pipeline.mem_restRefs_of main_arg11 (by decide) (by decide))).trans (Cert.KernelHostB.VV_main_arg11 m c),
      ((h c).2 main_arg12 (Pipeline.mem_restRefs_of main_arg12 (by decide) (by decide))).trans (Cert.KernelHostB.VV_main_arg12 m c),
      ((h c).2 main_arg13 (Pipeline.mem_restRefs_of main_arg13 (by decide) (by decide))).trans (Cert.KernelHostB.VV_main_arg13 m c),
      ((h c).2 main_arg14 (Pipeline.mem_restRefs_of main_arg14 (by decide) (by decide))).trans (Cert.KernelHostB.VV_main_arg14 m c),
      ((h c).2 main_arg15 (Pipeline.mem_restRefs_of main_arg15 (by decide) (by decide))).trans (Cert.KernelHostB.VV_main_arg15 m c),
      ((h c).2 main_arg16 (Pipeline.mem_restRefs_of main_arg16 (by decide) (by decide))).trans (Cert.KernelHostB.VV_main_arg16 m c),
      ((h c).2 main_arg17 (Pipeline.mem_restRefs_of main_arg17 (by decide) (by decide))).trans (Cert.KernelHostB.VV_main_arg17 m c),
      ((h c).2 main_arg18 (Pipeline.mem_restRefs_of main_arg18 (by decide) (by decide))).trans (Cert.KernelHostB.VV_main_arg18 m c),
      ((h c).2 main_arg19 (Pipeline.mem_restRefs_of main_arg19 (by decide) (by decide))).trans (Cert.KernelHostB.VV_main_arg19 m c),
      ((h c).2 main_arg20 (Pipeline.mem_restRefs_of main_arg20 (by decide) (by decide))).trans (Cert.KernelHostB.VV_main_arg20 m c),
      (inArr m r h c 6 rfl).trans (Cert.KernelHostB.VV_main_arg21 m c),
      ((h c).2 main_arg22 (Pipeline.mem_restRefs_of main_arg22 (by decide) (by decide))).trans (Cert.KernelHostB.VV_main_arg22 m c)⟩) (run_mainF m ρ)

end Cert.Kernel.Hand

end
-- ==== Proof.KiBody.lean ====
/-
  One grid point of the cell kernel, as a statement about memory.

  The body reads eleven whole staging buffers and writes three of them: it loads the node-feature tile, the two
  state tiles, the two fused weight matrices, the fused bias row, the classifier's matrix and bias row; it stores
  the class scores, the new hidden state and the new cell state, each as ONE store covering its whole buffer. So
  after the body the eight inputs hold what they held and each output holds the body's arithmetic — a pure
  function of the eight loaded values — whatever it held before. Nothing here depends on what the arithmetic is.
-/
import proofs.«176817_j74887049773819_2_alg».proof.Proof.Gen.KernelIdeal.Launch
import proofs.«176817_j74887049773819_2_alg».proof.Proof.Gen.KernelIdeal.Skeleton
import proofs.«176817_j74887049773819_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every one is its whole buffer -/

abbrev rX : Rect S6144x165 := Rect.unit (s := S6144x165) ![0, 0] S6144x165.size inb_S6144x165_S6144x165_0_0
abbrev rS : Rect S6144x32 := Rect.unit (s := S6144x32) ![0, 0] S6144x32.size inb_S6144x32_S6144x32_0_0
abbrev rW : Rect S165x128 := Rect.unit (s := S165x128) ![0, 0] S165x128.size inb_S165x128_S165x128_0_0
abbrev rR : Rect S32x128 := Rect.unit (s := S32x128) ![0, 0] S32x128.size inb_S32x128_S32x128_0_0
abbrev rB : Rect S1x128 := Rect.unit (s := S1x128) ![0, 0] S1x128.size inb_S1x128_S1x128_0_0
abbrev rL : Rect S32x2 := Rect.unit (s := S32x2) ![0, 0] S32x2.size inb_S32x2_S32x2_0_0
abbrev rC : Rect S1x2 := Rect.unit (s := S1x2) ![0, 0] S1x2.size inb_S1x2_S1x2_0_0
abbrev rY : Rect S6144x2 := Rect.unit (s := S6144x2) ![0, 0] S6144x2.size inb_S6144x2_S6144x2_0_0

/-! ## What the body leaves in the three output buffers -/

/-- The class scores' buffer after the body: its one store, over the eight loads. -/
def outY (x0 : Vec F S6144x165 .f32) (x1 x2 : Vec F S6144x32 .f32) (x3 : Vec F S165x128 .f32) (x4 : Vec F S32x128 .f32)
    (x5 : Vec F S1x128 .f32) (x6 : Vec F S32x2 .f32) (x7 : Vec F S1x2 .f32) : Vec F S6144x2 .f32 :=
  View.canon [⟨rY, k0_pay4 (View.ld x0 rX) (View.ld x1 rS) (View.ld x2 rS) (View.ld x3 rW) (View.ld x4 rR) (View.ld x5 rB) (View.ld x6 rL) (View.ld x7 rC)⟩]
/-- The new hidden state's. -/
def outH (x0 : Vec F S6144x165 .f32) (x1 x2 : Vec F S6144x32 .f32) (x3 : Vec F S165x128 .f32) (x4 : Vec F S32x128 .f32)
    (x5 : Vec F S1x128 .f32) : Vec F S6144x32 .f32 :=
  View.canon [⟨rS, k0_pay3 (View.ld x0 rX) (View.ld x1 rS) (View.ld x2 rS) (View.ld x3 rW) (View.ld x4 rR) (View.ld x5 rB)⟩]
/-- The new cell state's. -/
def outC (x0 : Vec F S6144x165 .f32) (x1 x2 : Vec F S6144x32 .f32) (x3 : Vec F S165x128 .f32) (x4 : Vec F S32x128 .f32)
    (x5 : Vec F S1x128 .f32) : Vec F S6144x32 .f32 :=
  View.canon [⟨rS, k0_pay2 (View.ld x0 rX) (View.ld x1 rS) (View.ld x2 rS) (View.ld x3 rW) (View.ld x4 rR) (View.ld x5 rB)⟩]

/-- One store through the whole-buffer rectangle covers the buffer. -/
theorem coverY (p0 : Vec F S6144x2 .f32) (y : S6144x2.Idx) :
    ∃ pc ∈ ([⟨rY, p0⟩] : List (View.Piece (Elt F) S6144x2 .f32)), y ∈ pc.1.set :=
  View.cover_of_tiled [⟨rY, p0⟩] S6144x2.size (by rfl) y
theorem coverS (p0 : Vec F S6144x32 .f32) (y : S6144x32.Idx) :
    ∃ pc ∈ ([⟨rS, p0⟩] : List (View.Piece (Elt F) S6144x32 .f32)), y ∈ pc.1.set :=
  View.cover_of_tiled [⟨rS, p0⟩] S6144x32.size (by rfl) y

/-! ## The body's triple -/

set_option maxHeartbeats 4000000 in
/-- The kernel body on whole staging memrefs — the eight inputs' at contents `x0 … x7`, the three outputs' at
    anything — runs to the continuation holding the inputs' as they were and each output's at its store's value. -/
theorem sound_kernel (c : Dev nD) (E : Set ℕ) (i : grid0.Coords)
    (arg1 : Memref sig .tc .vmem S6144x165 .f32) (harg1 : arg1.IsWhole) (arg2 : Memref sig .tc .vmem S6144x32 .f32) (harg2 : arg2.IsWhole)
    (arg3 : Memref sig .tc .vmem S6144x32 .f32) (harg3 : arg3.IsWhole) (arg4 : Memref sig .tc .vmem S165x128 .f32) (harg4 : arg4.IsWhole)
    (arg5 : Memref sig .tc .vmem S32x128 .f32) (harg5 : arg5.IsWhole) (arg6 : Memref sig .tc .vmem S1x128 .f32) (harg6 : arg6.IsWhole)
    (arg7 : Memref sig .tc .vmem S32x2 .f32) (harg7 : arg7.IsWhole) (arg8 : Memref sig .tc .vmem S1x2 .f32) (harg8 : arg8.IsWhole)
    (arg9 : Memref sig .tc .vmem S6144x2 .f32) (harg9 : arg9.IsWhole) (arg10 : Memref sig .tc .vmem S6144x32 .f32) (harg10 : arg10.IsWhole)
    (arg11 : Memref sig .tc .vmem S6144x32 .f32) (harg11 : arg11.IsWhole)
    (x0 : Vec F S6144x165 .f32) (x1 x2 : Vec F S6144x32 .f32) (x3 : Vec F S165x128 .f32) (x4 : Vec F S32x128 .f32)
    (x5 : Vec F S1x128 .f32) (x6 : Vec F S32x2 .f32) (x7 : Vec F S1x2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
              ∗ owns (c : Thread nD τ) arg4 fullShare x3 ∗ owns (c : Thread nD τ) arg5 fullShare x4 ∗ owns (c : Thread nD τ) arg6 fullShare x5
              ∗ owns (c : Thread nD τ) arg7 fullShare x6 ∗ owns (c : Thread nD τ) arg8 fullShare x7
              ∗ owns (c : Thread nD τ) arg9 fullShare (outY x0 x1 x2 x3 x4 x5 x6 x7)
              ∗ owns (c : Thread nD τ) arg10 fullShare (outH x0 x1 x2 x3 x4 x5)
              ∗ owns (c : Thread nD τ) arg11 fullShare (outC x0 x1 x2 x3 x4 x5)) -∗ K ⟨⟩))
      ⊢ wp frame (wpE (defs₀ (F := F)) Variants.none c none) E
          (cc0__gclstm_kernel i arg1 harg1 arg2 harg2 arg3 harg3 arg4 harg4 arg5 harg5 arg6 harg6 arg7 harg7 arg8 harg8 arg9 harg9 arg10 harg10 arg11 harg11) K := by
  simp only [cc0__gclstm_kernel_eq_skeleton]; unfold cc0__gclstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverY _)
  isplitl [H9]
  · iexists _; isplitr
    swap; · iexact H9
    ipureintro
    exact View.read_writes_eq_canon _ _ _ (coverS _)
  · iexists _; isplitr
    swap; · iexact H10
    ipureintro
    exact View.read_writes_eq_canon _ _ _ (coverS _)

end Cert.KernelIdeal.Hand

end
-- ==== Proof.KiKit.lean ====
/-
  The program up to its one kernel launch, and what the launch hands the body.

  @main first prepares four small operands on the host — the four gates' input weights joined along the lanes,
  the four recurrent weights likewise, the four pairs of biases summed and joined, the classifier's bias as a
  row — and then launches the kernel over 82 row tiles of 6144 nodes. 82 · 6144 = 503808 exceeds the 500000
  nodes, so the last tile overhangs the arrays: its transfers move only the 2336 rows inside, and the other
  rows of the staging buffers hold words nothing names. This module states what each input staging buffer holds
  when the body runs: the tile's rows inside the array, and anything past them.
-/
import proofs.«176817_j74887049773819_2_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the kernel is launched: after the twelve host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`: its rows inside the array, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A staging buffer of window `w` holding the block on the rows a transfer moves and `d` elsewhere. -/
def stagedIn (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- An input window's current staging buffer holds, whenever the body runs, what a fetch at that point puts there
    — fetched there or not — for any proof data whose array is the launch contents and whose body leaves the
    block in place. -/
theorem before_in_of {c : Dev nD} (dat : Dat τ (Elt F) Unit ℕ (UR sig nD τ) ℕ cfg0 c) (w : Fin cfg0.W)
    (hw : (cfg0.win w).isOut = false) (hA : dat.A w = V m c (Pipeline.arrRef spec0 w))
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) (dat.after w t) = iblk m c w t) (t : Fin cfg0.N) (d) :
    dat.before w t d = stagedIn m c w t d := by
  have hb : ∀ t, dat.blockOf w t = iblk m c w t := fun t => by unfold Dat.blockOf iblk; rw [hA]
  rw [dat.before_in_eq_fetched w hw (fun _ => rfl) hclip (fun t => by rw [hkeep, hb]) t d]
  unfold Dat.fetched stagedIn; rw [hb]

/-- The cut of a tiled window is a function of its block index: where the tile starts decides how much of it lies
    inside the array. -/
theorem clip_in0 (t t' : Fin cfg0.N) (h : (cfg0.win 0).index t = (cfg0.win 0).index t') :
    (cfg0.win 0).clip (cfg0.grid.coords t) = (cfg0.win 0).clip (cfg0.grid.coords t') :=
  congrArg (fun (f : Fin 2 → Nat) => fun a => Pipeline.Clip.of (f a) (S6144x165.size a) (S500000x165.size a)) h
theorem clip_in1 (t t' : Fin cfg0.N) (h : (cfg0.win 1).index t = (cfg0.win 1).index t') :
    (cfg0.win 1).clip (cfg0.grid.coords t) = (cfg0.win 1).clip (cfg0.grid.coords t') :=
  congrArg (fun (f : Fin 2 → Nat) => fun a => Pipeline.Clip.of (f a) (S6144x32.size a) (S500000x32.size a)) h
theorem clip_in2 (t t' : Fin cfg0.N) (h : (cfg0.win 2).index t = (cfg0.win 2).index t') :
    (cfg0.win 2).clip (cfg0.grid.coords t) = (cfg0.win 2).clip (cfg0.grid.coords t') :=
  congrArg (fun (f : Fin 2 → Nat) => fun a => Pipeline.Clip.of (f a) (S6144x32.size a) (S500000x32.size a)) h

end Cert.KernelIdeal.Hand

end
-- ==== Proof.KiTiling.lean ====
/-
  The tiling, in numbers.

  The grid has 82 points; point `t` handles rows 6144·t … of the node arrays. The three node-indexed inputs and the
  three results are tiled alike: block index (t, 0), 6144 rows per block, and — since 82·6144 exceeds 500000 — a last
  block of which only min(6144, 500000 − 6144·t) rows lie inside the array. Every tile spans all its array's lanes.
  The five weight operands have one block, the whole array, at every point.
-/
import proofs.«176817_j74887049773819_2_alg».proof.Proof.KiKit

set_option maxRecDepth 16384

noncomputable section

namespace Cert.KernelIdeal.Hand

open Cert.KernelIdeal Cert.KernelIdeal.Gen
open Idealize.ShloMosaic Idealize.ShloMosaic.TcCoe Idealize.SL.Sem

/-- The rows of tile `t` that lie inside the node arrays. -/
def rowsIn (t : Nat) : Nat := min 6144 (500000 - 6144 * t)

/-- The node-indexed windows: block index (t, 0); rows cut at the array's end, lanes whole. -/
theorem tile_facts : ∀ t : Fin cfg0.N,
    (win0_0.index t (0 : Fin 2) = t.val ∧ win0_0.index t (1 : Fin 2) = 0 ∧ win0_0.xsize (grid0.coords t) (0 : Fin 2) = min 6144 (500000 - 6144 * t.val) ∧ win0_0.xsize (grid0.coords t) (1 : Fin 2) = 165)
    ∧ (win0_1.index t (0 : Fin 2) = t.val ∧ win0_1.index t (1 : Fin 2) = 0 ∧ win0_1.xsize (grid0.coords t) (0 : Fin 2) = min 6144 (500000 - 6144 * t.val) ∧ win0_1.xsize (grid0.coords t) (1 : Fin 2) = 32)
    ∧ (win0_2.index t (0 : Fin 2) = t.val ∧ win0_2.index t (1 : Fin 2) = 0 ∧ win0_2.xsize (grid0.coords t) (0 : Fin 2) = min 6144 (500000 - 6144 * t.val) ∧ win0_2.xsize (grid0.coords t) (1 : Fin 2) = 32)
    ∧ (win0_8.index t (0 : Fin 2) = t.val ∧ win0_8.index t (1 : Fin 2) = 0 ∧ win0_8.xsize (grid0.coords t) (0 : Fin 2) = min 6144 (500000 - 6144 * t.val) ∧ win0_8.xsize (grid0.coords t) (1 : Fin 2) = 2)
    ∧ (win0_9.index t (0 : Fin 2) = t.val ∧ win0_9.index t (1 : Fin 2) = 0 ∧ win0_9.xsize (grid0.coords t) (0 : Fin 2) = min 6144 (500000 - 6144 * t.val) ∧ win0_9.xsize (grid0.coords t) (1 : Fin 2) = 32)
    ∧ (win0_10.index t (0 : Fin 2) = t.val ∧ win0_10.index t (1 : Fin 2) = 0 ∧ win0_10.xsize (grid0.coords t) (0 : Fin 2) = min 6144 (500000 - 6144 * t.val) ∧ win0_10.xsize (grid0.coords t) (1 : Fin 2) = 32) :=
  (by decide +kernel : ∀ t : Fin grid0.N, _)

/-- The weight operands: one block, the whole array, at every point. -/
theorem whole_facts : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- Every tile lies inside the array once cut: 6144·t + (rows inside) ≤ 500000, and at least one row is inside. -/
theorem rows_bound (t : Fin cfg0.N) : 6144 * t.val + min 6144 (500000 - 6144 * t.val) ≤ 500000 ∧ 0 < min 6144 (500000 - 6144 * t.val) := by
  have ht : t.val < 82 := t.isLt
  omega

end Cert.KernelIdeal.Hand

end
-- ==== Proof.PayloadAt.lean ====
/-
  The kernel body's arithmetic, read at an index.

  The body works on a tile of 6144 nodes.  Its 128-lane pre-activation tile is the feature block times the packed
  input weights plus the hidden block times the packed recurrent weights plus the packed bias row, the four gates
  lying side by side in lanes 0–31 (input), 32–63 (forget), 64–95 (candidate) and 96–127 (output).  Read at node
  `p` and lane `q` it is

      pre(p, q) = (Σ_k x(p,k)·W(k,q) + Σ_k h(p,k)·R(k,q)) + b(0,q),

  and the three stored values are, at node `p` and unit `j` or class `n`,

      c'(p,j) = σ(pre(p, 32+j))·c(p,j) + σ(pre(p, j))·tanh(pre(p, 64+j)),
      h'(p,j) = σ(pre(p, 96+j))·tanh(c'(p,j)),
      s(p,n)  = Σ_k max(h'(p,k), 0)·L(k,n) + bl(0,n).

  Each product into a zero accumulator is the plain sum over the contracted axis; a slice of the lane axis from
  offset `o` reads lane `o + j`; a one-row broadcast reads its row.  Every step is an equation between extended
  reals as they stand: nothing is rearranged and no input need be finite.
-/
import proofs.«176817_j74887049773819_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelValue

open Cert.KernelIdeal Cert.KernelIdeal.Gen Idealize.ShloMosaic Idealize.ShloMosaic.ValueIdx

/-! ## A product into a zero accumulator is the sum over the contracted axis -/

/-- The feature block times the packed input weights, at node `p` and lane `q`: the sum over the 165 features. -/
theorem featProd_at_lhs0 (i : S6144x128.Idx) (c : dot_S6144x165_S165x128_S6144x128_1_0_0_1_n_n.contr.Idx) :
    (dot_S6144x165_S165x128_S6144x128_1_0_0_1_n_n.lhsIdx i c 0).val = (i 0).val := by
  unfold DotDims.lhsIdx
  rw [dif_neg (show ¬(0 : Fin S6144x165.rank) ∈ dot_S6144x165_S165x128_S6144x128_1_0_0_1_n_n.lhsBatch by decide), dif_pos (show (0 : Fin S6144x165.rank) ∈ dot_S6144x165_S165x128_S6144x128_1_0_0_1_n_n.lhsNonContracting by decide)]
  rfl
theorem featProd_at_rhs1 (i : S6144x128.Idx) (c : dot_S6144x165_S165x128_S6144x128_1_0_0_1_n_n.contr.Idx) :
    (dot_S6144x165_S165x128_S6144x128_1_0_0_1_n_n.rhsIdx i c 1).val = (i 1).val := by
  unfold DotDims.rhsIdx
  rw [dif_neg (show ¬(1 : Fin S165x128.rank) ∈ dot_S6144x165_S165x128_S6144x128_1_0_0_1_n_n.rhsBatch by decide), dif_pos (show (1 : Fin S165x128.rank) ∈ dot_S6144x165_S165x128_S6144x128_1_0_0_1_n_n.rhsNonContracting by decide)]
  rfl
theorem featProd_at (X : FVec Ideal S6144x165 .f32) (W : FVec Ideal S165x128 .f32) (p : Fin 6144) (q : Fin 128) :
    matmul (F := Ideal) dot_S6144x165_S165x128_S6144x128_1_0_0_1_n_n none X W (constant (F := Ideal) S6144x128 .f32 0x00000000#32) (ix2 p q)
      = ∑ k : Fin 165, X (ix2 p k) * W (ix2 k q) := by
  refine (Ideal.matmul_constant_zero_apply dot_S6144x165_S165x128_S6144x128_1_0_0_1_n_n none X W (ix2 p q)).trans ?_
  rw [← Equiv.sum_comp (contrEquiv1 dot_S6144x165_S165x128_S6144x128_1_0_0_1_n_n 165 rfl rfl).symm]
  refine Finset.sum_congr rfl fun k _ => ?_
  have hk := contrEquiv1_symm_val dot_S6144x165_S165x128_S6144x128_1_0_0_1_n_n 165 rfl rfl k
  have el : dot_S6144x165_S165x128_S6144x128_1_0_0_1_n_n.lhsIdx (ix2 p q) ((contrEquiv1 dot_S6144x165_S165x128_S6144x128_1_0_0_1_n_n 165 rfl rfl).symm k) = ix2 p k := funext fun a => Fin.ext (by
    match a with
    | ⟨0, _⟩ => exact featProd_at_lhs0 _ _
    | ⟨1, _⟩ => exact (dot_S6144x165_S165x128_S6144x128_1_0_0_1_n_n.lhsIdx_val_of_single rfl (ix2 p q) _).trans hk)
  have er : dot_S6144x165_S165x128_S6144x128_1_0_0_1_n_n.rhsIdx (ix2 p q) ((contrEquiv1 dot_S6144x165_S165x128_S6144x128_1_0_0_1_n_n 165 rfl rfl).symm k) = ix2 k q := funext fun a => Fin.ext (by
    match a with
    | ⟨0, _⟩ => exact (dot_S6144x165_S165x128_S6144x128_1_0_0_1_n_n.rhsIdx_val_of_single rfl (ix2 p q) _).trans hk
    | ⟨1, _⟩ => exact featProd_at_rhs1 _ _)
  rw [el, er]

/-- The hidden block times the packed recurrent weights, at node `p` and lane `q`: the sum over the 32 hidden units. -/
theorem hidProd_at_lhs0 (i : S6144x128.Idx) (c : dot_S6144x32_S32x128_S6144x128_1_0_0_1_n_n.contr.Idx) :
    (dot_S6144x32_S32x128_S6144x128_1_0_0_1_n_n.lhsIdx i c 0).val = (i 0).val := by
  unfold DotDims.lhsIdx
  rw [dif_neg (show ¬(0 : Fin S6144x32.rank) ∈ dot_S6144x32_S32x128_S6144x128_1_0_0_1_n_n.lhsBatch by decide), dif_pos (show (0 : Fin S6144x32.rank) ∈ dot_S6144x32_S32x128_S6144x128_1_0_0_1_n_n.lhsNonContracting by decide)]
  rfl
theorem hidProd_at_rhs1 (i : S6144x128.Idx) (c : dot_S6144x32_S32x128_S6144x128_1_0_0_1_n_n.contr.Idx) :
    (dot_S6144x32_S32x128_S6144x128_1_0_0_1_n_n.rhsIdx i c 1).val = (i 1).val := by
  unfold DotDims.rhsIdx
  rw [dif_neg (show ¬(1 : Fin S32x128.rank) ∈ dot_S6144x32_S32x128_S6144x128_1_0_0_1_n_n.rhsBatch by decide), dif_pos (show (1 : Fin S32x128.rank) ∈ dot_S6144x32_S32x128_S6144x128_1_0_0_1_n_n.rhsNonContracting by decide)]
  rfl
theorem hidProd_at (H : FVec Ideal S6144x32 .f32) (R : FVec Ideal S32x128 .f32) (p : Fin 6144) (q : Fin 128) :
    matmul (F := Ideal) dot_S6144x32_S32x128_S6144x128_1_0_0_1_n_n none H R (constant (F := Ideal) S6144x128 .f32 0x00000000#32) (ix2 p q)
      = ∑ k : Fin 32, H (ix2 p k) * R (ix2 k q) := by
  refine (Ideal.matmul_constant_zero_apply dot_S6144x32_S32x128_S6144x128_1_0_0_1_n_n none H R (ix2 p q)).trans ?_
  rw [← Equiv.sum_comp (contrEquiv1 dot_S6144x32_S32x128_S6144x128_1_0_0_1_n_n 32 rfl rfl).symm]
  refine Finset.sum_congr rfl fun k _ => ?_
  have hk := contrEquiv1_symm_val dot_S6144x32_S32x128_S6144x128_1_0_0_1_n_n 32 rfl rfl k
  have el : dot_S6144x32_S32x128_S6144x128_1_0_0_1_n_n.lhsIdx (ix2 p q) ((contrEquiv1 dot_S6144x32_S32x128_S6144x128_1_0_0_1_n_n 32 rfl rfl).symm k) = ix2 p k := funext fun a => Fin.ext (by
    match a with
    | ⟨0, _⟩ => exact hidProd_at_lhs0 _ _
    | ⟨1, _⟩ => exact (dot_S6144x32_S32x128_S6144x128_1_0_0_1_n_n.lhsIdx_val_of_single rfl (ix2 p q) _).trans hk)
  have er : dot_S6144x32_S32x128_S6144x128_1_0_0_1_n_n.rhsIdx (ix2 p q) ((contrEquiv1 dot_S6144x32_S32x128_S6144x128_1_0_0_1_n_n 32 rfl rfl).symm k) = ix2 k q := funext fun a => Fin.ext (by
    match a with
    | ⟨0, _⟩ => exact (dot_S6144x32_S32x128_S6144x128_1_0_0_1_n_n.rhsIdx_val_of_single rfl (ix2 p q) _).trans hk
    | ⟨1, _⟩ => exact hidProd_at_rhs1 _ _)
  rw [el, er]

/-- The rectified hidden block times the output weights, at node `p` and class `n`: the sum over the 32 hidden units. -/
theorem classProd_at_lhs0 (i : S6144x2.Idx) (c : dot_S6144x32_S32x2_S6144x2_1_0_0_1_n_n.contr.Idx) :
    (dot_S6144x32_S32x2_S6144x2_1_0_0_1_n_n.lhsIdx i c 0).val = (i 0).val := by
  unfold DotDims.lhsIdx
  rw [dif_neg (show ¬(0 : Fin S6144x32.rank) ∈ dot_S6144x32_S32x2_S6144x2_1_0_0_1_n_n.lhsBatch by decide), dif_pos (show (0 : Fin S6144x32.rank) ∈ dot_S6144x32_S32x2_S6144x2_1_0_0_1_n_n.lhsNonContracting by decide)]
  rfl
theorem classProd_at_rhs1 (i : S6144x2.Idx) (c : dot_S6144x32_S32x2_S6144x2_1_0_0_1_n_n.contr.Idx) :
    (dot_S6144x32_S32x2_S6144x2_1_0_0_1_n_n.rhsIdx i c 1).val = (i 1).val := by
  unfold DotDims.rhsIdx
  rw [dif_neg (show ¬(1 : Fin S32x2.rank) ∈ dot_S6144x32_S32x2_S6144x2_1_0_0_1_n_n.rhsBatch by decide), dif_pos (show (1 : Fin S32x2.rank) ∈ dot_S6144x32_S32x2_S6144x2_1_0_0_1_n_n.rhsNonContracting by decide)]
  rfl
theorem classProd_at (A : FVec Ideal S6144x32 .f32) (L : FVec Ideal S32x2 .f32) (p : Fin 6144) (q : Fin 2) :
    matmul (F := Ideal) dot_S6144x32_S32x2_S6144x2_1_0_0_1_n_n none A L (constant (F := Ideal) S6144x2 .f32 0x00000000#32) (ix2 p q)
      = ∑ k : Fin 32, A (ix2 p k) * L (ix2 k q) := by
  refine (Ideal.matmul_constant_zero_apply dot_S6144x32_S32x2_S6144x2_1_0_0_1_n_n none A L (ix2 p q)).trans ?_
  rw [← Equiv.sum_comp (contrEquiv1 dot_S6144x32_S32x2_S6144x2_1_0_0_1_n_n 32 rfl rfl).symm]
  refine Finset.sum_congr rfl fun k _ => ?_
  have hk := contrEquiv1_symm_val dot_S6144x32_S32x2_S6144x2_1_0_0_1_n_n 32 rfl rfl k
  have el : dot_S6144x32_S32x2_S6144x2_1_0_0_1_n_n.lhsIdx (ix2 p q) ((contrEquiv1 dot_S6144x32_S32x2_S6144x2_1_0_0_1_n_n 32 rfl rfl).symm k) = ix2 p k := funext fun a => Fin.ext (by
    match a with
    | ⟨0, _⟩ => exact classProd_at_lhs0 _ _
    | ⟨1, _⟩ => exact (dot_S6144x32_S32x2_S6144x2_1_0_0_1_n_n.lhsIdx_val_of_single rfl (ix2 p q) _).trans hk)
  have er : dot_S6144x32_S32x2_S6144x2_1_0_0_1_n_n.rhsIdx (ix2 p q) ((contrEquiv1 dot_S6144x32_S32x2_S6144x2_1_0_0_1_n_n 32 rfl rfl).symm k) = ix2 k q := funext fun a => Fin.ext (by
    match a with
    | ⟨0, _⟩ => exact (dot_S6144x32_S32x2_S6144x2_1_0_0_1_n_n.rhsIdx_val_of_single rfl (ix2 p q) _).trans hk
    | ⟨1, _⟩ => exact classProd_at_rhs1 _ _)
  rw [el, er]

/-! ## The pre-activation tile -/

/-- The pre-activation at node `p`, lane `q`: the two projections, then the packed bias row. -/
def pre (X0 : Vec Ideal S6144x165 .f32) (X1 : Vec Ideal S6144x32 .f32) (W : Vec Ideal S165x128 .f32)
    (R : Vec Ideal S32x128 .f32) (B : Vec Ideal S1x128 .f32) (p : Fin 6144) (q : Fin 128) : EReal :=
  ((∑ k : Fin 165, X0 (ix2 p k) * W (ix2 k q)) + (∑ k : Fin 32, X1 (ix2 p k) * R (ix2 k q))) + B (ix2 (0 : Fin 1) q)

/-- Lane `32·g + j`: unit `j` of gate `g` (0 input, 1 forget, 2 candidate, 3 output). -/
def lane (g : Fin 4) (j : Fin 32) : Fin 128 := ⟨32 * g.val + j.val, by omega⟩

/-- The lane's number. -/
theorem lane_val (g : Fin 4) (j : Fin 32) : (lane g j).val = 32 * g.val + j.val := rfl

variable (X0 : Vec Ideal S6144x165 .f32) (X1 X2 : Vec Ideal S6144x32 .f32) (W : Vec Ideal S165x128 .f32)
  (R : Vec Ideal S32x128 .f32) (B : Vec Ideal S1x128 .f32) (L : Vec Ideal S32x2 .f32) (BL : Vec Ideal S1x2 .f32)

/-- The pre-activation tile at an index. -/
theorem pay1_at (p : Fin 6144) (q : Fin 128) :
    Gen.k0_pay1 (F := Ideal) X0 X1 W R B (ix2 p q) = pre X0 X1 W R B p q := by
  unfold Gen.k0_pay1 pre
  refine (addf_apply _ _ _).trans ?_
  refine congrArg₂ (· + ·) ((addf_apply _ _ _).trans (congrArg₂ (· + ·) ?_ ?_)) ?_
  · rw [shapeCast_self]
    exact featProd_at X0 W p q
  · rw [shapeCast_self]
    exact hidProd_at X1 R p q
  · rw [shapeCast_self]
    exact broadcastTo_1b_ab_apply B _ p q

/-! ## The three stored values -/

/-- The new cell state at node `p`, unit `j`: forget gate times the old cell state plus input gate times the
    candidate, each gate read from its own 32 lanes of the pre-activation tile. -/
theorem pay2_at (p : Fin 6144) (j : Fin 32) :
    Gen.k0_pay2 (F := Ideal) X0 X1 X2 W R B (ix2 p j)
      = Ideal.logistic (pre X0 X1 W R B p (lane 1 j)) * X2 (ix2 p j)
        + Ideal.logistic (pre X0 X1 W R B p (lane 0 j)) * Ideal.tanh (pre X0 X1 W R B p (lane 2 j)) := by
  unfold Gen.k0_pay2
  refine (addf_apply _ _ _).trans ?_
  refine congrArg₂ (· + ·) ((mulf_apply _ _ _).trans (congrArg₂ (· * ·) ?_ rfl))
    ((mulf_apply _ _ _).trans (congrArg₂ (· * ·) ?_ ?_))
  · exact congrArg Ideal.logistic ((slice2_axis1_apply 32 _ _ p j (lane 1 j) rfl).trans (pay1_at X0 X1 W R B p (lane 1 j)))
  · exact congrArg Ideal.logistic ((slice2_axis1_apply 0 _ _ p j (lane 0 j) rfl).trans (pay1_at X0 X1 W R B p (lane 0 j)))
  · exact congrArg Ideal.tanh ((slice2_axis1_apply 64 _ _ p j (lane 2 j) rfl).trans (pay1_at X0 X1 W R B p (lane 2 j)))

/-- The new hidden state at node `p`, unit `j`: output gate times the hyperbolic tangent of the new cell state. -/
theorem pay3_at (p : Fin 6144) (j : Fin 32) :
    Gen.k0_pay3 (F := Ideal) X0 X1 X2 W R B (ix2 p j)
      = Ideal.logistic (pre X0 X1 W R B p (lane 3 j)) * Ideal.tanh (Gen.k0_pay2 (F := Ideal) X0 X1 X2 W R B (ix2 p j)) := by
  unfold Gen.k0_pay3
  refine (mulf_apply _ _ _).trans (congrArg₂ (· * ·) ?_ rfl)
  exact congrArg Ideal.logistic ((slice2_axis1_apply 96 _ _ p j (lane 3 j) rfl).trans (pay1_at X0 X1 W R B p (lane 3 j)))

/-- The class scores at node `p`, class `n`: the rectified new hidden state through the output layer, plus its bias. -/
theorem pay4_at (p : Fin 6144) (n : Fin 2) :
    Gen.k0_pay4 (F := Ideal) X0 X1 X2 W R B L BL (ix2 p n)
      = (∑ k : Fin 32, max (Gen.k0_pay3 (F := Ideal) X0 X1 X2 W R B (ix2 p k)) 0 * L (ix2 k n)) + BL (ix2 (0 : Fin 1) n) := by
  unfold Gen.k0_pay4
  refine (addf_apply _ _ _).trans (congrArg₂ (· + ·) ?_ ?_)
  · refine (classProd_at _ L p n).trans ?_
    refine Finset.sum_congr rfl fun k _ => congrArg (· * L (ix2 k n)) ?_
    refine (maximumf_apply _ _ _).trans (congrArg (max _) ?_)
    exact Ideal.ofBits_zero_f32
  · rw [shapeCast_self]
    exact broadcastTo_1b_ab_apply BL _ p n

end Cert.KernelValue

end
-- ==== Proof.CellSpec.lean ====
/-
  The cell's mathematics, stated once, index by index, over the whole argument arrays read as extended reals.

  A graph-convolutional LSTM cell whose graph convolution has order one is a plain LSTM cell applied to every node
  independently. For node `r` and hidden unit `j`, each of the four gates has the pre-activation

      z(r, j) = ((Σ_k x(r,k)·W(k,j) + Σ_k h(r,k)·Wc(k,j)) + bc(j)) + b(0,j),

  the input, forget and output gates are the logistic function of theirs and the candidate the hyperbolic tangent
  of its own; the new cell state is  f·c + i·g,  the new hidden state  o·tanh(c'),  and the two class scores are
  Σ_k max(h'(r,k), 0)·Wlin(k,n) + blin(n).  Nothing here needs the inputs finite: the sums and products are the
  extended reals' own, and the two programs are compared term by term.
-/
import Idealize.ShloMosaic.Lib.ValueIdx

noncomputable section

open scoped BigOperators

namespace Cert.Spec

open Idealize.ShloMosaic Idealize.ShloMosaic.ValueIdx

/-- The node features, the recurrent states, one gate's two weight matrices and its two biases. -/
abbrev Feat := FVec Ideal (⟨2, ![500000, 165]⟩ : Shape) .f32
abbrev State := FVec Ideal (⟨2, ![500000, 32]⟩ : Shape) .f32
abbrev WIn := FVec Ideal (⟨2, ![165, 32]⟩ : Shape) .f32
abbrev WRec := FVec Ideal (⟨2, ![32, 32]⟩ : Shape) .f32
abbrev BRow := FVec Ideal (⟨2, ![1, 32]⟩ : Shape) .f32
abbrev BVec := FVec Ideal (⟨1, ![32]⟩ : Shape) .f32
abbrev WOut := FVec Ideal (⟨2, ![32, 2]⟩ : Shape) .f32
abbrev BOut := FVec Ideal (⟨1, ![2]⟩ : Shape) .f32
abbrev Scores := FVec Ideal (⟨2, ![500000, 2]⟩ : Shape) .f32

/-- One gate's pre-activation at node `r`, unit `j`: the two projections, then the recurrent bias, then the input
    bias, added in that order. -/
def gatePre (x : Feat) (h : State) (W : WIn) (Wc : WRec) (b : BRow) (bc : BVec) (r : Fin 500000) (j : Fin 32) : EReal :=
  ((∑ k : Fin 165, x (ix2 r k) * W (ix2 k j)) + (∑ k : Fin 32, h (ix2 r k) * Wc (ix2 k j))) + bc (ix1 j) + b (ix2 (0 : Fin 1) j)

/-- The new cell state: forget gate times the old cell state plus input gate times the candidate. -/
def cellNew (x : Feat) (h c : State) (Wi Wf Wg : WIn) (Ui Uf Ug : WRec) (bi bf bg : BRow) (ci cf cg : BVec)
    (r : Fin 500000) (j : Fin 32) : EReal :=
  Ideal.logistic (gatePre x h Wf Uf bf cf r j) * c (ix2 r j)
    + Ideal.logistic (gatePre x h Wi Ui bi ci r j) * Ideal.tanh (gatePre x h Wg Ug bg cg r j)

/-- The new hidden state: output gate times the hyperbolic tangent of the new cell state. -/
def hidNew (x : Feat) (h c : State) (Wi Wf Wg Wo : WIn) (Ui Uf Ug Uo : WRec) (bi bf bg bo : BRow) (ci cf cg co : BVec)
    (r : Fin 500000) (j : Fin 32) : EReal :=
  Ideal.logistic (gatePre x h Wo Uo bo co r j) * Ideal.tanh (cellNew x h c Wi Wf Wg Ui Uf Ug bi bf bg ci cf cg r j)

/-- The class scores: the rectified hidden state through the output layer. -/
def scores (x : Feat) (h c : State) (Wi Wf Wg Wo : WIn) (Ui Uf Ug Uo : WRec) (bi bf bg bo : BRow) (ci cf cg co : BVec)
    (Wl : WOut) (bl : BOut) (r : Fin 500000) (n : Fin 2) : EReal :=
  (∑ k : Fin 32, max (hidNew x h c Wi Wf Wg Wo Ui Uf Ug Uo bi bf bg bo ci cf cg co r k) 0 * Wl (ix2 k n)) + bl (ix1 n)

/-- The three result arrays, as whole-array functions. -/
def cellArr (x : Feat) (h c : State) (Wi Wf Wg : WIn) (Ui Uf Ug : WRec) (bi bf bg : BRow) (ci cf cg : BVec) : State :=
  fun i => cellNew x h c Wi Wf Wg Ui Uf Ug bi bf bg ci cf cg (i 0) (i 1)
def hidArr (x : Feat) (h c : State) (Wi Wf Wg Wo : WIn) (Ui Uf Ug Uo : WRec) (bi bf bg bo : BRow) (ci cf cg co : BVec) : State :=
  fun i => hidNew x h c Wi Wf Wg Wo Ui Uf Ug Uo bi bf bg bo ci cf cg co (i 0) (i 1)
def scoreArr (x : Feat) (h c : State) (Wi Wf Wg Wo : WIn) (Ui Uf Ug Uo : WRec) (bi bf bg bo : BRow) (ci cf cg co : BVec)
    (Wl : WOut) (bl : BOut) : Scores :=
  fun i => scores x h c Wi Wf Wg Wo Ui Uf Ug Uo bi bf bg bo ci cf cg co Wl bl (i 0) (i 1)

end Cert.Spec

end
-- ==== Proof.KiBridge.lean ====
/-
  One tile row of the kernel is one node of the specification.

  Fix a row `p` of a tile and the node `r` it holds. Suppose the three loaded tiles agree with the node arrays on
  that row, the two fused weight matrices hold gate `g`'s matrix in lanes 32g … 32g+31, and the fused bias row holds
  there the sum  b_g + bc_g  of the gate's two biases. Then the kernel's pre-activation in lane 32g + j is

      (Σ_k x(r,k)·W_g(k,j) + Σ_k h(r,k)·U_g(k,j)) + (b_g(0,j) + bc_g(j)),

  which is the specification's  ((Σ + Σ) + bc_g(j)) + b_g(0,j)  by associativity and commutativity of addition on
  the extended reals (no finiteness: nothing is distributed or cancelled). The gates, the new cell state, the new
  hidden state and the class scores are then the same expressions of equal arguments.
-/
import proofs.«176817_j74887049773819_2_alg».proof.Proof.PayloadAt
import proofs.«176817_j74887049773819_2_alg».proof.Proof.CellSpec

noncomputable section

open scoped BigOperators

namespace Cert.KernelValue

open Cert.KernelIdeal Cert.KernelIdeal.Gen Idealize.ShloMosaic Idealize.ShloMosaic.ValueIdx Cert.Spec

variable (X0 : Vec Ideal S6144x165 .f32) (X1 X2 : Vec Ideal S6144x32 .f32) (W : Vec Ideal S165x128 .f32)
  (R : Vec Ideal S32x128 .f32) (B : Vec Ideal S1x128 .f32) (L : Vec Ideal S32x2 .f32) (BL : Vec Ideal S1x2 .f32)
variable (x : Feat) (h c : State) (Wg : Fin 4 → WIn) (Ug : Fin 4 → WRec) (bg : Fin 4 → BRow) (cg : Fin 4 → BVec) (Wl : WOut) (bl : BOut)
variable (p : Fin 6144) (r : Fin 500000)

/-- What it means for the loaded values to be row `p` ↔ node `r` of the arrays and the joins of the gates' operands. -/
structure RowOf : Prop where
  feat : ∀ k : Fin 165, X0 (ix2 p k) = x (ix2 r k)
  hid : ∀ k : Fin 32, X1 (ix2 p k) = h (ix2 r k)
  cell : ∀ j : Fin 32, X2 (ix2 p j) = c (ix2 r j)
  win : ∀ (g : Fin 4) (k : Fin 165) (j : Fin 32), W (ix2 k (lane g j)) = Wg g (ix2 k j)
  rcur : ∀ (g : Fin 4) (k : Fin 32) (j : Fin 32), R (ix2 k (lane g j)) = Ug g (ix2 k j)
  bias : ∀ (g : Fin 4) (j : Fin 32), B (ix2 (0 : Fin 1) (lane g j)) = bg g (ix2 (0 : Fin 1) j) + cg g (ix1 j)
  out : ∀ (k : Fin 32) (n : Fin 2), L (ix2 k n) = Wl (ix2 k n)
  obias : ∀ n : Fin 2, BL (ix2 (0 : Fin 1) n) = bl (ix1 n)

variable {X0 X1 X2 W R B L BL x h c Wg Ug bg cg Wl bl p r}

/-- A gate's pre-activation: the kernel adds the two biases first, the specification one after the other. -/
theorem pre_eq (H : RowOf X0 X1 X2 W R B L BL x h c Wg Ug bg cg Wl bl p r) (g : Fin 4) (j : Fin 32) :
    pre X0 X1 W R B p (lane g j) = gatePre x h (Wg g) (Ug g) (bg g) (cg g) r j := by
  unfold pre gatePre
  simp only [H.feat, H.hid, H.win g, H.rcur g, H.bias g]
  rw [add_comm (bg g (ix2 (0 : Fin 1) j)) (cg g (ix1 j)), ← add_assoc]

/-- The new cell state. -/
theorem cell_eq (H : RowOf X0 X1 X2 W R B L BL x h c Wg Ug bg cg Wl bl p r) (j : Fin 32) :
    Gen.k0_pay2 (F := Ideal) X0 X1 X2 W R B (ix2 p j)
      = cellNew x h c (Wg 0) (Wg 1) (Wg 2) (Ug 0) (Ug 1) (Ug 2) (bg 0) (bg 1) (bg 2) (cg 0) (cg 1) (cg 2) r j := by
  rw [pay2_at, pre_eq H 1 j, pre_eq H 0 j, pre_eq H 2 j, H.cell j]
  rfl

/-- The new hidden state. -/
theorem hid_eq (H : RowOf X0 X1 X2 W R B L BL x h c Wg Ug bg cg Wl bl p r) (j : Fin 32) :
    Gen.k0_pay3 (F := Ideal) X0 X1 X2 W R B (ix2 p j)
      = hidNew x h c (Wg 0) (Wg 1) (Wg 2) (Wg 3) (Ug 0) (Ug 1) (Ug 2) (Ug 3) (bg 0) (bg 1) (bg 2) (bg 3) (cg 0) (cg 1) (cg 2) (cg 3) r j := by
  rw [pay3_at, pre_eq H 3 j, cell_eq H j]
  rfl

/-- The class scores. -/
theorem score_eq (H : RowOf X0 X1 X2 W R B L BL x h c Wg Ug bg cg Wl bl p r) (n : Fin 2) :
    Gen.k0_pay4 (F := Ideal) X0 X1 X2 W R B L BL (ix2 p n)
      = scores x h c (Wg 0) (Wg 1) (Wg 2) (Wg 3) (Ug 0) (Ug 1) (Ug 2) (Ug 3) (bg 0) (bg 1) (bg 2) (bg 3) (cg 0) (cg 1) (cg 2) (cg 3) Wl bl r n := by
  rw [pay4_at]
  simp only [hid_eq H, H.out, H.obias]
  rfl

end Cert.KernelValue

end
-- ==== Proof.HostPrep.lean ====
/-
  The host operations that run before the kernel's one launch, read at an index.

  Twelve host operations prepare the kernel's operands: the four input weight matrices [165,32] are laid side by
  side along the columns into one [165,128] matrix, the four recurrent weight matrices [32,32] into one [32,128]
  matrix, each gate's recurrent bias vector [32] is turned into a row [1,32] and added to that gate's input bias
  row, the four sums are laid side by side into one [1,128] row, and the classifier's bias vector [2] is turned
  into a row [1,2]. No operation writes an argument array. Column 32·g + j of a side-by-side array is column j
  of piece g, and a vector turned into a row reads, at (0, j), the vector at j.
-/
import proofs.«176817_j74887049773819_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelHost

open Idealize.ShloMosaic Idealize.ShloMosaic.TcCoe Idealize.ShloMosaic.ValueIdx
open Idealize.SL Idealize.SL.Sem
open Cert.KernelIdeal Cert.KernelIdeal.Gen

variable {F : FTy → Type} [FloatOps F]

variable (m : (ℓ : Loc nD τ sig) → Buf (Elt F) ℓ)

/-- Core `c`'s buffers when the launch is entered: after the twelve host operations. -/
abbrev VV (c : Dev nD) (b : Ref sig .tc) : Buf (Elt F) ((c : Thread nD τ).loc b) :=
  StableHlo.after Gen.hostOps0 (fun b => m (c, b)) b

/-- A buffer that is none of the twelve results keeps the contents it was launched with: every host operation writes
    its own result buffer only. -/
theorem VV_of_not_result (c : Dev nD) (b : Ref sig .tc)
    (h : ∀ y ∈ [main_v0, main_v1, main_v2, main_v3, main_v4, main_v5, main_v6, main_v7, main_v8, main_v9, main_v10, main_v11], b ≠ y) :
    VV m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes, Finset.mem_singleton]
    refine ⟨?_, ?_, ?_, ?_, ?_, ?_, ?_, ?_, ?_, ?_, ?_, ?_⟩
    all_goals exact StableHlo.devRef_ne_of_ne (h _ (by simp))))

/-! ## No host operation writes an argument -/

/-- No host operation writes argument 0: the launch finds it as it was. -/
theorem VV_main_arg0 (c : Dev nD) : VV m c main_arg0 = m ((c : Thread nD τ).loc main_arg0) :=
  VV_of_not_result m c main_arg0 (by decide)

/-- No host operation writes argument 1: the launch finds it as it was. -/
theorem VV_main_arg1 (c : Dev nD) : VV m c main_arg1 = m ((c : Thread nD τ).loc main_arg1) :=
  VV_of_not_result m c main_arg1 (by decide)

/-- No host operation writes argument 2: the launch finds it as it was. -/
theorem VV_main_arg2 (c : Dev nD) : VV m c main_arg2 = m ((c : Thread nD τ).loc main_arg2) :=
  VV_of_not_result m c main_arg2 (by decide)

/-- No host operation writes argument 3: the launch finds it as it was. -/
theorem VV_main_arg3 (c : Dev nD) : VV m c main_arg3 = m ((c : Thread nD τ).loc main_arg3) :=
  VV_of_not_result m c main_arg3 (by decide)

/-- No host operation writes argument 4: the launch finds it as it was. -/
theorem VV_main_arg4 (c : Dev nD) : VV m c main_arg4 = m ((c : Thread nD τ).loc main_arg4) :=
  VV_of_not_result m c main_arg4 (by decide)

/-- No host operation writes argument 5: the launch finds it as it was. -/
theorem VV_main_arg5 (c : Dev nD) : VV m c main_arg5 = m ((c : Thread nD τ).loc main_arg5) :=
  VV_of_not_result m c main_arg5 (by decide)

/-- No host operation writes argument 6: the launch finds it as it was. -/
theorem VV_main_arg6 (c : Dev nD) : VV m c main_arg6 = m ((c : Thread nD τ).loc main_arg6) :=
  VV_of_not_result m c main_arg6 (by decide)

/-- No host operation writes argument 7: the launch finds it as it was. -/
theorem VV_main_arg7 (c : Dev nD) : VV m c main_arg7 = m ((c : Thread nD τ).loc main_arg7) :=
  VV_of_not_result m c main_arg7 (by decide)

/-- No host operation writes argument 8: the launch finds it as it was. -/
theorem VV_main_arg8 (c : Dev nD) : VV m c main_arg8 = m ((c : Thread nD τ).loc main_arg8) :=
  VV_of_not_result m c main_arg8 (by decide)

/-- No host operation writes argument 9: the launch finds it as it was. -/
theorem VV_main_arg9 (c : Dev nD) : VV m c main_arg9 = m ((c : Thread nD τ).loc main_arg9) :=
  VV_of_not_result m c main_arg9 (by decide)

/-- No host operation writes argument 10: the launch finds it as it was. -/
theorem VV_main_arg10 (c : Dev nD) : VV m c main_arg10 = m ((c : Thread nD τ).loc main_arg10) :=
  VV_of_not_result m c main_arg10 (by decide)

/-- No host operation writes argument 11: the launch finds it as it was. -/
theorem VV_main_arg11 (c : Dev nD) : VV m c main_arg11 = m ((c : Thread nD τ).loc main_arg11) :=
  VV_of_not_result m c main_arg11 (by decide)

/-- No host operation writes argument 12: the launch finds it as it was. -/
theorem VV_main_arg12 (c : Dev nD) : VV m c main_arg12 = m ((c : Thread nD τ).loc main_arg12) :=
  VV_of_not_result m c main_arg12 (by decide)

/-- No host operation writes argument 13: the launch finds it as it was. -/
theorem VV_main_arg13 (c : Dev nD) : VV m c main_arg13 = m ((c : Thread nD τ).loc main_arg13) :=
  VV_of_not_result m c main_arg13 (by decide)

/-- No host operation writes argument 14: the launch finds it as it was. -/
theorem VV_main_arg14 (c : Dev nD) : VV m c main_arg14 = m ((c : Thread nD τ).loc main_arg14) :=
  VV_of_not_result m c main_arg14 (by decide)

/-- No host operation writes argument 15: the launch finds it as it was. -/
theorem VV_main_arg15 (c : Dev nD) : VV m c main_arg15 = m ((c : Thread nD τ).loc main_arg15) :=
  VV_of_not_result m c main_arg15 (by decide)

/-- No host operation writes argument 16: the launch finds it as it was. -/
theorem VV_main_arg16 (c : Dev nD) : VV m c main_arg16 = m ((c : Thread nD τ).loc main_arg16) :=
  VV_of_not_result m c main_arg16 (by decide)

/-- No host operation writes argument 17: the launch finds it as it was. -/
theorem VV_main_arg17 (c : Dev nD) : VV m c main_arg17 = m ((c : Thread nD τ).loc main_arg17) :=
  VV_of_not_result m c main_arg17 (by decide)

/-- No host operation writes argument 18: the launch finds it as it was. -/
theorem VV_main_arg18 (c : Dev nD) : VV m c main_arg18 = m ((c : Thread nD τ).loc main_arg18) :=
  VV_of_not_result m c main_arg18 (by decide)

/-- No host operation writes argument 19: the launch finds it as it was. -/
theorem VV_main_arg19 (c : Dev nD) : VV m c main_arg19 = m ((c : Thread nD τ).loc main_arg19) :=
  VV_of_not_result m c main_arg19 (by decide)

/-- No host operation writes argument 20: the launch finds it as it was. -/
theorem VV_main_arg20 (c : Dev nD) : VV m c main_arg20 = m ((c : Thread nD τ).loc main_arg20) :=
  VV_of_not_result m c main_arg20 (by decide)

/-- No host operation writes argument 21: the launch finds it as it was. -/
theorem VV_main_arg21 (c : Dev nD) : VV m c main_arg21 = m ((c : Thread nD τ).loc main_arg21) :=
  VV_of_not_result m c main_arg21 (by decide)

/-- No host operation writes argument 22: the launch finds it as it was. -/
theorem VV_main_arg22 (c : Dev nD) : VV m c main_arg22 = m ((c : Thread nD τ).loc main_arg22) :=
  VV_of_not_result m c main_arg22 (by decide)

end Cert.KernelHost

end
-- ==== Proof.HostPrepRead.lean ====
/-
  The operands the host operations prepare for the kernel's one launch, read at an index.

  The four input weight matrices [165,32] laid side by side along the columns make one [165,128] matrix, the four
  recurrent weight matrices [32,32] one [32,128] matrix; each gate's recurrent bias vector [32], turned into a row
  [1,32], is added to that gate's input bias row, and the four sums laid side by side make one [1,128] row; the
  classifier's bias vector [2] is turned into a row [1,2]. Column 32·g + j of a side-by-side array is column j of
  piece g, in the same row, and a vector turned into a row reads, at (0, j), the vector at j. The weights and the
  classifier's bias are read in every float instance; the bias row's sum is read over the extended reals.
-/
import proofs.«176817_j74887049773819_2_alg».proof.Proof.HostPrep

noncomputable section

namespace Cert.KernelHost

open Idealize.ShloMosaic Idealize.ShloMosaic.TcCoe Idealize.ShloMosaic.ValueIdx
open Idealize.SL Idealize.SL.Sem
open Cert.KernelIdeal Cert.KernelIdeal.Gen

variable {F : FTy → Type} [FloatOps F]

variable (m : (ℓ : Loc nD τ sig) → Buf (Elt F) ℓ)

/-! ## Four 32-column pieces laid side by side, read at a column -/

/-- Column `j` of piece `g` among the 128 columns of four 32-column pieces laid side by side. -/
abbrev lane (g : Fin 4) (j : Fin 32) : Fin 128 := ⟨32 * g.val + j.val, by have := g.isLt; have := j.isLt; omega⟩

/-- Four `[R, 32]` pieces laid side by side along the columns, read at column `32·0 + j`: piece 0 at column `j`,
    the same row. -/
theorem cat4_lane0 {α : Type} {R : Nat} (x0 x1 x2 x3 : (⟨2, ![R, 32]⟩ : Shape).Idx → α)
    (h : Shape.Concatenates [(⟨2, ![R, 32]⟩ : Shape), ⟨2, ![R, 32]⟩, ⟨2, ![R, 32]⟩, ⟨2, ![R, 32]⟩] ⟨2, ![R, 128]⟩ 1)
    (k : Fin R) (j : Fin 32) :
    concatenate (⟨2, ![R, 128]⟩ : Shape) 1 [⟨⟨2, ![R, 32]⟩, x0⟩, ⟨⟨2, ![R, 32]⟩, x1⟩, ⟨⟨2, ![R, 32]⟩, x2⟩, ⟨⟨2, ![R, 32]⟩, x3⟩] h
        (ix2 k (lane 0 j)) = x0 (ix2 k j) :=
  concatenate_apply_piece (t := (⟨2, ![R, 128]⟩ : Shape)) 1
    [⟨⟨2, ![R, 32]⟩, x0⟩, ⟨⟨2, ![R, 32]⟩, x1⟩, ⟨⟨2, ![R, 32]⟩, x2⟩, ⟨⟨2, ![R, 32]⟩, x3⟩] h (ix2 k (lane 0 j))
    0 (by show 0 < 4; omega) ⟨2, ![R, 32]⟩ x0 rfl rfl 0 rfl (ix2 k j)
    (fun b hb => match b, hb with
      | ⟨0, _⟩, _ => rfl
      | ⟨1, _⟩, hb => absurd (Fin.ext rfl) hb)
    (by show 0 + j.val = 32 * 0 + j.val; omega)

/-- Four `[R, 32]` pieces laid side by side along the columns, read at column `32·1 + j`: piece 1 at column `j`,
    the same row. -/
theorem cat4_lane1 {α : Type} {R : Nat} (x0 x1 x2 x3 : (⟨2, ![R, 32]⟩ : Shape).Idx → α)
    (h : Shape.Concatenates [(⟨2, ![R, 32]⟩ : Shape), ⟨2, ![R, 32]⟩, ⟨2, ![R, 32]⟩, ⟨2, ![R, 32]⟩] ⟨2, ![R, 128]⟩ 1)
    (k : Fin R) (j : Fin 32) :
    concatenate (⟨2, ![R, 128]⟩ : Shape) 1 [⟨⟨2, ![R, 32]⟩, x0⟩, ⟨⟨2, ![R, 32]⟩, x1⟩, ⟨⟨2, ![R, 32]⟩, x2⟩, ⟨⟨2, ![R, 32]⟩, x3⟩] h
        (ix2 k (lane 1 j)) = x1 (ix2 k j) :=
  concatenate_apply_piece (t := (⟨2, ![R, 128]⟩ : Shape)) 1
    [⟨⟨2, ![R, 32]⟩, x0⟩, ⟨⟨2, ![R, 32]⟩, x1⟩, ⟨⟨2, ![R, 32]⟩, x2⟩, ⟨⟨2, ![R, 32]⟩, x3⟩] h (ix2 k (lane 1 j))
    1 (by show 1 < 4; omega) ⟨2, ![R, 32]⟩ x1 rfl rfl 32 rfl (ix2 k j)
    (fun b hb => match b, hb with
      | ⟨0, _⟩, _ => rfl
      | ⟨1, _⟩, hb => absurd (Fin.ext rfl) hb)
    (by show 32 + j.val = 32 * 1 + j.val; omega)

/-- Four `[R, 32]` pieces laid side by side along the columns, read at column `32·2 + j`: piece 2 at column `j`,
    the same row. -/
theorem cat4_lane2 {α : Type} {R : Nat} (x0 x1 x2 x3 : (⟨2, ![R, 32]⟩ : Shape).Idx → α)
    (h : Shape.Concatenates [(⟨2, ![R, 32]⟩ : Shape), ⟨2, ![R, 32]⟩, ⟨2, ![R, 32]⟩, ⟨2, ![R, 32]⟩] ⟨2, ![R, 128]⟩ 1)
    (k : Fin R) (j : Fin 32) :
    concatenate (⟨2, ![R, 128]⟩ : Shape) 1 [⟨⟨2, ![R, 32]⟩, x0⟩, ⟨⟨2, ![R, 32]⟩, x1⟩, ⟨⟨2, ![R, 32]⟩, x2⟩, ⟨⟨2, ![R, 32]⟩, x3⟩] h
        (ix2 k (lane 2 j)) = x2 (ix2 k j) :=
  concatenate_apply_piece (t := (⟨2, ![R, 128]⟩ : Shape)) 1
    [⟨⟨2, ![R, 32]⟩, x0⟩, ⟨⟨2, ![R, 32]⟩, x1⟩, ⟨⟨2, ![R, 32]⟩, x2⟩, ⟨⟨2, ![R, 32]⟩, x3⟩] h (ix2 k (lane 2 j))
    2 (by show 2 < 4; omega) ⟨2, ![R, 32]⟩ x2 rfl rfl 64 rfl (ix2 k j)
    (fun b hb => match b, hb with
      | ⟨0, _⟩, _ => rfl
      | ⟨1, _⟩, hb => absurd (Fin.ext rfl) hb)
    (by show 64 + j.val = 32 * 2 + j.val; omega)

/-- Four `[R, 32]` pieces laid side by side along the columns, read at column `32·3 + j`: piece 3 at column `j`,
    the same row. -/
theorem cat4_lane3 {α : Type} {R : Nat} (x0 x1 x2 x3 : (⟨2, ![R, 32]⟩ : Shape).Idx → α)
    (h : Shape.Concatenates [(⟨2, ![R, 32]⟩ : Shape), ⟨2, ![R, 32]⟩, ⟨2, ![R, 32]⟩, ⟨2, ![R, 32]⟩] ⟨2, ![R, 128]⟩ 1)
    (k : Fin R) (j : Fin 32) :
    concatenate (⟨2, ![R, 128]⟩ : Shape) 1 [⟨⟨2, ![R, 32]⟩, x0⟩, ⟨⟨2, ![R, 32]⟩, x1⟩, ⟨⟨2, ![R, 32]⟩, x2⟩, ⟨⟨2, ![R, 32]⟩, x3⟩] h
        (ix2 k (lane 3 j)) = x3 (ix2 k j) :=
  concatenate_apply_piece (t := (⟨2, ![R, 128]⟩ : Shape)) 1
    [⟨⟨2, ![R, 32]⟩, x0⟩, ⟨⟨2, ![R, 32]⟩, x1⟩, ⟨⟨2, ![R, 32]⟩, x2⟩, ⟨⟨2, ![R, 32]⟩, x3⟩] h (ix2 k (lane 3 j))
    3 (by show 3 < 4; omega) ⟨2, ![R, 32]⟩ x3 rfl rfl 96 rfl (ix2 k j)
    (fun b hb => match b, hb with
      | ⟨0, _⟩, _ => rfl
      | ⟨1, _⟩, hb => absurd (Fin.ext rfl) hb)
    (by show 96 + j.val = 32 * 3 + j.val; omega)

/-! ## The prepared operands as the operations' terms -/

/-- The input weights laid side by side: the launch finds the four `[165, 32]` matrices as one `[165, 128]` matrix. -/
theorem VV_main_v0_eq (c : Dev nD) :
    (VV m c main_v0 : S165x128.Idx → _) =
      concatenate S165x128 1 [⟨S165x32, m ((c : Thread nD τ).loc main_arg5)⟩, ⟨S165x32, m ((c : Thread nD τ).loc main_arg6)⟩, ⟨S165x32, m ((c : Thread nD τ).loc main_arg7)⟩, ⟨S165x32, m ((c : Thread nD τ).loc main_arg8)⟩]
        concatenates_S165x32_S165x32_S165x32_S165x32_S165x128_d1 := by
  dsimp only [VV, Gen.hostOps0]
  after_results
  rfl

/-- The recurrent weights laid side by side: four `[32, 32]` matrices as one `[32, 128]` matrix. -/
theorem VV_main_v1_eq (c : Dev nD) :
    (VV m c main_v1 : S32x128.Idx → _) =
      concatenate S32x128 1 [⟨S32x32, m ((c : Thread nD τ).loc main_arg13)⟩, ⟨S32x32, m ((c : Thread nD τ).loc main_arg14)⟩, ⟨S32x32, m ((c : Thread nD τ).loc main_arg15)⟩, ⟨S32x32, m ((c : Thread nD τ).loc main_arg16)⟩]
        concatenates_S32x32_S32x32_S32x32_S32x32_S32x128_d1 := by
  dsimp only [VV, Gen.hostOps0]
  after_results
  rfl

/-- The biases: each gate's input bias row plus its recurrent bias vector turned into a row, the four sums side by side. -/
theorem VV_main_v10_eq (c : Dev nD) :
    (VV m c main_v10 : S1x128.Idx → _) =
      concatenate S1x128 1
        [⟨S1x32, addf (m ((c : Thread nD τ).loc main_arg9)) (broadcastInDim S1x32 ![1] bcast_S32_S1x32_1 (m ((c : Thread nD τ).loc main_arg17)))⟩,
         ⟨S1x32, addf (m ((c : Thread nD τ).loc main_arg10)) (broadcastInDim S1x32 ![1] bcast_S32_S1x32_1 (m ((c : Thread nD τ).loc main_arg18)))⟩,
         ⟨S1x32, addf (m ((c : Thread nD τ).loc main_arg11)) (broadcastInDim S1x32 ![1] bcast_S32_S1x32_1 (m ((c : Thread nD τ).loc main_arg19)))⟩,
         ⟨S1x32, addf (m ((c : Thread nD τ).loc main_arg12)) (broadcastInDim S1x32 ![1] bcast_S32_S1x32_1 (m ((c : Thread nD τ).loc main_arg20)))⟩]
        concatenates_S1x32_S1x32_S1x32_S1x32_S1x128_d1 := by
  dsimp only [VV, Gen.hostOps0]
  after_results
  rfl

/-- The classifier's bias vector turned into a row. -/
theorem VV_main_v11_eq (c : Dev nD) :
    (VV m c main_v11 : S1x2.Idx → _) = broadcastInDim S1x2 ![1] bcast_S2_S1x2_1 (m ((c : Thread nD τ).loc main_arg22)) := by
  dsimp only [VV, Gen.hostOps0]
  after_results

/-! ## A vector turned into a row, read at an index -/

/-- A `[32]` vector turned into a `[1, 32]` row reads, at `(0, j)`, the vector at `j`. -/
theorem row32_apply {α : Type} (x : S32.Idx → α) (r : Fin 1) (j : Fin 32) :
    broadcastInDim S1x32 ![1] bcast_S32_S1x32_1 x (ix2 r j) = x (ix1 j) :=
  broadcastInDim_apply _ bcast_S32_S1x32_1 x (ix2 r j) (ix1 j) (fun a => match a with
    | ⟨0, _⟩ => by show j.val = if (32 : Nat) = 1 then 0 else j.val; rw [if_neg (by decide)])

/-- A `[2]` vector turned into a `[1, 2]` row reads, at `(0, n)`, the vector at `n`. -/
theorem row2_apply {α : Type} (x : S2.Idx → α) (r : Fin 1) (n : Fin 2) :
    broadcastInDim S1x2 ![1] bcast_S2_S1x2_1 x (ix2 r n) = x (ix1 n) :=
  broadcastInDim_apply _ bcast_S2_S1x2_1 x (ix2 r n) (ix1 n) (fun a => match a with
    | ⟨0, _⟩ => by show n.val = if (2 : Nat) = 1 then 0 else n.val; rw [if_neg (by decide)])

/-! ## The prepared operands at an index -/

/-- Column `32·0 + j` of the side-by-side input weights is column `j` of argument 5. -/
theorem VV_main_v0_lane0 (c : Dev nD) (k : Fin 165) (j : Fin 32) :
    VV m c main_v0 (ix2 k (lane 0 j)) = m ((c : Thread nD τ).loc main_arg5) (ix2 k j) :=
  (congrFun (VV_main_v0_eq m c) (ix2 k (lane 0 j))).trans
    (cat4_lane0 (R := 165) (m ((c : Thread nD τ).loc main_arg5)) (m ((c : Thread nD τ).loc main_arg6)) (m ((c : Thread nD τ).loc main_arg7)) (m ((c : Thread nD τ).loc main_arg8)) concatenates_S165x32_S165x32_S165x32_S165x32_S165x128_d1 k j)

/-- Column `32·1 + j` of the side-by-side input weights is column `j` of argument 6. -/
theorem VV_main_v0_lane1 (c : Dev nD) (k : Fin 165) (j : Fin 32) :
    VV m c main_v0 (ix2 k (lane 1 j)) = m ((c : Thread nD τ).loc main_arg6) (ix2 k j) :=
  (congrFun (VV_main_v0_eq m c) (ix2 k (lane 1 j))).trans
    (cat4_lane1 (R := 165) (m ((c : Thread nD τ).loc main_arg5)) (m ((c : Thread nD τ).loc main_arg6)) (m ((c : Thread nD τ).loc main_arg7)) (m ((c : Thread nD τ).loc main_arg8)) concatenates_S165x32_S165x32_S165x32_S165x32_S165x128_d1 k j)

/-- Column `32·2 + j` of the side-by-side input weights is column `j` of argument 7. -/
theorem VV_main_v0_lane2 (c : Dev nD) (k : Fin 165) (j : Fin 32) :
    VV m c main_v0 (ix2 k (lane 2 j)) = m ((c : Thread nD τ).loc main_arg7) (ix2 k j) :=
  (congrFun (VV_main_v0_eq m c) (ix2 k (lane 2 j))).trans
    (cat4_lane2 (R := 165) (m ((c : Thread nD τ).loc main_arg5)) (m ((c : Thread nD τ).loc main_arg6)) (m ((c : Thread nD τ).loc main_arg7)) (m ((c : Thread nD τ).loc main_arg8)) concatenates_S165x32_S165x32_S165x32_S165x32_S165x128_d1 k j)

/-- Column `32·3 + j` of the side-by-side input weights is column `j` of argument 8. -/
theorem VV_main_v0_lane3 (c : Dev nD) (k : Fin 165) (j : Fin 32) :
    VV m c main_v0 (ix2 k (lane 3 j)) = m ((c : Thread nD τ).loc main_arg8) (ix2 k j) :=
  (congrFun (VV_main_v0_eq m c) (ix2 k (lane 3 j))).trans
    (cat4_lane3 (R := 165) (m ((c : Thread nD τ).loc main_arg5)) (m ((c : Thread nD τ).loc main_arg6)) (m ((c : Thread nD τ).loc main_arg7)) (m ((c : Thread nD τ).loc main_arg8)) concatenates_S165x32_S165x32_S165x32_S165x32_S165x128_d1 k j)

/-- Column `32·0 + j` of the side-by-side recurrent weights is column `j` of argument 13. -/
theorem VV_main_v1_lane0 (c : Dev nD) (k : Fin 32) (j : Fin 32) :
    VV m c main_v1 (ix2 k (lane 0 j)) = m ((c : Thread nD τ).loc main_arg13) (ix2 k j) :=
  (congrFun (VV_main_v1_eq m c) (ix2 k (lane 0 j))).trans
    (cat4_lane0 (R := 32) (m ((c : Thread nD τ).loc main_arg13)) (m ((c : Thread nD τ).loc main_arg14)) (m ((c : Thread nD τ).loc main_arg15)) (m ((c : Thread nD τ).loc main_arg16)) concatenates_S32x32_S32x32_S32x32_S32x32_S32x128_d1 k j)

/-- Column `32·1 + j` of the side-by-side recurrent weights is column `j` of argument 14. -/
theorem VV_main_v1_lane1 (c : Dev nD) (k : Fin 32) (j : Fin 32) :
    VV m c main_v1 (ix2 k (lane 1 j)) = m ((c : Thread nD τ).loc main_arg14) (ix2 k j) :=
  (congrFun (VV_main_v1_eq m c) (ix2 k (lane 1 j))).trans
    (cat4_lane1 (R := 32) (m ((c : Thread nD τ).loc main_arg13)) (m ((c : Thread nD τ).loc main_arg14)) (m ((c : Thread nD τ).loc main_arg15)) (m ((c : Thread nD τ).loc main_arg16)) concatenates_S32x32_S32x32_S32x32_S32x32_S32x128_d1 k j)

/-- Column `32·2 + j` of the side-by-side recurrent weights is column `j` of argument 15. -/
theorem VV_main_v1_lane2 (c : Dev nD) (k : Fin 32) (j : Fin 32) :
    VV m c main_v1 (ix2 k (lane 2 j)) = m ((c : Thread nD τ).loc main_arg15) (ix2 k j) :=
  (congrFun (VV_main_v1_eq m c) (ix2 k (lane 2 j))).trans
    (cat4_lane2 (R := 32) (m ((c : Thread nD τ).loc main_arg13)) (m ((c : Thread nD τ).loc main_arg14)) (m ((c : Thread nD τ).loc main_arg15)) (m ((c : Thread nD τ).loc main_arg16)) concatenates_S32x32_S32x32_S32x32_S32x32_S32x128_d1 k j)

/-- Column `32·3 + j` of the side-by-side recurrent weights is column `j` of argument 16. -/
theorem VV_main_v1_lane3 (c : Dev nD) (k : Fin 32) (j : Fin 32) :
    VV m c main_v1 (ix2 k (lane 3 j)) = m ((c : Thread nD τ).loc main_arg16) (ix2 k j) :=
  (congrFun (VV_main_v1_eq m c) (ix2 k (lane 3 j))).trans
    (cat4_lane3 (R := 32) (m ((c : Thread nD τ).loc main_arg13)) (m ((c : Thread nD τ).loc main_arg14)) (m ((c : Thread nD τ).loc main_arg15)) (m ((c : Thread nD τ).loc main_arg16)) concatenates_S32x32_S32x32_S32x32_S32x32_S32x128_d1 k j)

/-- The classifier's bias row at `(0, n)` is argument 22 at `n`. -/
theorem VV_main_v11_apply (c : Dev nD) (n : Fin 2) :
    VV m c main_v11 (ix2 (0 : Fin 1) n) = m ((c : Thread nD τ).loc main_arg22) (ix1 n) :=
  (congrFun (VV_main_v11_eq m c) (ix2 (0 : Fin 1) n)).trans (row2_apply _ 0 n)

/-! ## The bias row at an index, over the extended reals -/

variable (mI : (ℓ : Loc nD τ sig) → Buf (Elt Ideal) ℓ)

/-- Column `32·0 + j` of the bias row: argument 9 at `(0, j)` plus argument 17 at `j`, the sum the extended
    reals' own. -/
theorem VV_main_v10_lane0 (c : Dev nD) (j : Fin 32) :
    VV mI c main_v10 (ix2 (0 : Fin 1) (lane 0 j))
      = HAdd.hAdd (α := EReal) (β := EReal) (γ := EReal) (mI ((c : Thread nD τ).loc main_arg9) (ix2 (0 : Fin 1) j)) (mI ((c : Thread nD τ).loc main_arg17) (ix1 j)) := by
  refine (congrFun (VV_main_v10_eq mI c) (ix2 (0 : Fin 1) (lane 0 j))).trans ?_
  refine (cat4_lane0 (R := 1) _ _ _ _ concatenates_S1x32_S1x32_S1x32_S1x32_S1x128_d1 (0 : Fin 1) j).trans ?_
  rw [addf_apply, row32_apply]

/-- Column `32·1 + j` of the bias row: argument 10 at `(0, j)` plus argument 18 at `j`, the sum the extended
    reals' own. -/
theorem VV_main_v10_lane1 (c : Dev nD) (j : Fin 32) :
    VV mI c main_v10 (ix2 (0 : Fin 1) (lane 1 j))
      = HAdd.hAdd (α := EReal) (β := EReal) (γ := EReal) (mI ((c : Thread nD τ).loc main_arg10) (ix2 (0 : Fin 1) j)) (mI ((c : Thread nD τ).loc main_arg18) (ix1 j)) := by
  refine (congrFun (VV_main_v10_eq mI c) (ix2 (0 : Fin 1) (lane 1 j))).trans ?_
  refine (cat4_lane1 (R := 1) _ _ _ _ concatenates_S1x32_S1x32_S1x32_S1x32_S1x128_d1 (0 : Fin 1) j).trans ?_
  rw [addf_apply, row32_apply]

/-- Column `32·2 + j` of the bias row: argument 11 at `(0, j)` plus argument 19 at `j`, the sum the extended
    reals' own. -/
theorem VV_main_v10_lane2 (c : Dev nD) (j : Fin 32) :
    VV mI c main_v10 (ix2 (0 : Fin 1) (lane 2 j))
      = HAdd.hAdd (α := EReal) (β := EReal) (γ := EReal) (mI ((c : Thread nD τ).loc main_arg11) (ix2 (0 : Fin 1) j)) (mI ((c : Thread nD τ).loc main_arg19) (ix1 j)) := by
  refine (congrFun (VV_main_v10_eq mI c) (ix2 (0 : Fin 1) (lane 2 j))).trans ?_
  refine (cat4_lane2 (R := 1) _ _ _ _ concatenates_S1x32_S1x32_S1x32_S1x32_S1x128_d1 (0 : Fin 1) j).trans ?_
  rw [addf_apply, row32_apply]

/-- Column `32·3 + j` of the bias row: argument 12 at `(0, j)` plus argument 20 at `j`, the sum the extended
    reals' own. -/
theorem VV_main_v10_lane3 (c : Dev nD) (j : Fin 32) :
    VV mI c main_v10 (ix2 (0 : Fin 1) (lane 3 j))
      = HAdd.hAdd (α := EReal) (β := EReal) (γ := EReal) (mI ((c : Thread nD τ).loc main_arg12) (ix2 (0 : Fin 1) j)) (mI ((c : Thread nD τ).loc main_arg20) (ix1 j)) := by
  refine (congrFun (VV_main_v10_eq mI c) (ix2 (0 : Fin 1) (lane 3 j))).trans ?_
  refine (cat4_lane3 (R := 1) _ _ _ _ concatenates_S1x32_S1x32_S1x32_S1x32_S1x128_d1 (0 : Fin 1) j).trans ?_
  rw [addf_apply, row32_apply]

end Cert.KernelHost

end
-- ==== Proof.KiRows.lean ====
/-
  A staged tile, read at coordinates.

  At grid point `t` the row `p` of a node-indexed tile is node 6144·t + p of its array, provided the row lies inside
  the array (p < min(6144, 500000 − 6144·t)); what the staging buffer holds past those rows is never read here. The
  five weight operands are staged whole, so their buffers read as the arrays themselves; and the fused operands the
  host prepared hold gate g's matrix in lanes 32g … 32g+31, its two biases summed there.
-/
import proofs.«176817_j74887049773819_2_alg».proof.Proof.KiTiling
import proofs.«176817_j74887049773819_2_alg».proof.Proof.KiBridge
import proofs.«176817_j74887049773819_2_alg».proof.Proof.HostPrepRead

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- On the rows a transfer moves, a staged buffer holds the block. -/
theorem staged_at (c : Dev nD) (w : Fin cfg0.W) (t : Fin cfg0.N) (d) (j : (cfg0.win w).block.Idx)
    (hj : ∀ a, (j a).val < (cfg0.win w).xsize (cfg0.grid.coords t) a) :
    stagedIn m c w t d j = iblk m c w t (fun a => ⟨(j a).val, hj a⟩) := by
  unfold stagedIn Pipeline.Window.fill
  rw [dif_pos (((cfg0.win w).moved_iff _ j).mpr hj)]

/-! ## A block read at an index of its own is the array at the block's offset plus that index -/

theorem iblk0 (c : Dev nD) (t : Fin cfg0.N) (y) : iblk m c 0 t y = V m c main_arg0 (((cfg0.win 0).blk t).view.emb y) := rfl
theorem emb0 (t : Fin cfg0.N) (y : ((cfg0.win 0).xblock (cfg0.grid.coords t)).Idx) (a : Fin 2) :
    ((((cfg0.win 0).blk t).view.emb y) a).val = win0_0.index t a * S6144x165.size a + 1 * (y a).val := rfl
theorem iblk1 (c : Dev nD) (t : Fin cfg0.N) (y) : iblk m c 1 t y = V m c main_arg3 (((cfg0.win 1).blk t).view.emb y) := rfl
theorem emb1 (t : Fin cfg0.N) (y : ((cfg0.win 1).xblock (cfg0.grid.coords t)).Idx) (a : Fin 2) :
    ((((cfg0.win 1).blk t).view.emb y) a).val = win0_1.index t a * S6144x32.size a + 1 * (y a).val := rfl
theorem iblk2 (c : Dev nD) (t : Fin cfg0.N) (y) : iblk m c 2 t y = V m c main_arg4 (((cfg0.win 2).blk t).view.emb y) := rfl
theorem emb2 (t : Fin cfg0.N) (y : ((cfg0.win 2).xblock (cfg0.grid.coords t)).Idx) (a : Fin 2) :
    ((((cfg0.win 2).blk t).view.emb y) a).val = win0_2.index t a * S6144x32.size a + 1 * (y a).val := rfl
theorem iblk3 (c : Dev nD) (t : Fin cfg0.N) (y) : iblk m c 3 t y = V m c main_v0 (((cfg0.win 3).blk t).view.emb y) := rfl
theorem emb3 (t : Fin cfg0.N) (y : ((cfg0.win 3).xblock (cfg0.grid.coords t)).Idx) (a : Fin 2) :
    ((((cfg0.win 3).blk t).view.emb y) a).val = win0_3.index t a * S165x128.size a + 1 * (y a).val := rfl
theorem iblk4 (c : Dev nD) (t : Fin cfg0.N) (y) : iblk m c 4 t y = V m c main_v1 (((cfg0.win 4).blk t).view.emb y) := rfl
theorem emb4 (t : Fin cfg0.N) (y : ((cfg0.win 4).xblock (cfg0.grid.coords t)).Idx) (a : Fin 2) :
    ((((cfg0.win 4).blk t).view.emb y) a).val = win0_4.index t a * S32x128.size a + 1 * (y a).val := rfl
theorem iblk5 (c : Dev nD) (t : Fin cfg0.N) (y) : iblk m c 5 t y = V m c main_v10 (((cfg0.win 5).blk t).view.emb y) := rfl
theorem emb5 (t : Fin cfg0.N) (y : ((cfg0.win 5).xblock (cfg0.grid.coords t)).Idx) (a : Fin 2) :
    ((((cfg0.win 5).blk t).view.emb y) a).val = win0_5.index t a * S1x128.size a + 1 * (y a).val := rfl
theorem iblk6 (c : Dev nD) (t : Fin cfg0.N) (y) : iblk m c 6 t y = V m c main_arg21 (((cfg0.win 6).blk t).view.emb y) := rfl
theorem emb6 (t : Fin cfg0.N) (y : ((cfg0.win 6).xblock (cfg0.grid.coords t)).Idx) (a : Fin 2) :
    ((((cfg0.win 6).blk t).view.emb y) a).val = win0_6.index t a * S32x2.size a + 1 * (y a).val := rfl
theorem iblk7 (c : Dev nD) (t : Fin cfg0.N) (y) : iblk m c 7 t y = V m c main_v11 (((cfg0.win 7).blk t).view.emb y) := rfl
theorem emb7 (t : Fin cfg0.N) (y : ((cfg0.win 7).xblock (cfg0.grid.coords t)).Idx) (a : Fin 2) :
    ((((cfg0.win 7).blk t).view.emb y) a).val = win0_7.index t a * S1x2.size a + 1 * (y a).val := rfl

/-- The node that row `p` of tile `t` holds. -/
def nodeOf (t : Fin cfg0.N) (p : Fin 6144) (hp : p.val < min 6144 (500000 - 6144 * t.val)) : Fin 500000 :=
  ⟨6144 * t.val + p.val, by have := rows_bound t; omega⟩

/-! ## The node-indexed tiles -/

theorem tile0_at (c : Dev nD) (t : Fin cfg0.N) (d) (p : Fin 6144) (k : Fin 165) (hp : p.val < min 6144 (500000 - 6144 * t.val)) :
    stagedIn m c 0 t d (ix2 p k) = m ((c : Thread nD τ).loc main_arg0) (ix2 (nodeOf t p hp) k) := by
  obtain ⟨i0, i1, x0, x1⟩ := (tile_facts t).1
  rw [staged_at m c 0 t d (ix2 p k) (fun a => match a with
    | ⟨0, _⟩ => by show p.val < win0_0.xsize (grid0.coords t) (0 : Fin 2); rw [x0]; exact hp
    | ⟨1, _⟩ => by show k.val < win0_0.xsize (grid0.coords t) (1 : Fin 2); rw [x1]; exact k.isLt), iblk0,
    ← Cert.KernelHost.VV_main_arg0 m c]
  refine congrArg (V m c main_arg0) (funext fun a => Fin.ext ?_)
  rw [emb0]
  match a with
  | ⟨0, _⟩ => show win0_0.index t (0 : Fin 2) * 6144 + 1 * p.val = 6144 * t.val + p.val; rw [i0]; omega
  | ⟨1, _⟩ => show win0_0.index t (1 : Fin 2) * 165 + 1 * k.val = k.val; rw [i1]; omega
theorem tile1_at (c : Dev nD) (t : Fin cfg0.N) (d) (p : Fin 6144) (k : Fin 32) (hp : p.val < min 6144 (500000 - 6144 * t.val)) :
    stagedIn m c 1 t d (ix2 p k) = m ((c : Thread nD τ).loc main_arg3) (ix2 (nodeOf t p hp) k) := by
  obtain ⟨i0, i1, x0, x1⟩ := (tile_facts t).2.1
  rw [staged_at m c 1 t d (ix2 p k) (fun a => match a with
    | ⟨0, _⟩ => by show p.val < win0_1.xsize (grid0.coords t) (0 : Fin 2); rw [x0]; exact hp
    | ⟨1, _⟩ => by show k.val < win0_1.xsize (grid0.coords t) (1 : Fin 2); rw [x1]; exact k.isLt), iblk1,
    ← Cert.KernelHost.VV_main_arg3 m c]
  refine congrArg (V m c main_arg3) (funext fun a => Fin.ext ?_)
  rw [emb1]
  match a with
  | ⟨0, _⟩ => show win0_1.index t (0 : Fin 2) * 6144 + 1 * p.val = 6144 * t.val + p.val; rw [i0]; omega
  | ⟨1, _⟩ => show win0_1.index t (1 : Fin 2) * 32 + 1 * k.val = k.val; rw [i1]; omega
theorem tile2_at (c : Dev nD) (t : Fin cfg0.N) (d) (p : Fin 6144) (k : Fin 32) (hp : p.val < min 6144 (500000 - 6144 * t.val)) :
    stagedIn m c 2 t d (ix2 p k) = m ((c : Thread nD τ).loc main_arg4) (ix2 (nodeOf t p hp) k) := by
  obtain ⟨i0, i1, x0, x1⟩ := (tile_facts t).2.2.1
  rw [staged_at m c 2 t d (ix2 p k) (fun a => match a with
    | ⟨0, _⟩ => by show p.val < win0_2.xsize (grid0.coords t) (0 : Fin 2); rw [x0]; exact hp
    | ⟨1, _⟩ => by show k.val < win0_2.xsize (grid0.coords t) (1 : Fin 2); rw [x1]; exact k.isLt), iblk2,
    ← Cert.KernelHost.VV_main_arg4 m c]
  refine congrArg (V m c main_arg4) (funext fun a => Fin.ext ?_)
  rw [emb2]
  match a with
  | ⟨0, _⟩ => show win0_2.index t (0 : Fin 2) * 6144 + 1 * p.val = 6144 * t.val + p.val; rw [i0]; omega
  | ⟨1, _⟩ => show win0_2.index t (1 : Fin 2) * 32 + 1 * k.val = k.val; rw [i1]; omega

/-! ## The operands staged whole -/

theorem whole3_at (c : Dev nD) (t : Fin cfg0.N) (d) (k : Fin 165) (q : Fin 128) :
    stagedIn m c 3 t d (ix2 k q) = V m c main_v0 (ix2 k q) := by
  obtain ⟨i0, i1⟩ := (whole_facts t).1
  rw [staged_at m c 3 t d (ix2 k q) (fun a => match a with
    | ⟨0, _⟩ => k.isLt
    | ⟨1, _⟩ => q.isLt), iblk3]
  refine congrArg (V m c main_v0) (funext fun a => Fin.ext ?_)
  rw [emb3]
  match a with
  | ⟨0, _⟩ => show win0_3.index t (0 : Fin 2) * 165 + 1 * k.val = k.val; rw [i0]; omega
  | ⟨1, _⟩ => show win0_3.index t (1 : Fin 2) * 128 + 1 * q.val = q.val; rw [i1]; omega
theorem whole4_at (c : Dev nD) (t : Fin cfg0.N) (d) (k : Fin 32) (q : Fin 128) :
    stagedIn m c 4 t d (ix2 k q) = V m c main_v1 (ix2 k q) := by
  obtain ⟨i0, i1⟩ := (whole_facts t).2.1
  rw [staged_at m c 4 t d (ix2 k q) (fun a => match a with
    | ⟨0, _⟩ => k.isLt
    | ⟨1, _⟩ => q.isLt), iblk4]
  refine congrArg (V m c main_v1) (funext fun a => Fin.ext ?_)
  rw [emb4]
  match a with
  | ⟨0, _⟩ => show win0_4.index t (0 : Fin 2) * 32 + 1 * k.val = k.val; rw [i0]; omega
  | ⟨1, _⟩ => show win0_4.index t (1 : Fin 2) * 128 + 1 * q.val = q.val; rw [i1]; omega
theorem whole5_at (c : Dev nD) (t : Fin cfg0.N) (d) (k : Fin 1) (q : Fin 128) :
    stagedIn m c 5 t d (ix2 k q) = V m c main_v10 (ix2 k q) := by
  obtain ⟨i0, i1⟩ := (whole_facts t).2.2.1
  rw [staged_at m c 5 t d (ix2 k q) (fun a => match a with
    | ⟨0, _⟩ => k.isLt
    | ⟨1, _⟩ => q.isLt), iblk5]
  refine congrArg (V m c main_v10) (funext fun a => Fin.ext ?_)
  rw [emb5]
  match a with
  | ⟨0, _⟩ => show win0_5.index t (0 : Fin 2) * 1 + 1 * k.val = k.val; rw [i0]; omega
  | ⟨1, _⟩ => show win0_5.index t (1 : Fin 2) * 128 + 1 * q.val = q.val; rw [i1]; omega
theorem whole6_at (c : Dev nD) (t : Fin cfg0.N) (d) (k : Fin 32) (q : Fin 2) :
    stagedIn m c 6 t d (ix2 k q) = V m c main_arg21 (ix2 k q) := by
  obtain ⟨i0, i1⟩ := (whole_facts t).2.2.2.1
  rw [staged_at m c 6 t d (ix2 k q) (fun a => match a with
    | ⟨0, _⟩ => k.isLt
    | ⟨1, _⟩ => q.isLt), iblk6]
  refine congrArg (V m c main_arg21) (funext fun a => Fin.ext ?_)
  rw [emb6]
  match a with
  | ⟨0, _⟩ => show win0_6.index t (0 : Fin 2) * 32 + 1 * k.val = k.val; rw [i0]; omega
  | ⟨1, _⟩ => show win0_6.index t (1 : Fin 2) * 2 + 1 * q.val = q.val; rw [i1]; omega
theorem whole7_at (c : Dev nD) (t : Fin cfg0.N) (d) (k : Fin 1) (q : Fin 2) :
    stagedIn m c 7 t d (ix2 k q) = V m c main_v11 (ix2 k q) := by
  obtain ⟨i0, i1⟩ := (whole_facts t).2.2.2.2
  rw [staged_at m c 7 t d (ix2 k q) (fun a => match a with
    | ⟨0, _⟩ => k.isLt
    | ⟨1, _⟩ => q.isLt), iblk7]
  refine congrArg (V m c main_v11) (funext fun a => Fin.ext ?_)
  rw [emb7]
  match a with
  | ⟨0, _⟩ => show win0_7.index t (0 : Fin 2) * 1 + 1 * k.val = k.val; rw [i0]; omega
  | ⟨1, _⟩ => show win0_7.index t (1 : Fin 2) * 2 + 1 * q.val = q.val; rw [i1]; omega

/-! ## The gates' operands, by gate -/

/-- Gate g's input weights, recurrent weights, input bias row and recurrent bias vector (0 input, 1 forget,
    2 candidate, 3 output). -/
def gW (c : Dev nD) : Fin 4 → Cert.Spec.WIn := fun
  | 0 => m ((c : Thread nD τ).loc main_arg5) | 1 => m ((c : Thread nD τ).loc main_arg6) | 2 => m ((c : Thread nD τ).loc main_arg7) | 3 => m ((c : Thread nD τ).loc main_arg8)
  | ⟨_ + 4, h⟩ => absurd h (Nat.not_lt.2 (Nat.le_add_left _ _))
def gU (c : Dev nD) : Fin 4 → Cert.Spec.WRec := fun
  | 0 => m ((c : Thread nD τ).loc main_arg13) | 1 => m ((c : Thread nD τ).loc main_arg14) | 2 => m ((c : Thread nD τ).loc main_arg15) | 3 => m ((c : Thread nD τ).loc main_arg16)
  | ⟨_ + 4, h⟩ => absurd h (Nat.not_lt.2 (Nat.le_add_left _ _))
def gB (c : Dev nD) : Fin 4 → Cert.Spec.BRow := fun
  | 0 => m ((c : Thread nD τ).loc main_arg9) | 1 => m ((c : Thread nD τ).loc main_arg10) | 2 => m ((c : Thread nD τ).loc main_arg11) | 3 => m ((c : Thread nD τ).loc main_arg12)
  | ⟨_ + 4, h⟩ => absurd h (Nat.not_lt.2 (Nat.le_add_left _ _))
def gC (c : Dev nD) : Fin 4 → Cert.Spec.BVec := fun
  | 0 => m ((c : Thread nD τ).loc main_arg17) | 1 => m ((c : Thread nD τ).loc main_arg18) | 2 => m ((c : Thread nD τ).loc main_arg19) | 3 => m ((c : Thread nD τ).loc main_arg20)
  | ⟨_ + 4, h⟩ => absurd h (Nat.not_lt.2 (Nat.le_add_left _ _))

/-- Row `p` of the staged tiles at point `t` is node 6144·t + p of the arrays, and the fused operands are the joins of
    the gates' own: the hypothesis under which the kernel's arithmetic is the specification's. -/
theorem rowOf (c : Dev nD) (t : Fin cfg0.N) (d0 d1 d2 d3 d4 d5 d6 d7) (p : Fin 6144) (hp : p.val < min 6144 (500000 - 6144 * t.val)) :
    Cert.KernelValue.RowOf (stagedIn m c 0 t d0) (stagedIn m c 1 t d1) (stagedIn m c 2 t d2) (stagedIn m c 3 t d3)
      (stagedIn m c 4 t d4) (stagedIn m c 5 t d5) (stagedIn m c 6 t d6) (stagedIn m c 7 t d7)
      (m ((c : Thread nD τ).loc main_arg0)) (m ((c : Thread nD τ).loc main_arg3)) (m ((c : Thread nD τ).loc main_arg4))
      (gW m c) (gU m c) (gB m c) (gC m c) (m ((c : Thread nD τ).loc main_arg21)) (m ((c : Thread nD τ).loc main_arg22))
      p (nodeOf t p hp) where
  feat k := tile0_at m c t d0 p k hp
  hid k := tile1_at m c t d1 p k hp
  cell j := tile2_at m c t d2 p j hp
  win g k j := (whole3_at m c t d3 k _).trans (match g with
    | 0 => Cert.KernelHost.VV_main_v0_lane0 m c k j | 1 => Cert.KernelHost.VV_main_v0_lane1 m c k j
    | 2 => Cert.KernelHost.VV_main_v0_lane2 m c k j | 3 => Cert.KernelHost.VV_main_v0_lane3 m c k j
    | ⟨_ + 4, h⟩ => absurd h (Nat.not_lt.2 (Nat.le_add_left _ _)))
  rcur g k j := (whole4_at m c t d4 k _).trans (match g with
    | 0 => Cert.KernelHost.VV_main_v1_lane0 m c k j | 1 => Cert.KernelHost.VV_main_v1_lane1 m c k j
    | 2 => Cert.KernelHost.VV_main_v1_lane2 m c k j | 3 => Cert.KernelHost.VV_main_v1_lane3 m c k j
    | ⟨_ + 4, h⟩ => absurd h (Nat.not_lt.2 (Nat.le_add_left _ _)))
  bias g j := (whole5_at m c t d5 0 _).trans (match g with
    | 0 => Cert.KernelHost.VV_main_v10_lane0 m c j | 1 => Cert.KernelHost.VV_main_v10_lane1 m c j
    | 2 => Cert.KernelHost.VV_main_v10_lane2 m c j | 3 => Cert.KernelHost.VV_main_v10_lane3 m c j
    | ⟨_ + 4, h⟩ => absurd h (Nat.not_lt.2 (Nat.le_add_left _ _)))
  out k n := (whole6_at m c t d6 k n).trans (congrFun (Cert.KernelHost.VV_main_arg21 m c) _)
  obias n := (whole7_at m c t d7 0 n).trans (Cert.KernelHost.VV_main_v11_apply m c n)

end Cert.KernelIdeal.Hand

end
-- ==== Proof.KiData.lean ====
/-
  The idealized kernel's run, with every result array named.

  After the body at grid point `t` each result staging buffer holds, on the rows inside the array, tile `t` of the
  specification's array: the kernel's arithmetic on row p of the staged tiles is the specification at node
  6144·t + p, whatever the buffers hold past the array's end, because every operation of the body works row by
  row (two matrix products whose left operand's row p alone enters row p of the result, then lane-wise functions).
  The pipeline writes those rows back; the 82 tiles, the last one cut to its 2336 rows inside, cover the 500000
  nodes; so each result array ends holding the specification's array, and the arguments end as they began.
-/
import proofs.«176817_j74887049773819_2_alg».proof.Proof.KiRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The word that stands where nothing is read. -/
abbrev zi : Elt Ideal .f32 := Scalar.ofBits (F := Ideal) .f32 0#32

/-! ## The specification's three arrays, of the arguments as launched -/

def GY (c : Dev nD) : Buf (Elt Ideal) ((c : Thread nD τ).loc main_v12_0) :=
  Cert.Spec.scoreArr (m ((c : Thread nD τ).loc main_arg0)) (m ((c : Thread nD τ).loc main_arg3)) (m ((c : Thread nD τ).loc main_arg4)) (gW m c 0) (gW m c 1) (gW m c 2) (gW m c 3) (gU m c 0) (gU m c 1) (gU m c 2) (gU m c 3) (gB m c 0) (gB m c 1) (gB m c 2) (gB m c 3) (gC m c 0) (gC m c 1) (gC m c 2) (gC m c 3) (m ((c : Thread nD τ).loc main_arg21)) (m ((c : Thread nD τ).loc main_arg22))
def GH (c : Dev nD) : Buf (Elt Ideal) ((c : Thread nD τ).loc main_v12_1) :=
  Cert.Spec.hidArr (m ((c : Thread nD τ).loc main_arg0)) (m ((c : Thread nD τ).loc main_arg3)) (m ((c : Thread nD τ).loc main_arg4)) (gW m c 0) (gW m c 1) (gW m c 2) (gW m c 3) (gU m c 0) (gU m c 1) (gU m c 2) (gU m c 3) (gB m c 0) (gB m c 1) (gB m c 2) (gB m c 3) (gC m c 0) (gC m c 1) (gC m c 2) (gC m c 3)
def GC (c : Dev nD) : Buf (Elt Ideal) ((c : Thread nD τ).loc main_v12_2) :=
  Cert.Spec.cellArr (m ((c : Thread nD τ).loc main_arg0)) (m ((c : Thread nD τ).loc main_arg3)) (m ((c : Thread nD τ).loc main_arg4)) (gW m c 0) (gW m c 1) (gW m c 2) (gU m c 0) (gU m c 1) (gU m c 2) (gB m c 0) (gB m c 1) (gB m c 2) (gC m c 0) (gC m c 1) (gC m c 2)

/-! ## The proof data -/

/-- The arrays as the launch finds them; after the body each input's buffer at its tile, each result's at the
    specification's tile — both only on the rows inside the array, a fixed word past them. -/
def datsI (_ : Fin 1) (c : Dev nD) : Dat τ (Elt Ideal) Unit ℕ (UR sig nD τ) ℕ cfg0 c where
  A w := V m c (Pipeline.arrRef spec0 w)
  after w t := match w with
    | ⟨0, _⟩ => stagedIn m c 0 t (fun _ => zi)
    | ⟨1, _⟩ => stagedIn m c 1 t (fun _ => zi)
    | ⟨2, _⟩ => stagedIn m c 2 t (fun _ => zi)
    | ⟨3, _⟩ => stagedIn m c 3 t (fun _ => zi)
    | ⟨4, _⟩ => stagedIn m c 4 t (fun _ => zi)
    | ⟨5, _⟩ => stagedIn m c 5 t (fun _ => zi)
    | ⟨6, _⟩ => stagedIn m c 6 t (fun _ => zi)
    | ⟨7, _⟩ => stagedIn m c 7 t (fun _ => zi)
    | ⟨8, _⟩ => (cfg0.win 8).fill (cfg0.grid.coords t) (fun _ => zi) (((cfg0.win 8).blk t).view.read (Elt Ideal) (GY m c))
    | ⟨9, _⟩ => (cfg0.win 9).fill (cfg0.grid.coords t) (fun _ => zi) (((cfg0.win 9).blk t).view.read (Elt Ideal) (GH m c))
    | ⟨10, _⟩ => (cfg0.win 10).fill (cfg0.grid.coords t) (fun _ => zi) (((cfg0.win 10).blk t).view.read (Elt Ideal) (GC m c))
  Φ _ := Pipeline.ΦA spec0 c
  q _ := fullShare
  owed _ := 0

theorem A_eqI (c : Dev nD) (w : Fin cfg0.W) : (datsI m 0 c).A w = V m c (Pipeline.arrRef spec0 w) := by
  dsimp only [datsI]

theorem afterI0 (c : Dev nD) (t : Fin cfg0.N) : (datsI m 0 c).after 0 t = stagedIn m c 0 t (fun _ => zi) := by dsimp only [datsI]
theorem afterI1 (c : Dev nD) (t : Fin cfg0.N) : (datsI m 0 c).after 1 t = stagedIn m c 1 t (fun _ => zi) := by dsimp only [datsI]
theorem afterI2 (c : Dev nD) (t : Fin cfg0.N) : (datsI m 0 c).after 2 t = stagedIn m c 2 t (fun _ => zi) := by dsimp only [datsI]
theorem afterI3 (c : Dev nD) (t : Fin cfg0.N) : (datsI m 0 c).after 3 t = stagedIn m c 3 t (fun _ => zi) := by dsimp only [datsI]
theorem afterI4 (c : Dev nD) (t : Fin cfg0.N) : (datsI m 0 c).after 4 t = stagedIn m c 4 t (fun _ => zi) := by dsimp only [datsI]
theorem afterI5 (c : Dev nD) (t : Fin cfg0.N) : (datsI m 0 c).after 5 t = stagedIn m c 5 t (fun _ => zi) := by dsimp only [datsI]
theorem afterI6 (c : Dev nD) (t : Fin cfg0.N) : (datsI m 0 c).after 6 t = stagedIn m c 6 t (fun _ => zi) := by dsimp only [datsI]
theorem afterI7 (c : Dev nD) (t : Fin cfg0.N) : (datsI m 0 c).after 7 t = stagedIn m c 7 t (fun _ => zi) := by dsimp only [datsI]
theorem afterI8 (c : Dev nD) (t : Fin cfg0.N) : (datsI m 0 c).after 8 t = (cfg0.win 8).fill (cfg0.grid.coords t) (fun _ => zi) (((cfg0.win 8).blk t).view.read (Elt Ideal) (GY m c)) := by dsimp only [datsI]
theorem afterI9 (c : Dev nD) (t : Fin cfg0.N) : (datsI m 0 c).after 9 t = (cfg0.win 9).fill (cfg0.grid.coords t) (fun _ => zi) (((cfg0.win 9).blk t).view.read (Elt Ideal) (GH m c)) := by dsimp only [datsI]
theorem afterI10 (c : Dev nD) (t : Fin cfg0.N) : (datsI m 0 c).after 10 t = (cfg0.win 10).fill (cfg0.grid.coords t) (fun _ => zi) (((cfg0.win 10).blk t).view.read (Elt Ideal) (GC m c)) := by dsimp only [datsI]

/-- The body leaves each input's tile in place. -/
theorem keepI0 (c : Dev nD) (t : Fin cfg0.N) : (cfg0.win 0).cut (cfg0.grid.coords t) ((datsI m 0 c).after 0 t) = iblk m c 0 t := by
  rw [afterI0]; exact (cfg0.win 0).cut_fill _ _ _
theorem keepI1 (c : Dev nD) (t : Fin cfg0.N) : (cfg0.win 1).cut (cfg0.grid.coords t) ((datsI m 0 c).after 1 t) = iblk m c 1 t := by
  rw [afterI1]; exact (cfg0.win 1).cut_fill _ _ _
theorem keepI2 (c : Dev nD) (t : Fin cfg0.N) : (cfg0.win 2).cut (cfg0.grid.coords t) ((datsI m 0 c).after 2 t) = iblk m c 2 t := by
  rw [afterI2]; exact (cfg0.win 2).cut_fill _ _ _
theorem keepI3 (c : Dev nD) (t : Fin cfg0.N) : (cfg0.win 3).cut (cfg0.grid.coords t) ((datsI m 0 c).after 3 t) = iblk m c 3 t := by
  rw [afterI3]; exact (cfg0.win 3).cut_fill _ _ _
theorem keepI4 (c : Dev nD) (t : Fin cfg0.N) : (cfg0.win 4).cut (cfg0.grid.coords t) ((datsI m 0 c).after 4 t) = iblk m c 4 t := by
  rw [afterI4]; exact (cfg0.win 4).cut_fill _ _ _
theorem keepI5 (c : Dev nD) (t : Fin cfg0.N) : (cfg0.win 5).cut (cfg0.grid.coords t) ((datsI m 0 c).after 5 t) = iblk m c 5 t := by
  rw [afterI5]; exact (cfg0.win 5).cut_fill _ _ _
theorem keepI6 (c : Dev nD) (t : Fin cfg0.N) : (cfg0.win 6).cut (cfg0.grid.coords t) ((datsI m 0 c).after 6 t) = iblk m c 6 t := by
  rw [afterI6]; exact (cfg0.win 6).cut_fill _ _ _
theorem keepI7 (c : Dev nD) (t : Fin cfg0.N) : (cfg0.win 7).cut (cfg0.grid.coords t) ((datsI m 0 c).after 7 t) = iblk m c 7 t := by
  rw [afterI7]; exact (cfg0.win 7).cut_fill _ _ _

/-- So each input's buffer holds its tile whenever the body runs. -/
theorem befI0 (c : Dev nD) (t : Fin cfg0.N) (d) : (datsI m 0 c).before 0 t d = stagedIn m c 0 t d :=
  before_in_of m (datsI m 0 c) 0 rfl (A_eqI m c 0) clip_in0 (keepI0 m c) t d
theorem befI1 (c : Dev nD) (t : Fin cfg0.N) (d) : (datsI m 0 c).before 1 t d = stagedIn m c 1 t d :=
  before_in_of m (datsI m 0 c) 1 rfl (A_eqI m c 1) clip_in1 (keepI1 m c) t d
theorem befI2 (c : Dev nD) (t : Fin cfg0.N) (d) : (datsI m 0 c).before 2 t d = stagedIn m c 2 t d :=
  before_in_of m (datsI m 0 c) 2 rfl (A_eqI m c 2) clip_in2 (keepI2 m c) t d
theorem befI3 (c : Dev nD) (t : Fin cfg0.N) (d) : (datsI m 0 c).before 3 t d = stagedIn m c 3 t d :=
  before_in_of m (datsI m 0 c) 3 rfl (A_eqI m c 3) (fun _ _ _ => rfl) (keepI3 m c) t d
theorem befI4 (c : Dev nD) (t : Fin cfg0.N) (d) : (datsI m 0 c).before 4 t d = stagedIn m c 4 t d :=
  before_in_of m (datsI m 0 c) 4 rfl (A_eqI m c 4) (fun _ _ _ => rfl) (keepI4 m c) t d
theorem befI5 (c : Dev nD) (t : Fin cfg0.N) (d) : (datsI m 0 c).before 5 t d = stagedIn m c 5 t d :=
  before_in_of m (datsI m 0 c) 5 rfl (A_eqI m c 5) (fun _ _ _ => rfl) (keepI5 m c) t d
theorem befI6 (c : Dev nD) (t : Fin cfg0.N) (d) : (datsI m 0 c).before 6 t d = stagedIn m c 6 t d :=
  before_in_of m (datsI m 0 c) 6 rfl (A_eqI m c 6) (fun _ _ _ => rfl) (keepI6 m c) t d
theorem befI7 (c : Dev nD) (t : Fin cfg0.N) (d) : (datsI m 0 c).before 7 t d = stagedIn m c 7 t d :=
  before_in_of m (datsI m 0 c) 7 rfl (A_eqI m c 7) (fun _ _ _ => rfl) (keepI7 m c) t d

/-- Every result tile is written back at every point, so the body finds its buffer holding anything. -/
theorem befI8 (c : Dev nD) (t : Fin cfg0.N) (d) : (datsI m 0 c).before 8 t d = d :=
  (datsI m 0 c).before_out_reset 8 rfl t (by
    by_cases h0 : t.val = 0
    · exact .inl h0
    · exact .inr ⟨h0, flush0_8 _⟩) d
theorem befI9 (c : Dev nD) (t : Fin cfg0.N) (d) : (datsI m 0 c).before 9 t d = d :=
  (datsI m 0 c).before_out_reset 9 rfl t (by
    by_cases h0 : t.val = 0
    · exact .inl h0
    · exact .inr ⟨h0, flush0_9 _⟩) d
theorem befI10 (c : Dev nD) (t : Fin cfg0.N) (d) : (datsI m 0 c).before 10 t d = d :=
  (datsI m 0 c).before_out_reset 10 rfl t (by
    by_cases h0 : t.val = 0
    · exact .inl h0
    · exact .inr ⟨h0, flush0_10 _⟩) d

/-- An operand whose one block is the whole array has no rows past the array's end. -/
theorem wholeI3 (c : Dev nD) (t : Fin cfg0.N) (d d' : (cfg0.win 3).block.Idx → Elt Ideal (cfg0.win 3).elt) :
    stagedIn m c 3 t d = stagedIn m c 3 t d' :=
  Pipeline.fill_of_clip_none (cfg := cfg0) 3 (cfg0.grid.coords t) (fun _ => rfl) d d' (iblk m c 3 t)
theorem wholeI4 (c : Dev nD) (t : Fin cfg0.N) (d d' : (cfg0.win 4).block.Idx → Elt Ideal (cfg0.win 4).elt) :
    stagedIn m c 4 t d = stagedIn m c 4 t d' :=
  Pipeline.fill_of_clip_none (cfg := cfg0) 4 (cfg0.grid.coords t) (fun _ => rfl) d d' (iblk m c 4 t)
theorem wholeI5 (c : Dev nD) (t : Fin cfg0.N) (d d' : (cfg0.win 5).block.Idx → Elt Ideal (cfg0.win 5).elt) :
    stagedIn m c 5 t d = stagedIn m c 5 t d' :=
  Pipeline.fill_of_clip_none (cfg := cfg0) 5 (cfg0.grid.coords t) (fun _ => rfl) d d' (iblk m c 5 t)
theorem wholeI6 (c : Dev nD) (t : Fin cfg0.N) (d d' : (cfg0.win 6).block.Idx → Elt Ideal (cfg0.win 6).elt) :
    stagedIn m c 6 t d = stagedIn m c 6 t d' :=
  Pipeline.fill_of_clip_none (cfg := cfg0) 6 (cfg0.grid.coords t) (fun _ => rfl) d d' (iblk m c 6 t)
theorem wholeI7 (c : Dev nD) (t : Fin cfg0.N) (d d' : (cfg0.win 7).block.Idx → Elt Ideal (cfg0.win 7).elt) :
    stagedIn m c 7 t d = stagedIn m c 7 t d' :=
  Pipeline.fill_of_clip_none (cfg := cfg0) 7 (cfg0.grid.coords t) (fun _ => rfl) d d' (iblk m c 7 t)

/-! ## What the body's stores hold on the rows inside the array -/

theorem hz : (![0, 0] : Fin 2 → Nat) = fun _ => 0 := funext fun a => by fin_cases a <;> rfl

theorem emb8 (t : Fin cfg0.N) (y : ((cfg0.win 8).xblock (cfg0.grid.coords t)).Idx) (a : Fin 2) :
    ((((cfg0.win 8).blk t).view.emb y) a).val = win0_8.index t a * S6144x2.size a + 1 * (y a).val := rfl
theorem emb9 (t : Fin cfg0.N) (y : ((cfg0.win 9).xblock (cfg0.grid.coords t)).Idx) (a : Fin 2) :
    ((((cfg0.win 9).blk t).view.emb y) a).val = win0_9.index t a * S6144x32.size a + 1 * (y a).val := rfl
theorem emb10 (t : Fin cfg0.N) (y : ((cfg0.win 10).xblock (cfg0.grid.coords t)).Idx) (a : Fin 2) :
    ((((cfg0.win 10).blk t).view.emb y) a).val = win0_10.index t a * S6144x32.size a + 1 * (y a).val := rfl

/-- Tile `t` of the class scores: the body's store, cut to the rows inside the array, is the specification's tile. -/
theorem cut8 (c : Dev nD) (t : Fin cfg0.N) (d0 d1 d2 d3 d4 d5 d6 d7) :
    (cfg0.win 8).cut (cfg0.grid.coords t) (outY (stagedIn m c 0 t d0) (stagedIn m c 1 t d1) (stagedIn m c 2 t d2) (stagedIn m c 3 t d3) (stagedIn m c 4 t d4) (stagedIn m c 5 t d5) (stagedIn m c 6 t d6) (stagedIn m c 7 t d7))
      = ((cfg0.win 8).blk t).view.read (Elt Ideal) (GY m c) := by
  obtain ⟨i0, i1, x0, x1⟩ := (tile_facts t).2.2.2.1
  funext j
  have hp : (j 0).val < min 6144 (500000 - 6144 * t.val) := by
    have h := (j 0).isLt
    change (j 0).val < win0_8.xsize (grid0.coords t) (0 : Fin 2) at h
    rwa [x0] at h
  have hn : (j 1).val < 2 := by
    have h := (j 1).isLt
    change (j 1).val < win0_8.xsize (grid0.coords t) (1 : Fin 2) at h
    rwa [x1] at h
  have hp' : (j 0).val < 6144 := lt_of_lt_of_le hp (min_le_left _ _)
  show outY _ _ _ _ _ _ _ _ ((cfg0.win 8).xinj (cfg0.grid.coords t) j) = GY m c (((cfg0.win 8).blk t).view.emb j)
  have e1 : (cfg0.win 8).xinj (cfg0.grid.coords t) j = ix2 (⟨(j 0).val, hp'⟩ : Fin 6144) (⟨(j 1).val, hn⟩ : Fin 2) :=
    funext fun a => match a with | ⟨0, _⟩ => rfl | ⟨1, _⟩ => rfl
  have e2 : ((cfg0.win 8).blk t).view.emb j = ix2 (nodeOf t ⟨(j 0).val, hp'⟩ hp) (⟨(j 1).val, hn⟩ : Fin 2) :=
    funext fun a => Fin.ext (by
      rw [emb8]
      match a with
      | ⟨0, _⟩ => show win0_8.index t (0 : Fin 2) * 6144 + 1 * (j 0).val = 6144 * t.val + (j 0).val; rw [i0]; omega
      | ⟨1, _⟩ => show win0_8.index t (1 : Fin 2) * 2 + 1 * (j 1).val = (j 1).val; rw [i1]; omega)
  rw [e1, e2]
  unfold outY
  rw [View.canon_unit_zero hz]
  simp only [View.ld_unit_zero (S := S6144x165) hz, View.ld_unit_zero (S := S6144x32) hz, View.ld_unit_zero (S := S165x128) hz, View.ld_unit_zero (S := S32x128) hz, View.ld_unit_zero (S := S1x128) hz, View.ld_unit_zero (S := S32x2) hz, View.ld_unit_zero (S := S1x2) hz]
  exact Cert.KernelValue.score_eq (rowOf m c t d0 d1 d2 d3 d4 d5 d6 d7 ⟨(j 0).val, hp'⟩ hp) ⟨(j 1).val, hn⟩

/-- Tile `t` of the new hidden state: the body's store, cut to the rows inside the array, is the specification's tile. -/
theorem cut9 (c : Dev nD) (t : Fin cfg0.N) (d0 d1 d2 d3 d4 d5) :
    (cfg0.win 9).cut (cfg0.grid.coords t) (outH (stagedIn m c 0 t d0) (stagedIn m c 1 t d1) (stagedIn m c 2 t d2) (stagedIn m c 3 t d3) (stagedIn m c 4 t d4) (stagedIn m c 5 t d5))
      = ((cfg0.win 9).blk t).view.read (Elt Ideal) (GH m c) := by
  obtain ⟨i0, i1, x0, x1⟩ := (tile_facts t).2.2.2.2.1
  funext j
  have hp : (j 0).val < min 6144 (500000 - 6144 * t.val) := by
    have h := (j 0).isLt
    change (j 0).val < win0_9.xsize (grid0.coords t) (0 : Fin 2) at h
    rwa [x0] at h
  have hn : (j 1).val < 32 := by
    have h := (j 1).isLt
    change (j 1).val < win0_9.xsize (grid0.coords t) (1 : Fin 2) at h
    rwa [x1] at h
  have hp' : (j 0).val < 6144 := lt_of_lt_of_le hp (min_le_left _ _)
  show outH _ _ _ _ _ _ ((cfg0.win 9).xinj (cfg0.grid.coords t) j) = GH m c (((cfg0.win 9).blk t).view.emb j)
  have e1 : (cfg0.win 9).xinj (cfg0.grid.coords t) j = ix2 (⟨(j 0).val, hp'⟩ : Fin 6144) (⟨(j 1).val, hn⟩ : Fin 32) :=
    funext fun a => match a with | ⟨0, _⟩ => rfl | ⟨1, _⟩ => rfl
  have e2 : ((cfg0.win 9).blk t).view.emb j = ix2 (nodeOf t ⟨(j 0).val, hp'⟩ hp) (⟨(j 1).val, hn⟩ : Fin 32) :=
    funext fun a => Fin.ext (by
      rw [emb9]
      match a with
      | ⟨0, _⟩ => show win0_9.index t (0 : Fin 2) * 6144 + 1 * (j 0).val = 6144 * t.val + (j 0).val; rw [i0]; omega
      | ⟨1, _⟩ => show win0_9.index t (1 : Fin 2) * 32 + 1 * (j 1).val = (j 1).val; rw [i1]; omega)
  rw [e1, e2]
  unfold outH
  rw [View.canon_unit_zero hz]
  simp only [View.ld_unit_zero (S := S6144x165) hz, View.ld_unit_zero (S := S6144x32) hz, View.ld_unit_zero (S := S165x128) hz, View.ld_unit_zero (S := S32x128) hz, View.ld_unit_zero (S := S1x128) hz, View.ld_unit_zero (S := S32x2) hz, View.ld_unit_zero (S := S1x2) hz]
  exact Cert.KernelValue.hid_eq (rowOf m c t d0 d1 d2 d3 d4 d5 (fun _ => zi) (fun _ => zi) ⟨(j 0).val, hp'⟩ hp) ⟨(j 1).val, hn⟩

/-- Tile `t` of the new cell state: the body's store, cut to the rows inside the array, is the specification's tile. -/
theorem cut10 (c : Dev nD) (t : Fin cfg0.N) (d0 d1 d2 d3 d4 d5) :
    (cfg0.win 10).cut (cfg0.grid.coords t) (outC (stagedIn m c 0 t d0) (stagedIn m c 1 t d1) (stagedIn m c 2 t d2) (stagedIn m c 3 t d3) (stagedIn m c 4 t d4) (stagedIn m c 5 t d5))
      = ((cfg0.win 10).blk t).view.read (Elt Ideal) (GC m c) := by
  obtain ⟨i0, i1, x0, x1⟩ := (tile_facts t).2.2.2.2.2
  funext j
  have hp : (j 0).val < min 6144 (500000 - 6144 * t.val) := by
    have h := (j 0).isLt
    change (j 0).val < win0_10.xsize (grid0.coords t) (0 : Fin 2) at h
    rwa [x0] at h
  have hn : (j 1).val < 32 := by
    have h := (j 1).isLt
    change (j 1).val < win0_10.xsize (grid0.coords t) (1 : Fin 2) at h
    rwa [x1] at h
  have hp' : (j 0).val < 6144 := lt_of_lt_of_le hp (min_le_left _ _)
  show outC _ _ _ _ _ _ ((cfg0.win 10).xinj (cfg0.grid.coords t) j) = GC m c (((cfg0.win 10).blk t).view.emb j)
  have e1 : (cfg0.win 10).xinj (cfg0.grid.coords t) j = ix2 (⟨(j 0).val, hp'⟩ : Fin 6144) (⟨(j 1).val, hn⟩ : Fin 32) :=
    funext fun a => match a with | ⟨0, _⟩ => rfl | ⟨1, _⟩ => rfl
  have e2 : ((cfg0.win 10).blk t).view.emb j = ix2 (nodeOf t ⟨(j 0).val, hp'⟩ hp) (⟨(j 1).val, hn⟩ : Fin 32) :=
    funext fun a => Fin.ext (by
      rw [emb10]
      match a with
      | ⟨0, _⟩ => show win0_10.index t (0 : Fin 2) * 6144 + 1 * (j 0).val = 6144 * t.val + (j 0).val; rw [i0]; omega
      | ⟨1, _⟩ => show win0_10.index t (1 : Fin 2) * 32 + 1 * (j 1).val = (j 1).val; rw [i1]; omega)
  rw [e1, e2]
  unfold outC
  rw [View.canon_unit_zero hz]
  simp only [View.ld_unit_zero (S := S6144x165) hz, View.ld_unit_zero (S := S6144x32) hz, View.ld_unit_zero (S := S165x128) hz, View.ld_unit_zero (S := S32x128) hz, View.ld_unit_zero (S := S1x128) hz, View.ld_unit_zero (S := S32x2) hz, View.ld_unit_zero (S := S1x2) hz]
  exact Cert.KernelValue.cell_eq (rowOf m c t d0 d1 d2 d3 d4 d5 (fun _ => zi) (fun _ => zi) ⟨(j 0).val, hp'⟩ hp) ⟨(j 1).val, hn⟩

end Cert.KernelIdeal.Hand

end
-- ==== Proof.KiRun.lean ====
/-
  The idealized kernel runs, and its three results are the specification's arrays.

  The body obligation: handed the eight input tiles (anything past the arrays' end) and three result buffers holding
  anything, the body returns the inputs as they were and each result buffer holding, on the rows inside the array,
  the specification's tile. The launch then gives each array after every write-back; an index of a result array
  with row i lies in tile i / 6144, so the tiles cover the array and it ends holding the specification's array.
-/
import proofs.«176817_j74887049773819_2_alg».proof.Proof.KiData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The body obligation -/

def bodyPreI (c : Dev nD) (t : Fin cfg0.N) : sProp 𝕄 :=
  iprop((datsI m 0 c).Φ t.castSucc ∗ (datsI m 0 c).owesAt () t.castSucc
    ∗ (∃ d, owns (c : Thread nD τ) (st0_0 t) fullShare ((datsI m 0 c).before 0 t d))
    ∗ (∃ d, owns (c : Thread nD τ) (st0_1 t) fullShare ((datsI m 0 c).before 1 t d))
    ∗ (∃ d, owns (c : Thread nD τ) (st0_2 t) fullShare ((datsI m 0 c).before 2 t d))
    ∗ (∃ d, owns (c : Thread nD τ) (st0_3 t) fullShare ((datsI m 0 c).before 3 t d))
    ∗ (∃ d, owns (c : Thread nD τ) (st0_4 t) fullShare ((datsI m 0 c).before 4 t d))
    ∗ (∃ d, owns (c : Thread nD τ) (st0_5 t) fullShare ((datsI m 0 c).before 5 t d))
    ∗ (∃ d, owns (c : Thread nD τ) (st0_6 t) fullShare ((datsI m 0 c).before 6 t d))
    ∗ (∃ d, owns (c : Thread nD τ) (st0_7 t) fullShare ((datsI m 0 c).before 7 t d))
    ∗ (∃ d, owns (c : Thread nD τ) (st0_8 t) fullShare ((datsI m 0 c).before 8 t d))
    ∗ (∃ d, owns (c : Thread nD τ) (st0_9 t) fullShare ((datsI m 0 c).before 9 t d))
    ∗ (∃ d, owns (c : Thread nD τ) (st0_10 t) fullShare ((datsI m 0 c).before 10 t d)))

def bodyPostI (c : Dev nD) (t : Fin cfg0.N) : sProp 𝕄 :=
  iprop((datsI m 0 c).Φ t.succ ∗ (datsI m 0 c).owesAt () t.succ
    ∗ (∃ d, owns (c : Thread nD τ) (st0_0 t) fullShare ((cfg0.win 0).fill (cfg0.grid.coords t) d ((cfg0.win 0).cut (cfg0.grid.coords t) ((datsI m 0 c).after 0 t))))
    ∗ (∃ d, owns (c : Thread nD τ) (st0_1 t) fullShare ((cfg0.win 1).fill (cfg0.grid.coords t) d ((cfg0.win 1).cut (cfg0.grid.coords t) ((datsI m 0 c).after 1 t))))
    ∗ (∃ d, owns (c : Thread nD τ) (st0_2 t) fullShare ((cfg0.win 2).fill (cfg0.grid.coords t) d ((cfg0.win 2).cut (cfg0.grid.coords t) ((datsI m 0 c).after 2 t))))
    ∗ owns (c : Thread nD τ) (st0_3 t) fullShare ((datsI m 0 c).after 3 t)
    ∗ owns (c : Thread nD τ) (st0_4 t) fullShare ((datsI m 0 c).after 4 t)
    ∗ owns (c : Thread nD τ) (st0_5 t) fullShare ((datsI m 0 c).after 5 t)
    ∗ owns (c : Thread nD τ) (st0_6 t) fullShare ((datsI m 0 c).after 6 t)
    ∗ owns (c : Thread nD τ) (st0_7 t) fullShare ((datsI m 0 c).after 7 t)
    ∗ (∃ d, owns (c : Thread nD τ) (st0_8 t) fullShare ((cfg0.win 8).fill (cfg0.grid.coords t) d ((cfg0.win 8).cut (cfg0.grid.coords t) ((datsI m 0 c).after 8 t))))
    ∗ (∃ d, owns (c : Thread nD τ) (st0_9 t) fullShare ((cfg0.win 9).fill (cfg0.grid.coords t) d ((cfg0.win 9).cut (cfg0.grid.coords t) ((datsI m 0 c).after 9 t))))
    ∗ (∃ d, owns (c : Thread nD τ) (st0_10 t) fullShare ((cfg0.win 10).fill (cfg0.grid.coords t) d ((cfg0.win 10).cut (cfg0.grid.coords t) ((datsI m 0 c).after 10 t)))))

theorem sound_bodyI (c : Dev nD) (t : Fin cfg0.N) :
    bodyPreI m c t ⊢ wp frame (wpE (defs₀ (F := Ideal)) Variants.none c none) Set.univ (bodyAt0 t) (fun _ => bodyPostI m c t) := by
  unfold bodyPreI bodyPostI bodyAt0
  simp only [befI0, befI1, befI2, befI3, befI4, befI5, befI6, befI7, befI8, befI9, befI10]
  rw [show (datsI m 0 c).Φ t.succ = (datsI m 0 c).Φ t.castSucc from rfl,
    show (datsI m 0 c).owesAt () t.succ = (datsI m 0 c).owesAt () t.castSucc from rfl,
    keepI0, keepI1, keepI2, afterI3, afterI4, afterI5, afterI6, afterI7, afterI8, afterI9, afterI10,
    Window.cut_fill, Window.cut_fill, Window.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10⟩
  iapply (sound_kernel c Set.univ (grid0.coords t) _ _ _ _ _ _ _ _ _ _ _ _ _ _ _ _ _ _ _ _ _ _
    (stagedIn m c 0 t d0) (stagedIn m c 1 t d1) (stagedIn m c 2 t d2) (stagedIn m c 3 t d3) (stagedIn m c 4 t d4)
    (stagedIn m c 5 t d5) (stagedIn m c 6 t d6) (stagedIn m c 7 t d7) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Ho]; · iexact Ho
  isplitl [H0]; · iexists d0; iexact H0
  isplitl [H1]; · iexists d1; iexact H1
  isplitl [H2]; · iexists d2; iexact H2
  isplitl [H3]; · rw [wholeI3 m c t (fun _ => zi) d3]; iexact H3
  isplitl [H4]; · rw [wholeI4 m c t (fun _ => zi) d4]; iexact H4
  isplitl [H5]; · rw [wholeI5 m c t (fun _ => zi) d5]; iexact H5
  isplitl [H6]; · rw [wholeI6 m c t (fun _ => zi) d6]; iexact H6
  isplitl [H7]; · rw [wholeI7 m c t (fun _ => zi) d7]; iexact H7
  isplitl [H8]
  · iexists _
    rw [← cut8 m c t d0 d1 d2 d3 d4 d5 d6 d7, Window.fill_cut]; iexact H8
  isplitl [H9]
  · iexists _
    rw [← cut9 m c t d0 d1 d2 d3 d4 d5, Window.fill_cut]; iexact H9
  iexists _
  rw [← cut10 m c t d0 d1 d2 d3 d4 d5, Window.fill_cut]; iexact H10

theorem body_obligationI (c : Dev nD) : BodyObligationLoose (datsI m 0 c) (defs₀ (F := Ideal)) Variants.none () Set.univ := fun t => by
  rw [bigSep_W0, bigSep_W0]
  exact sound_bodyI m c t

/-! ## The launch -/

set_option backward.isDefEq.respectTransparency.types false in
theorem run_mainI : θ_run defs (onTc (τ := τ) (main (F := Ideal))) (s₀ m ρ) (Pipeline.FramePost cfgs (datsI m) 0 (V m)) :=
  Pipeline.θ_run_frame cfgs (datsI m) (0 : Fin 1) launch0 defs₀ Variants.none m ρ main
    (hbody := fun c => body_obligationI m c) (hshare := fun c => (datsI m 0 c).share_full fun _ => rfl)
    (howed := fun _ _ => rfl) (V := V m) (hmain := hmain m Variants.none) (hA := A_eqI m) (hΦ := fun _ _ => rfl)

/-! ## The tiles cover the result arrays -/

/-- What point `t` writes back is tile `t` of the specification's array. -/
theorem flushed8 (c : Dev nD) (t : Fin cfg0.N) :
    (datsI m 0 c).flushed 8 t = ((cfg0.win 8).blk t).view.read (Elt Ideal) (GY m c) := by
  show (cfg0.win 8).cut (grid0.coords t) ((datsI m 0 c).after 8 t) = _
  rw [afterI8]; exact (cfg0.win 8).cut_fill _ _ _

/-- An index is in tile `t` iff each coordinate is in the tile's range on its axis, cut at the array's end. -/
theorem mem_blk8 (t : Fin cfg0.N) (i : S500000x2.Idx) :
    i ∈ ((cfg0.win 8).blk t).view.set ↔ ∀ a : Fin 2, win0_8.index t a * S6144x2.size a ≤ (i a).val ∧ (i a).val < win0_8.index t a * S6144x2.size a + win0_8.xsize (grid0.coords t) a := by
  show i ∈ ((View.whole main_v12_0).slice (win0_8.rect t)).set ↔ _
  rw [View.set_slice_whole, Rect.mem_set_unit]
  exact Iff.rfl

/-- Row i of the array lies in tile i / 6144. -/
theorem cover8 (i : S500000x2.Idx) :
    ∃ t : Fin cfg0.N, (cfg0.win 8).flush t = true ∧ i ∈ ((cfg0.win 8).blk t).view.set := by
  have hi0 : (i 0).val < 500000 := (i 0).isLt
  have hi1 : (i 1).val < 2 := (i 1).isLt
  refine ⟨⟨(i 0).val / 6144, by show (i 0).val / 6144 < 82; omega⟩, flush0_8 _, ?_⟩
  rw [mem_blk8]
  obtain ⟨i0, i1, x0, x1⟩ := (tile_facts ⟨(i 0).val / 6144, by show (i 0).val / 6144 < 82; omega⟩).2.2.2.1
  intro a
  match a with
  | ⟨0, _⟩ =>
    show win0_8.index _ (0 : Fin 2) * 6144 ≤ (i 0).val ∧ (i 0).val < win0_8.index _ (0 : Fin 2) * 6144 + win0_8.xsize _ (0 : Fin 2)
    rw [i0, x0]; show (i 0).val / 6144 * 6144 ≤ (i 0).val ∧ (i 0).val < (i 0).val / 6144 * 6144 + min 6144 (500000 - 6144 * ((i 0).val / 6144)); omega
  | ⟨1, _⟩ =>
    show win0_8.index _ (1 : Fin 2) * 2 ≤ (i 1).val ∧ (i 1).val < win0_8.index _ (1 : Fin 2) * 2 + win0_8.xsize _ (1 : Fin 2)
    rw [i1, x1]; omega

/-- The array after the run. -/
theorem final8 (c : Dev nD) : (datsI m 0 c).arrAt 8 cfg0.N = GY m c :=
  (datsI m 0 c).arrAt_eq_of_cover 8 (GY m c) (fun t _ => flushed8 m c t) (cover8)

/-- What point `t` writes back is tile `t` of the specification's array. -/
theorem flushed9 (c : Dev nD) (t : Fin cfg0.N) :
    (datsI m 0 c).flushed 9 t = ((cfg0.win 9).blk t).view.read (Elt Ideal) (GH m c) := by
  show (cfg0.win 9).cut (grid0.coords t) ((datsI m 0 c).after 9 t) = _
  rw [afterI9]; exact (cfg0.win 9).cut_fill _ _ _

/-- An index is in tile `t` iff each coordinate is in the tile's range on its axis, cut at the array's end. -/
theorem mem_blk9 (t : Fin cfg0.N) (i : S500000x32.Idx) :
    i ∈ ((cfg0.win 9).blk t).view.set ↔ ∀ a : Fin 2, win0_9.index t a * S6144x32.size a ≤ (i a).val ∧ (i a).val < win0_9.index t a * S6144x32.size a + win0_9.xsize (grid0.coords t) a := by
  show i ∈ ((View.whole main_v12_1).slice (win0_9.rect t)).set ↔ _
  rw [View.set_slice_whole, Rect.mem_set_unit]
  exact Iff.rfl

/-- Row i of the array lies in tile i / 6144. -/
theorem cover9 (i : S500000x32.Idx) :
    ∃ t : Fin cfg0.N, (cfg0.win 9).flush t = true ∧ i ∈ ((cfg0.win 9).blk t).view.set := by
  have hi0 : (i 0).val < 500000 := (i 0).isLt
  have hi1 : (i 1).val < 32 := (i 1).isLt
  refine ⟨⟨(i 0).val / 6144, by show (i 0).val / 6144 < 82; omega⟩, flush0_9 _, ?_⟩
  rw [mem_blk9]
  obtain ⟨i0, i1, x0, x1⟩ := (tile_facts ⟨(i 0).val / 6144, by show (i 0).val / 6144 < 82; omega⟩).2.2.2.2.1
  intro a
  match a with
  | ⟨0, _⟩ =>
    show win0_9.index _ (0 : Fin 2) * 6144 ≤ (i 0).val ∧ (i 0).val < win0_9.index _ (0 : Fin 2) * 6144 + win0_9.xsize _ (0 : Fin 2)
    rw [i0, x0]; show (i 0).val / 6144 * 6144 ≤ (i 0).val ∧ (i 0).val < (i 0).val / 6144 * 6144 + min 6144 (500000 - 6144 * ((i 0).val / 6144)); omega
  | ⟨1, _⟩ =>
    show win0_9.index _ (1 : Fin 2) * 32 ≤ (i 1).val ∧ (i 1).val < win0_9.index _ (1 : Fin 2) * 32 + win0_9.xsize _ (1 : Fin 2)
    rw [i1, x1]; omega

/-- The array after the run. -/
theorem final9 (c : Dev nD) : (datsI m 0 c).arrAt 9 cfg0.N = GH m c :=
  (datsI m 0 c).arrAt_eq_of_cover 9 (GH m c) (fun t _ => flushed9 m c t) (cover9)

/-- What point `t` writes back is tile `t` of the specification's array. -/
theorem flushed10 (c : Dev nD) (t : Fin cfg0.N) :
    (datsI m 0 c).flushed 10 t = ((cfg0.win 10).blk t).view.read (Elt Ideal) (GC m c) := by
  show (cfg0.win 10).cut (grid0.coords t) ((datsI m 0 c).after 10 t) = _
  rw [afterI10]; exact (cfg0.win 10).cut_fill _ _ _

/-- An index is in tile `t` iff each coordinate is in the tile's range on its axis, cut at the array's end. -/
theorem mem_blk10 (t : Fin cfg0.N) (i : S500000x32.Idx) :
    i ∈ ((cfg0.win 10).blk t).view.set ↔ ∀ a : Fin 2, win0_10.index t a * S6144x32.size a ≤ (i a).val ∧ (i a).val < win0_10.index t a * S6144x32.size a + win0_10.xsize (grid0.coords t) a := by
  show i ∈ ((View.whole main_v12_2).slice (win0_10.rect t)).set ↔ _
  rw [View.set_slice_whole, Rect.mem_set_unit]
  exact Iff.rfl

/-- Row i of the array lies in tile i / 6144. -/
theorem cover10 (i : S500000x32.Idx) :
    ∃ t : Fin cfg0.N, (cfg0.win 10).flush t = true ∧ i ∈ ((cfg0.win 10).blk t).view.set := by
  have hi0 : (i 0).val < 500000 := (i 0).isLt
  have hi1 : (i 1).val < 32 := (i 1).isLt
  refine ⟨⟨(i 0).val / 6144, by show (i 0).val / 6144 < 82; omega⟩, flush0_10 _, ?_⟩
  rw [mem_blk10]
  obtain ⟨i0, i1, x0, x1⟩ := (tile_facts ⟨(i 0).val / 6144, by show (i 0).val / 6144 < 82; omega⟩).2.2.2.2.2
  intro a
  match a with
  | ⟨0, _⟩ =>
    show win0_10.index _ (0 : Fin 2) * 6144 ≤ (i 0).val ∧ (i 0).val < win0_10.index _ (0 : Fin 2) * 6144 + win0_10.xsize _ (0 : Fin 2)
    rw [i0, x0]; show (i 0).val / 6144 * 6144 ≤ (i 0).val ∧ (i 0).val < (i 0).val / 6144 * 6144 + min 6144 (500000 - 6144 * ((i 0).val / 6144)); omega
  | ⟨1, _⟩ =>
    show win0_10.index _ (1 : Fin 2) * 32 ≤ (i 1).val ∧ (i 1).val < win0_10.index _ (1 : Fin 2) * 32 + win0_10.xsize _ (1 : Fin 2)
    rw [i1, x1]; omega

/-- The array after the run. -/
theorem final10 (c : Dev nD) : (datsI m 0 c).arrAt 10 cfg0.N = GC m c :=
  (datsI m 0 c).arrAt_eq_of_cover 10 (GC m c) (fun t _ => flushed10 m c t) (cover10)

/-! ## The run, read -/

/-- From any memory with zero counters every weakly fair execution of the idealized kernel program terminates; the
    three results are the specification's arrays of the arguments and the arguments are unchanged. -/
theorem run : θ_run defs (onTc (τ := τ) (main (F := Ideal))) ⟨m, fun _ => 0, ρ⟩ (fun r => ∀ c : Dev nD,
      r.2.mem ((c.tc : Thread nD τ).loc main_v12_0) = GY m c
      ∧ r.2.mem ((c.tc : Thread nD τ).loc main_v12_1) = GH m c
      ∧ r.2.mem ((c.tc : Thread nD τ).loc main_v12_2) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun r h c => ⟨((h c).1 8).trans (final8 m c), ((h c).1 9).trans (final9 m c), ((h c).1 10).trans (final10 m c),
      ((h c).1 0).trans (((datsI m 0 c).arrAt_in 0 rfl _).trans ((A_eqI m c 0).trans (Cert.KernelHost.VV_main_arg0 m c))),
      ((h c).2 main_arg1 (Pipeline.mem_restRefs_of main_arg1 (by decide) (by decide))).trans (Cert.KernelHost.VV_main_arg1 m c),
      ((h c).2 main_arg2 (Pipeline.mem_restRefs_of main_arg2 (by decide) (by decide))).trans (Cert.KernelHost.VV_main_arg2 m c),
      ((h c).1 1).trans (((datsI m 0 c).arrAt_in 1 rfl _).trans ((A_eqI m c 1).trans (Cert.KernelHost.VV_main_arg3 m c))),
      ((h c).1 2).trans (((datsI m 0 c).arrAt_in 2 rfl _).trans ((A_eqI m c 2).trans (Cert.KernelHost.VV_main_arg4 m c))),
      ((h c).2 main_arg5 (Pipeline.mem_restRefs_of main_arg5 (by decide) (by decide))).trans (Cert.KernelHost.VV_main_arg5 m c),
      ((h c).2 main_arg6 (Pipeline.mem_restRefs_of main_arg6 (by decide) (by decide))).trans (Cert.KernelHost.VV_main_arg6 m c),
      ((h c).2 main_arg7 (Pipeline.mem_restRefs_of main_arg7 (by decide) (by decide))).trans (Cert.KernelHost.VV_main_arg7 m c),
      ((h c).2 main_arg8 (Pipeline.mem_restRefs_of main_arg8 (by decide) (by decide))).trans (Cert.KernelHost.VV_main_arg8 m c),
      ((h c).2 main_arg9 (Pipeline.mem_restRefs_of main_arg9 (by decide) (by decide))).trans (Cert.KernelHost.VV_main_arg9 m c),
      ((h c).2 main_arg10 (Pipeline.mem_restRefs_of main_arg10 (by decide) (by decide))).trans (Cert.KernelHost.VV_main_arg10 m c),
      ((h c).2 main_arg11 (Pipeline.mem_restRefs_of main_arg11 (by decide) (by decide))).trans (Cert.KernelHost.VV_main_arg11 m c),
      ((h c).2 main_arg12 (Pipeline.mem_restRefs_of main_arg12 (by decide) (by decide))).trans (Cert.KernelHost.VV_main_arg12 m c),
      ((h c).2 main_arg13 (Pipeline.mem_restRefs_of main_arg13 (by decide) (by decide))).trans (Cert.KernelHost.VV_main_arg13 m c),
      ((h c).2 main_arg14 (Pipeline.mem_restRefs_of main_arg14 (by decide) (by decide))).trans (Cert.KernelHost.VV_main_arg14 m c),
      ((h c).2 main_arg15 (Pipeline.mem_restRefs_of main_arg15 (by decide) (by decide))).trans (Cert.KernelHost.VV_main_arg15 m c),
      ((h c).2 main_arg16 (Pipeline.mem_restRefs_of main_arg16 (by decide) (by decide))).trans (Cert.KernelHost.VV_main_arg16 m c),
      ((h c).2 main_arg17 (Pipeline.mem_restRefs_of main_arg17 (by decide) (by decide))).trans (Cert.KernelHost.VV_main_arg17 m c),
      ((h c).2 main_arg18 (Pipeline.mem_restRefs_of main_arg18 (by decide) (by decide))).trans (Cert.KernelHost.VV_main_arg18 m c),
      ((h c).2 main_arg19 (Pipeline.mem_restRefs_of main_arg19 (by decide) (by decide))).trans (Cert.KernelHost.VV_main_arg19 m c),
      ((h c).2 main_arg20 (Pipeline.mem_restRefs_of main_arg20 (by decide) (by decide))).trans (Cert.KernelHost.VV_main_arg20 m c),
      ((h c).1 6).trans (((datsI m 0 c).arrAt_in 6 rfl _).trans ((A_eqI m c 6).trans (Cert.KernelHost.VV_main_arg21 m c))),
      ((h c).2 main_arg22 (Pipeline.mem_restRefs_of main_arg22 (by decide) (by decide))).trans (Cert.KernelHost.VV_main_arg22 m c)⟩) (run_mainI m ρ)

end Cert.KernelIdeal.Hand

end
-- ==== Proof.RefIsSpec.lean ====
/-
  The reference program computes the cell of CellSpec.lean.

  Read one operation at a time, the reference builds each gate's pre-activation as two matrix products added, then
  the recurrent bias (a vector, broadcast along the nodes), then the input bias (a row, broadcast along the nodes);
  it spells the logistic function as 1 / (1 + exp(-z)); and it forms the new cell state, the new hidden state and
  the class scores exactly as the specification does. So at every node and unit the two are the same extended
  real, term for term: a matrix product read at an index is the sum over the contracted axis, a broadcast read at an
  index is its operand at the kept coordinates, and the two float literals are the extended reals 1 and 0. No law of
  arithmetic is used beyond that, and no input needs to be finite.

  The last theorem restates the reference's run with its three results named by the specification's arrays.
-/
import proofs.«176817_j74887049773819_2_alg».proof.Proof.Gen.ReferenceIdeal.Read
import proofs.«176817_j74887049773819_2_alg».proof.Proof.CellSpec

noncomputable section

open scoped BigOperators

namespace Cert.RefValue

open Cert.ReferenceIdeal Cert.ReferenceIdeal.Gen Cert.ReferenceIdeal.Read Cert.Spec
open Idealize.ShloMosaic Idealize.ShloMosaic.TcCoe Idealize.SL.Sem Idealize.ShloMosaic.ValueIdx

/-! ## The two literals -/

/-- The word 0x3F800000 is the number one: sign 0, exponent 127 (the bias), fraction 0. -/
theorem one_f32 : Ideal.ofBits .f32 0x3F800000#32 = 1 := by
  simp [Ideal.ofBits, Ideal.ieee, -EReal.coe_mul]; norm_num

/-! ## Where each operand is read

  For the entry (r, j) of a product of an [n, K] matrix with a [K, 32] matrix the k-th term reads the left operand at
  (r, k) and the right one at (k, j); a vector broadcast to a row and then along the nodes is read at j; a row
  broadcast along the nodes is read at (0, j). -/

theorem lidx_feat (r : Fin 500000) (j : Fin 32) (k : Fin 165) : lidx_main_v0 (ix2 r j) k = ix2 r k :=
  funext fun a => Fin.ext (by match a with | ⟨0, _⟩ => rfl | ⟨1, _⟩ => rfl)
theorem ridx_feat (r : Fin 500000) (j : Fin 32) (k : Fin 165) : ridx_main_v0 (ix2 r j) k = ix2 k j :=
  funext fun a => Fin.ext (by match a with | ⟨0, _⟩ => rfl | ⟨1, _⟩ => rfl)
theorem lidx_hid (r : Fin 500000) (j : Fin 32) (k : Fin 32) : lidx_main_v1 (ix2 r j) k = ix2 r k :=
  funext fun a => Fin.ext (by match a with | ⟨0, _⟩ => rfl | ⟨1, _⟩ => rfl)
theorem ridx_hid (r : Fin 500000) (j : Fin 32) (k : Fin 32) : ridx_main_v1 (ix2 r j) k = ix2 k j :=
  funext fun a => Fin.ext (by match a with | ⟨0, _⟩ => rfl | ⟨1, _⟩ => rfl)
theorem idx_bvec (r : Fin 500000) (j : Fin 32) : idx_main_v3 (idx_main_v4 (ix2 r j)) = ix1 j :=
  funext fun a => Fin.ext (by match a with | ⟨0, _⟩ => rfl)
theorem idx_brow (r : Fin 500000) (j : Fin 32) : idx_main_v6 (ix2 r j) = ix2 (0 : Fin 1) j :=
  funext fun a => Fin.ext (by match a with | ⟨0, _⟩ => rfl | ⟨1, _⟩ => rfl)
theorem lidx_cls (r : Fin 500000) (n : Fin 2) (k : Fin 32) : lidx_main_v57 (ix2 r n) k = ix2 r k :=
  funext fun a => Fin.ext (by match a with | ⟨0, _⟩ => rfl | ⟨1, _⟩ => rfl)
theorem ridx_cls (r : Fin 500000) (n : Fin 2) (k : Fin 32) : ridx_main_v57 (ix2 r n) k = ix2 k n :=
  funext fun a => Fin.ext (by match a with | ⟨0, _⟩ => rfl | ⟨1, _⟩ => rfl)
theorem idx_bout (r : Fin 500000) (n : Fin 2) : idx_main_v58 (idx_main_v59 (ix2 r n)) = ix1 n :=
  funext fun a => Fin.ext (by match a with | ⟨0, _⟩ => rfl)

/-! ## A gate's pre-activation -/

/-- What every gate's pre-activation is once its eight operations are read at the entry (r, j): the four gates use
    the same index functions under four names, so this one statement serves them all. -/
theorem gate_form (x : Feat) (h : State) (W : WIn) (Wc : WRec) (b : BRow) (bc : BVec) (r : Fin 500000) (j : Fin 32) :
    FloatOps.addf (F := Ideal) (φ := .f32) (FloatOps.addf (F := Ideal) (φ := .f32) (FloatOps.addf (F := Ideal) (φ := .f32)
        (∑ k : Fin 165, x (lidx_main_v0 (ix2 r j) k) * W (ridx_main_v0 (ix2 r j) k))
        (∑ k : Fin 32, h (lidx_main_v1 (ix2 r j) k) * Wc (ridx_main_v1 (ix2 r j) k)))
        (bc (idx_main_v3 (idx_main_v4 (ix2 r j))))) (b (idx_main_v6 (ix2 r j)))
      = gatePre x h W Wc b bc r j := by
  simp only [lidx_feat, ridx_feat, lidx_hid, ridx_hid, idx_bvec, idx_brow]
  rfl

/-- The input gate's pre-activation. -/
theorem pre_i (x0 : Feat) (x3 : State) (x5 : WIn) (x9 : BRow) (x13 : WRec) (x17 : BVec) (r : Fin 500000) (j : Fin 32) :
    val_main_v7 (F := Ideal) x0 x3 x5 x9 x13 x17 (ix2 r j) = gatePre x0 x3 x5 x13 x9 x17 r j := by
  rw [val_main_v7_apply, val_main_v5_apply, val_main_v2_apply, val_main_v0_apply, val_main_v1_apply,
    val_main_v4_apply, val_main_v3_apply, val_main_v6_apply]
  exact gate_form x0 x3 x5 x13 x9 x17 r j

/-- The forget gate's pre-activation. -/
theorem pre_f (x0 : Feat) (x3 : State) (x6 : WIn) (x10 : BRow) (x14 : WRec) (x18 : BVec) (r : Fin 500000) (j : Fin 32) :
    val_main_v21 (F := Ideal) x0 x3 x6 x10 x14 x18 (ix2 r j) = gatePre x0 x3 x6 x14 x10 x18 r j := by
  rw [val_main_v21_apply, val_main_v19_apply, val_main_v16_apply, val_main_v14_apply, val_main_v15_apply,
    val_main_v18_apply, val_main_v17_apply, val_main_v20_apply]
  exact gate_form x0 x3 x6 x14 x10 x18 r j

/-- The candidate's pre-activation. -/
theorem pre_g (x0 : Feat) (x3 : State) (x7 : WIn) (x11 : BRow) (x15 : WRec) (x19 : BVec) (r : Fin 500000) (j : Fin 32) :
    val_main_v35 (F := Ideal) x0 x3 x7 x11 x15 x19 (ix2 r j) = gatePre x0 x3 x7 x15 x11 x19 r j := by
  rw [val_main_v35_apply, val_main_v33_apply, val_main_v30_apply, val_main_v28_apply, val_main_v29_apply,
    val_main_v32_apply, val_main_v31_apply, val_main_v34_apply]
  exact gate_form x0 x3 x7 x15 x11 x19 r j

/-- The output gate's pre-activation. -/
theorem pre_o (x0 : Feat) (x3 : State) (x8 : WIn) (x12 : BRow) (x16 : WRec) (x20 : BVec) (r : Fin 500000) (j : Fin 32) :
    val_main_v47 (F := Ideal) x0 x3 x8 x12 x16 x20 (ix2 r j) = gatePre x0 x3 x8 x16 x12 x20 r j := by
  rw [val_main_v47_apply, val_main_v45_apply, val_main_v42_apply, val_main_v40_apply, val_main_v41_apply,
    val_main_v44_apply, val_main_v43_apply, val_main_v46_apply]
  exact gate_form x0 x3 x8 x16 x12 x20 r j

/-! ## The logistic function -/

/-- One over one plus the exponential of the negated argument is the logistic function, by definition, once the
    literal is read as one. -/
theorem logistic_form (z : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) z)))
      = Ideal.logistic z := by
  simp only [Ideal.ofBits_def, one_f32]
  rfl

/-- The input gate. -/
theorem sig_i (x0 : Feat) (x3 : State) (x5 : WIn) (x9 : BRow) (x13 : WRec) (x17 : BVec) (r : Fin 500000) (j : Fin 32) :
    val_main_v13 (F := Ideal) x0 x3 x5 x9 x13 x17 (ix2 r j) = Ideal.logistic (gatePre x0 x3 x5 x13 x9 x17 r j) := by
  rw [val_main_v13_apply, val_main_v12_apply, val_main_cst_0_apply, val_main_v11_apply, val_main_v10_apply,
    val_main_cst_apply, val_main_v9_apply, val_main_v8_apply, pre_i]
  exact logistic_form _

/-- The forget gate. -/
theorem sig_f (x0 : Feat) (x3 : State) (x6 : WIn) (x10 : BRow) (x14 : WRec) (x18 : BVec) (r : Fin 500000) (j : Fin 32) :
    val_main_v27 (F := Ideal) x0 x3 x6 x10 x14 x18 (ix2 r j) = Ideal.logistic (gatePre x0 x3 x6 x14 x10 x18 r j) := by
  rw [val_main_v27_apply, val_main_v26_apply, val_main_cst_2_apply, val_main_v25_apply, val_main_v24_apply,
    val_main_cst_1_apply, val_main_v23_apply, val_main_v22_apply, pre_f]
  exact logistic_form _

/-- The output gate. -/
theorem sig_o (x0 : Feat) (x3 : State) (x8 : WIn) (x12 : BRow) (x16 : WRec) (x20 : BVec) (r : Fin 500000) (j : Fin 32) :
    val_main_v53 (F := Ideal) x0 x3 x8 x12 x16 x20 (ix2 r j) = Ideal.logistic (gatePre x0 x3 x8 x16 x12 x20 r j) := by
  rw [val_main_v53_apply, val_main_v52_apply, val_main_cst_4_apply, val_main_v51_apply, val_main_v50_apply,
    val_main_cst_3_apply, val_main_v49_apply, val_main_v48_apply, pre_o]
  exact logistic_form _

/-! ## The cell state, the hidden state, the scores -/

/-- The new cell state at a node and unit: forget gate times old cell state plus input gate times candidate. -/
theorem cell_at (x0 : Feat) (x3 x4 : State) (x5 x6 x7 : WIn) (x9 x10 x11 : BRow) (x13 x14 x15 : WRec) (x17 x18 x19 : BVec) (r : Fin 500000) (j : Fin 32) :
    val_main_v39 (F := Ideal) x0 x3 x4 x5 x6 x7 x9 x10 x11 x13 x14 x15 x17 x18 x19 (ix2 r j) = cellNew x0 x3 x4 x5 x6 x7 x13 x14 x15 x9 x10 x11 x17 x18 x19 r j := by
  rw [val_main_v39_apply, val_main_v37_apply, val_main_v38_apply, val_main_v36_apply, sig_f, sig_i, pre_g]
  rfl

theorem cell_eq (x0 : Feat) (x3 x4 : State) (x5 x6 x7 : WIn) (x9 x10 x11 : BRow) (x13 x14 x15 : WRec) (x17 x18 x19 : BVec) :
    val_main_v39 (F := Ideal) x0 x3 x4 x5 x6 x7 x9 x10 x11 x13 x14 x15 x17 x18 x19 = cellArr x0 x3 x4 x5 x6 x7 x13 x14 x15 x9 x10 x11 x17 x18 x19 := by
  funext i
  obtain ⟨r, j, rfl⟩ : ∃ (r : Fin 500000) (j : Fin 32), i = ix2 r j := ⟨i 0, i 1, eq_ix2 i⟩
  exact cell_at x0 x3 x4 x5 x6 x7 x9 x10 x11 x13 x14 x15 x17 x18 x19 r j

/-- The new hidden state at a node and unit: output gate times the hyperbolic tangent of the new cell state. -/
theorem hid_at (x0 : Feat) (x3 x4 : State) (x5 x6 x7 x8 : WIn) (x9 x10 x11 x12 : BRow) (x13 x14 x15 x16 : WRec) (x17 x18 x19 x20 : BVec) (r : Fin 500000) (j : Fin 32) :
    val_main_v55 (F := Ideal) x0 x3 x4 x5 x6 x7 x8 x9 x10 x11 x12 x13 x14 x15 x16 x17 x18 x19 x20 (ix2 r j) = hidNew x0 x3 x4 x5 x6 x7 x8 x13 x14 x15 x16 x9 x10 x11 x12 x17 x18 x19 x20 r j := by
  rw [val_main_v55_apply, val_main_v54_apply, sig_o, cell_at]
  rfl

theorem hid_eq (x0 : Feat) (x3 x4 : State) (x5 x6 x7 x8 : WIn) (x9 x10 x11 x12 : BRow) (x13 x14 x15 x16 : WRec) (x17 x18 x19 x20 : BVec) :
    val_main_v55 (F := Ideal) x0 x3 x4 x5 x6 x7 x8 x9 x10 x11 x12 x13 x14 x15 x16 x17 x18 x19 x20 = hidArr x0 x3 x4 x5 x6 x7 x8 x13 x14 x15 x16 x9 x10 x11 x12 x17 x18 x19 x20 := by
  funext i
  obtain ⟨r, j, rfl⟩ : ∃ (r : Fin 500000) (j : Fin 32), i = ix2 r j := ⟨i 0, i 1, eq_ix2 i⟩
  exact hid_at x0 x3 x4 x5 x6 x7 x8 x9 x10 x11 x12 x13 x14 x15 x16 x17 x18 x19 x20 r j

/-- The rectified hidden state: the maximum with the literal zero. -/
theorem relu_at (x0 : Feat) (x3 x4 : State) (x5 x6 x7 x8 : WIn) (x9 x10 x11 x12 : BRow) (x13 x14 x15 x16 : WRec) (x17 x18 x19 x20 : BVec) (r : Fin 500000) (k : Fin 32) :
    val_main_v56 (F := Ideal) x0 x3 x4 x5 x6 x7 x8 x9 x10 x11 x12 x13 x14 x15 x16 x17 x18 x19 x20 (ix2 r k) = max (hidNew x0 x3 x4 x5 x6 x7 x8 x13 x14 x15 x16 x9 x10 x11 x12 x17 x18 x19 x20 r k) 0 := by
  rw [val_main_v56_apply, val_main_call0_v0_apply, val_main_call0_cst_apply, hid_at]
  show max _ (Ideal.ofBits .f32 0x00000000#32) = _
  rw [Ideal.ofBits_zero_f32]

/-- The class scores at a node and class: the rectified hidden state through the output layer, plus its bias. -/
theorem scores_at (x0 : Feat) (x3 x4 : State) (x5 x6 x7 x8 : WIn) (x9 x10 x11 x12 : BRow) (x13 x14 x15 x16 : WRec) (x17 x18 x19 x20 : BVec) (x21 : WOut) (x22 : BOut) (r : Fin 500000) (n : Fin 2) :
    val_main_v60 (F := Ideal) x0 x3 x4 x5 x6 x7 x8 x9 x10 x11 x12 x13 x14 x15 x16 x17 x18 x19 x20 x21 x22 (ix2 r n) = scores x0 x3 x4 x5 x6 x7 x8 x13 x14 x15 x16 x9 x10 x11 x12 x17 x18 x19 x20 x21 x22 r n := by
  rw [val_main_v60_apply, val_main_v57_apply, val_main_v59_apply, val_main_v58_apply, idx_bout]
  simp only [lidx_cls, ridx_cls, relu_at]
  rfl

theorem scores_eq (x0 : Feat) (x3 x4 : State) (x5 x6 x7 x8 : WIn) (x9 x10 x11 x12 : BRow) (x13 x14 x15 x16 : WRec) (x17 x18 x19 x20 : BVec) (x21 : WOut) (x22 : BOut) :
    val_main_v60 (F := Ideal) x0 x3 x4 x5 x6 x7 x8 x9 x10 x11 x12 x13 x14 x15 x16 x17 x18 x19 x20 x21 x22 = scoreArr x0 x3 x4 x5 x6 x7 x8 x13 x14 x15 x16 x9 x10 x11 x12 x17 x18 x19 x20 x21 x22 := by
  funext i
  obtain ⟨r, n, rfl⟩ : ∃ (r : Fin 500000) (n : Fin 2), i = ix2 r n := ⟨i 0, i 1, eq_ix2 i⟩
  exact scores_at x0 x3 x4 x5 x6 x7 x8 x9 x10 x11 x12 x13 x14 x15 x16 x17 x18 x19 x20 x21 x22 r n

/-! ## The reference's run, over the specification -/

/-- Every weakly fair execution of the reference, from any memory with zero counters, ends with its three results
    at the specification's score, hidden-state and cell-state arrays of the arguments it was launched with, and
    with the arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v60) = scoreArr (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg17)) (m' ((c.tc : Thread nD τ).loc main_arg18)) (m' ((c.tc : Thread nD τ).loc main_arg19)) (m' ((c.tc : Thread nD τ).loc main_arg20)) (m' ((c.tc : Thread nD τ).loc main_arg21)) (m' ((c.tc : Thread nD τ).loc main_arg22))
      ∧ r.2.mem ((c.tc : Thread nD τ).loc main_v55) = hidArr (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg13)) (m' ((c.tc : Thread nD τ).loc main_arg14)) (m' ((c.tc : Thread nD τ).loc main_arg15)) (m' ((c.tc : Thread nD τ).loc main_arg16)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg17)) (m' ((c.tc : Thread nD τ).loc main_arg18)) (m' ((c.tc : Thread nD τ).loc main_arg19)) (m' ((c.tc : Thread nD τ).loc main_arg20))
      ∧ r.2.mem ((c.tc : Thread nD τ).loc main_v39) = cellArr (m' ((c.tc : Thread nD τ).loc main_arg0)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg13)) (m' ((c.tc : Thread nD τ).loc main_arg14)) (m' ((c.tc : Thread nD τ).loc main_arg15)) (m' ((c.tc : Thread nD τ).loc main_arg9)) (m' ((c.tc : Thread nD τ).loc main_arg10)) (m' ((c.tc : Thread nD τ).loc main_arg11)) (m' ((c.tc : Thread nD τ).loc main_arg17)) (m' ((c.tc : Thread nD τ).loc main_arg18)) (m' ((c.tc : Thread nD τ).loc main_arg19))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)
      ∧ r.2.mem ((c.tc : Thread nD τ).loc main_arg21) = m' ((c.tc : Thread nD τ).loc main_arg21)
      ∧ r.2.mem ((c.tc : Thread nD τ).loc main_arg22) = m' ((c.tc : Thread nD τ).loc main_arg22) :=
  (θ_run defs _ _).mono (fun _ h c =>
      ⟨(h c).1.trans ((val_main_v60_eq (F := Ideal) _ _ _ _ _ _ _ _ _ _ _ _ _ _ _ _ _ _ _ _ _).trans (scores_eq _ _ _ _ _ _ _ _ _ _ _ _ _ _ _ _ _ _ _ _ _)),
        (h c).2.1.trans ((val_main_v55_eq (F := Ideal) _ _ _ _ _ _ _ _ _ _ _ _ _ _ _ _ _ _ _).trans (hid_eq _ _ _ _ _ _ _ _ _ _ _ _ _ _ _ _ _ _ _)),
        (h c).2.2.1.trans ((val_main_v39_eq (F := Ideal) _ _ _ _ _ _ _ _ _ _ _ _ _ _ _).trans (cell_eq _ _ _ _ _ _ _ _ _ _ _ _ _ _ _)),
        (h c).2.2.2⟩)
    (Cert.ReferenceIdeal.Value.run (F := Ideal) m' ρ')

end Cert.RefValue

end
-- ==== Proof.lean ====
/-
  A graph-convolutional LSTM cell of order one, with a rectifier and a linear classifier, over 500000 nodes:
  the tiled kernel against the plain array program.

  Order one means no neighbour is read: every node is an ordinary LSTM cell. The reference computes, per gate,
  x·W + h·Wc + bc + b; the kernel first joins the four gates' weights along the lanes and adds each gate's two biases
  on the host, then, tile by tile of 6144 nodes, forms  x·[W_i W_f W_c W_o] + h·[Wc_i … Wc_o] + [b_i+bc_i … b_o+bc_o],
  cuts the 128 lanes back into the four gates, and applies the same logistic functions, hyperbolic tangents,
  products and sums, the same rectifier and the same classifier. Read over the extended reals the two agree node by
  node: lane 32g + j of a product with joined weights is the product with gate g's weights at j, and
  (a + (b + bc)) = ((a + bc) + b) by associativity and commutativity — no distributivity, so no input need be finite,
  and the precondition is never opened. The logistic function is on both sides 1 / (1 + e^(−z)) with the same
  conventions at ±∞.

  The 82 tiles overhang the 500000 rows (the last holds 2336 of them); the rows of a staging buffer past the array's
  end hold words nothing names, and since every operation of the body works row by row they never reach a row that is
  written back. The three frames: each program terminates, faults nowhere and leaves its arguments as they were — for
  the word-level kernel with nothing said of what it computes.
-/
import proofs.«176817_j74887049773819_2_alg».proof.Defs
import proofs.«176817_j74887049773819_2_alg».proof.Proof.Gen.Kernel
import proofs.«176817_j74887049773819_2_alg».proof.Proof.Gen.KernelIdeal
import proofs.«176817_j74887049773819_2_alg».proof.Proof.Gen.ReferenceIdeal
import proofs.«176817_j74887049773819_2_alg».proof.Proof.Gen.Pre_finite_inputs
import proofs.«176817_j74887049773819_2_alg».proof.Proof.KbFrame
import proofs.«176817_j74887049773819_2_alg».proof.Proof.KiRun
import proofs.«176817_j74887049773819_2_alg».proof.Proof.RefIsSpec
import Idealize.ShloMosaic.Adequacy
import Idealize.ShloMosaic.Init

noncomputable section

namespace Cert.Proof

open Idealize.ShloMosaic Idealize.SL.Sem

/-- The word-level kernel program terminates and leaves its arguments unchanged. -/
theorem frame_kernel : Cert.frame_Kernel := fun m ρ _ => Cert.Kernel.Hand.frame (F := Bits) m ρ

/-- So does the idealized one: its run with the results dropped. -/
theorem frame_kernelIdeal : Cert.frame_KernelIdeal := fun m ρ _ =>
  (θ_run Cert.KernelIdeal.defs _ _).mono (fun _ h c => (h c).2.2.2) (Cert.KernelIdeal.Hand.run m ρ)

/-- And the reference: its run with the results dropped. -/
theorem frame_referenceIdeal : Cert.frame_ReferenceIdeal := fun m ρ _ =>
  (θ_run Cert.ReferenceIdeal.defs _ _).mono (fun _ h c => (h c).2.2.2) (Cert.RefValue.ref_run m ρ)

/-- The idealization rewrote nothing. -/
theorem preserves : Cert.preserves_Kernel_KernelIdeal := trivial

/-- From memories agreeing on the arguments both programs end with the specification's three arrays. -/
theorem algebraic : Cert.algebraic_KernelIdeal_ReferenceIdeal := by
  intro m ρ m' ρ' _ hagree
  refine ⟨fun c => Cert.KernelIdeal.Hand.GY m c, fun c => Cert.KernelIdeal.Hand.GH m c, fun c => Cert.KernelIdeal.Hand.GC m c,
    Cert.KernelIdeal.Hand.run m ρ, ?_⟩
  refine (θ_run Cert.ReferenceIdeal.defs _ _).mono (fun _ h c => ⟨(h c).1.trans ?_, (h c).2.1.trans ?_, (h c).2.2.1.trans ?_, (h c).2.2.2⟩)
    (Cert.RefValue.ref_run m' ρ')
  all_goals
    obtain ⟨h0, h1, h2, h3, h4, h5, h6, h7, h8, h9, h10, h11, h12, h13, h14, h15, h16, h17, h18, h19, h20, h21, h22⟩ := hagree c
    simp only [h0, h1, h2, h3, h4, h5, h6, h7, h8, h9, h10, h11, h12, h13, h14, h15, h16, h17, h18, h19, h20, h21, h22]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
